-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128 .f32) (main_arg6 : FVec F S128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S5000x128 : Shape := ⟨2, ![5000, 128]⟩
abbrev S1600000x128 : Shape := ⟨2, ![1600000, 128]⟩

abbrev nBuf : Space → Nat
  | .hbm => 143
  | .vmem => 34
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128, .f32⟩
  | 6 => ⟨S128, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S100000, .f32⟩
  | 49 => ⟨S100000x1, .f32⟩
  | 50 => ⟨S1x128, .f32⟩
  | 51 => ⟨S1x128, .f32⟩
  | 52 => ⟨S100000x128, .f32⟩
  | 53 => ⟨S100000x128, .bf16⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .bf16⟩
  | 63 => ⟨S1600000x128, .f32⟩
  | 64 => ⟨S1600000x1, .f32⟩
  | 65 => ⟨S1600000x128, .f32⟩
  | 66 => ⟨S1600000x128, .f32⟩
  | 67 => ⟨S100000x128, .f32⟩
  | 68 => ⟨S100000x128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S100000x128, .f32⟩
  | 78 => ⟨S1x128, .f32⟩
  | 79 => ⟨S100000x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S1x128, .f32⟩
  | 90 => ⟨S_, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S1x128, .f32⟩
  | 97 => ⟨S100000x128, .f32⟩
  | 98 => ⟨S100000x128, .bf16⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .bf16⟩
  | 108 => ⟨S1600000x128, .f32⟩
  | 109 => ⟨S1600000x1, .f32⟩
  | 110 => ⟨S1600000x128, .f32⟩
  | 111 => ⟨S1600000x128, .f32⟩
  | 112 => ⟨S100000x128, .f32⟩
  | 113 => ⟨S100000x128, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S100000x128, .f32⟩
  | 123 => ⟨S1x128, .f32⟩
  | 124 => ⟨S100000x128, .f32⟩
  | 125 => ⟨S1x128, .f32⟩
  | 126 => ⟨S1x128, .f32⟩
  | 127 => ⟨S_, .f32⟩
  | _ => ⟨S100000x128, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58_0 : Ref sig .tc := ⟨.hbm, 79, rfl⟩
abbrev main_v58_1 : Ref sig .tc := ⟨.hbm, 80, rfl⟩
abbrev main_v58_2 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_14 : Ref sig .tc := ⟨.hbm, 99, rfl⟩
abbrev main_v73 : Ref sig .tc := ⟨.hbm, 100, rfl⟩
abbrev main_v74 : Ref sig .tc := ⟨.hbm, 101, rfl⟩
abbrev main_c_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_16 : Ref sig .tc := ⟨.hbm, 114, rfl⟩
abbrev main_v86 : Ref sig .tc := ⟨.hbm, 115, rfl⟩
abbrev main_v87 : Ref sig .tc := ⟨.hbm, 116, rfl⟩
abbrev main_c_17 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94_0 : Ref sig .tc := ⟨.hbm, 124, rfl⟩
abbrev main_v94_1 : Ref sig .tc := ⟨.hbm, 125, rfl⟩
abbrev main_v94_2 : Ref sig .tc := ⟨.hbm, 126, rfl⟩
abbrev main_cst_18 : Ref sig .tc := ⟨.hbm, 127, rfl⟩
abbrev main_v95 : Ref sig .tc := ⟨.hbm, 128, rfl⟩
abbrev main_v96 : Ref sig .tc := ⟨.hbm, 129, rfl⟩
abbrev main_cst_19 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_20 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc4_sem4_0 : DmaSem sig := 32
abbrev cc4_sem4_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S100000x1_S100000x128_0_1 : S100000x1.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v92) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94_0) S5000x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v94_1) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94_2) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v94_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v104) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg0) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v107) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 215
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128, .f32⟩
  | 6 => ⟨S128, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S100000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S_, .f32⟩
  | 24 => ⟨S1600000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S100000x128, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S_, .f32⟩
  | 98 => ⟨S128, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S_, .f32⟩
  | 115 => ⟨S100000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S_, .f32⟩
  | 125 => ⟨S1600000, .f32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S1600000, .f32⟩
  | 22 => ⟨S_, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S1600000x1, .f32⟩
  | 34 => ⟨S1600000x128, .f32⟩
  | 35 => ⟨S1600000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S100000x128, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S100000x128, .f32⟩
  | 86 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_call0_cst : Ref sig .tc := ⟨.hbm, 110, rfl⟩
abbrev main_call0_v0 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_c_18 : Ref sig .tc := ⟨.hbm, 116, rfl⟩
abbrev main_v86 : Ref sig .tc := ⟨.hbm, 117, rfl⟩
abbrev main_v87 : Ref sig .tc := ⟨.hbm, 118, rfl⟩
abbrev main_c_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_22 : Ref sig .tc := ⟨.hbm, 131, rfl⟩
abbrev main_v97 : Ref sig .tc := ⟨.hbm, 132, rfl⟩
abbrev main_v98 : Ref sig .tc := ⟨.hbm, 133, rfl⟩
abbrev main_c_23 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_24 : Ref sig .tc := ⟨.hbm, 140, rfl⟩
abbrev main_v104 : Ref sig .tc := ⟨.hbm, 141, rfl⟩
abbrev main_v105 : Ref sig .tc := ⟨.hbm, 142, rfl⟩
abbrev main_c_25 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_26 : Ref sig .tc := ⟨.hbm, 150, rfl⟩
abbrev main_v112 : Ref sig .tc := ⟨.hbm, 151, rfl⟩
abbrev main_c_27 : Ref sig .tc := ⟨.hbm, 152, rfl⟩
abbrev main_v113 : Ref sig .tc := ⟨.hbm, 153, rfl⟩
abbrev main_v114 : Ref sig .tc := ⟨.hbm, 154, rfl⟩
abbrev main_c_28 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_c_29 : Ref sig .tc := ⟨.hbm, 164, rfl⟩
abbrev main_v123 : Ref sig .tc := ⟨.hbm, 165, rfl⟩
abbrev main_v124 : Ref sig .tc := ⟨.hbm, 166, rfl⟩
abbrev main_c_30 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_31 : Ref sig .tc := ⟨.hbm, 181, rfl⟩
abbrev main_v138 : Ref sig .tc := ⟨.hbm, 182, rfl⟩
abbrev main_cst_32 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_33 : Ref sig .tc := ⟨.hbm, 190, rfl⟩
abbrev main_v145 : Ref sig .tc := ⟨.hbm, 191, rfl⟩
abbrev main_cst_34 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_35 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_call1_cst : Ref sig .tc := ⟨.hbm, 212, rfl⟩
abbrev main_call1_v0 : Ref sig .tc := ⟨.hbm, 213, rfl⟩
abbrev main_v164 : Ref sig .tc := ⟨.hbm, 214, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
import proofs.«118271_j25778393710892_2_alg».proof.Proof.Gen.KernelIdeal.Frame

/-!
  The idealized kernel program run to its end with its RESULT named: every weakly fair execution terminates, the
  argument arrays end as launched, and the result array holds what the last segment boundary of the program's
  five regions and five stretches of host operations holds at the result buffer (the fold W10 of the frame). The
  frame run states the same execution with the arguments only; here the final thread state, every unscoped buffer
  at the last boundary's contents, is also read at the result buffer.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named. -/
theorem run_result : θ_run defs (onTc (τ := τ) (main (F := F))) ⟨m, fun _ => 0, ρ⟩ (fun r => ∀ c : Dev nD,
      r.2.mem ((c.tc : Thread nD τ).loc main_v107) = W10 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v107 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.Rd.lean ====
import Idealize.ShloMosaic.PureOps.Ideal
import Idealize.ShloMosaic.Lib.ValueIdx

/-! An extended-real array read at a literal shape: the identity, spelt so that the type of an entry is the
    extended reals on sight, whatever buffer type the array came with. -/

namespace Cert.GCN

open Idealize.ShloMosaic

/-- The array itself, its entry type fixed to the extended reals. -/
abbrev rd (S : Shape) (v : S.Idx → EReal) : S.Idx → EReal := v

end Cert.GCN
-- ==== Proof.Spec.lean ====
import Idealize.ShloMosaic.PureOps.Ideal
import Idealize.ShloMosaic.PureOps.Ideal.Laws

/-!
  The two-layer graph convolution with batch normalization, as plain functions on extended-real matrices.

  A layer multiplies the node features by a weight matrix, then every node n adds up its own row weighted by
  dv(n)^2 and, over the edges e landing on n, the row of the source node of e weighted by nr(e); a bias row is added.
  The kernel starts the edge sum from the self term (convK); the reference adds the self term to the finished edge sum
  (convR). Batch normalization takes, per column, the mean and the variance over all nodes: the reference centres
  first and averages the squares (bnR); the kernel takes the mean of the squares minus the squared mean and folds
  everything into one scale and one shift per column (bnK).
-/

noncomputable section

open scoped BigOperators

namespace Cert.GCN

open Idealize.ShloMosaic

/-- node-by-channel matrices -/
abbrev Mat : Type := Fin 100000 → Fin 128 → EReal
/-- the number of nodes as the float literal both programs divide by -/
abbrev cN : EReal := Ideal.ofBits .f32 0x47C35000#32
/-- the variance offset, as the float literal both programs add -/
abbrev eps : EReal := Ideal.ofBits .f32 0x3727C5AC#32

/-- features times weights -/
def mm (a : Mat) (W : Fin 128 → Fin 128 → EReal) : Mat := fun n q => ∑ k : Fin 128, a n k * W k q

/-- entrywise maximum with zero -/
def relu (a : Mat) : Mat := fun n q => max (a n q) 0

/-- one aggregation with bias, the edge sum started from zero and the self term added after it -/
def convR (h : Mat) (dv : Fin 100000 → EReal) (nr : Fin 1600000 → EReal) (sr : Fin 1600000 → Fin 100000)
    (L : Fin 100000 → Finset (Fin 1600000)) (b : Fin 128 → EReal) : Mat :=
  fun n q => ((0 + ∑ e ∈ L n, h (sr e) q * nr e) + h n q * (dv n * dv n)) + b q

/-- one aggregation with bias, the edge sum started from the self term -/
def convK (h : Mat) (dv : Fin 100000 → EReal) (nr : Fin 1600000 → EReal) (sr : Fin 1600000 → Fin 100000)
    (L : Fin 100000 → Finset (Fin 1600000)) (b : Fin 128 → EReal) : Mat :=
  fun n q => (h n q * (dv n * dv n) + ∑ e ∈ L n, h (sr e) q * nr e) + b q

/-- the column mean, the sum started from zero -/
def meanR (g : Mat) (q : Fin 128) : EReal := Ideal.div (0 + ∑ n : Fin 100000, g n q) cN

/-- batch normalization, centred form -/
def bnR (g : Mat) (γ β : Fin 128 → EReal) : Mat :=
  fun n q => (g n q - meanR g q)
    * Ideal.rsqrt (Ideal.div (0 + ∑ n' : Fin 100000, (g n' q - meanR g q) * (g n' q - meanR g q)) cN + eps) * γ q + β q

/-- the column scale of the folded form -/
def scaleK (g : Mat) (γ : Fin 128 → EReal) (q : Fin 128) : EReal :=
  γ q * Ideal.rsqrt ((Ideal.div (∑ n : Fin 100000, g n q * g n q) cN
    - Ideal.div (∑ n : Fin 100000, g n q) cN * Ideal.div (∑ n : Fin 100000, g n q) cN) + eps)

/-- the column shift of the folded form -/
def shiftK (g : Mat) (γ β : Fin 128 → EReal) (q : Fin 128) : EReal :=
  β q - Ideal.div (∑ n : Fin 100000, g n q) cN * scaleK g γ q

/-- batch normalization, folded form -/
def bnK (g : Mat) (γ β : Fin 128 → EReal) : Mat := fun n q => g n q * scaleK g γ q + shiftK g γ β q

/-- the reference network -/
def netR (x : Mat) (W1 W2 : Fin 128 → Fin 128 → EReal) (b1 b2 γ β : Fin 128 → EReal) (dv : Fin 100000 → EReal)
    (nr : Fin 1600000 → EReal) (sr : Fin 1600000 → Fin 100000) (L : Fin 100000 → Finset (Fin 1600000)) : Mat :=
  fun n q => max (bnR (convR (mm (relu (bnR (convR (mm x W1) dv nr sr L b1) γ β)) W2) dv nr sr L b2) γ β n q + x n q) 0

/-- the kernel network -/
def netK (x : Mat) (W1 W2 : Fin 128 → Fin 128 → EReal) (b1 b2 γ β : Fin 128 → EReal) (dv : Fin 100000 → EReal)
    (nr : Fin 1600000 → EReal) (sr : Fin 1600000 → Fin 100000) (L : Fin 100000 → Finset (Fin 1600000)) : Mat :=
  fun n q => max (bnK (convK (mm (relu (bnK (convK (mm x W1) dv nr sr L b1) γ β)) W2) dv nr sr L b2) γ β n q + x n q) 0

end Cert.GCN

end
-- ==== Proof.LibRowGatherScatter.lean ====
/-
  The host's row gather and accumulating row scatter, each read at one entry, for any sizes.

  * The row gather `x[idx]` of an `[N, D]` array at `E` row indices (start indices `[E, 1]`, the operand's axis 0
    collapsed, slices `[1, D]`): entry `(e, q)` of the result is the operand's entry `(r, q)`, where `r` is the start
    word `idx[e, 0]` read as a signed integer and clamped into `[0, N − 1]`. The row `r` depends on the start word
    only: not on `D`, not on the operand.
  * The accumulating row scatter of `E` rows of width `D` into an `[N, D]` array (scatter indices `[E, 1]`, the
    operand's axis 0 inserted, update windows `[1, D]`), over the extended reals: entry `(n, q)` of the result is the
    operand's entry plus the sum of the updates' entries `(e, q)` over the rows `e` whose index word `idx[e, 0]`,
    read as a signed integer and NOT clamped, is `n`. The set of rows `e` landing on `n` depends on the index words
    only: not on `D`, the column, the operand or the updates.
-/
import Idealize.ShloMosaic.Lib.ValueIdx

noncomputable section

open scoped BigOperators

namespace Cert.Lib.RowGatherScatter

open Idealize.ShloMosaic Idealize.ShloMosaic.ValueIdx

/-! ## The row gather -/

/-- The dimension numbers of the row gather: operand `[N, D]`, start indices `[E, 1]`, result `[E, D]`; the result's
    axis 1 is the offset axis, the operand's axis 0 is collapsed and is the one the start index names, slices are
    `[1, D]`. Their conditions `wf` are decided on literal shapes. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for the start word `b`: `b` read as a signed integer and clamped into `[0, N − 1]`
    (a negative word reads row 0, a word beyond the last row reads the last row). -/
def srcRow (N : ℕ) (hN : 0 < N) {w : ℕ} (b : BitVec w) : Fin N := ⟨min b.toInt.toNat (N - 1), by omega⟩

/-- THE ROW GATHER READ AT `(e, q)`: the operand at row `srcRow (idx[e, 0])`, column `q`. -/
theorem gather_rows_apply {N E D w : ℕ} (hN : 0 < N)
    (wf : GatherDims.WF ⟨2, ![N, D]⟩ ⟨2, ![E, 1]⟩ ⟨2, ![E, D]⟩ [1] [0] [] [0] [] 1 ![1, D]) {α : Type}
    (x : (⟨2, ![N, D]⟩ : Shape).Idx → α) (idx : IVec ⟨2, ![E, 1]⟩ w) (e : Fin E) (q : Fin D) :
    Host.gather (rowGather N E D wf) x idx (ix2 e q) = x (ix2 (srcRow N hN (idx (ix2 e 0))) q) := by
  -- axis 0: collapsed, so no offset; the start is the clamped start word
  have h0 : (rowGather N E D wf).start (ix2 e q) idx 0 + (rowGather N E D wf).batchCoord (ix2 e q) 0
      + (rowGather N E D wf).offCoord (ix2 e q) 0 = (srcRow N hN (idx (ix2 e 0))).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: not named by the start index, so the start is 0; the offset is the column
  have h1 : (rowGather N E D wf).start (ix2 e q) idx 1 + (rowGather N E D wf).batchCoord (ix2 e q) 1
      + (rowGather N E D wf).offCoord (ix2 e q) 1 = q.val := by
    rw [GatherDims.batchCoord_eq_zero _ _ _ List.not_mem_nil]
    have hs : (rowGather N E D wf).start (ix2 e q) idx 1 = 0 := by
      unfold GatherDims.start
      exact dif_neg (fun h => absurd (List.mem_singleton.mp h) (show ¬ (1 : Fin 2) = 0 by decide))
    have ho : (rowGather N E D wf).offCoord (ix2 e q) 1 = q.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hs, ho]; omega
  unfold Host.gather
  congr 1
  funext a
  refine Fin.ext ?_
  match a with
  | ⟨0, _⟩ => exact h0
  | ⟨1, _⟩ => exact h1

/-! ## The accumulating row scatter -/

/-- An update's result index is a given operand index exactly when, on every operand axis, the start (read signed,
    not clamped) plus the window coordinate is that index's coordinate: in particular the sum is then inside the
    operand on every axis, which is the condition for the update to land at all. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := h a
      show d.start j idx a + (d.window j a : ℤ) = (((d.start j idx a + (d.window j a : ℤ)).toNat : ℕ) : ℤ)
      omega
    · intro h'
      funext a
      refine Fin.ext ?_
      have := h' a
      show (d.start j idx a + (d.window j a : ℤ)).toNat = (i a).val
      omega
  · rename_i h
    constructor
    · intro h'; cases h'
    · intro h'
      exfalso; apply h; intro a
      have := h' a
      have := (i a).isLt
      constructor <;> omega

/-- The dimension numbers of the accumulating row scatter: operand `[N, D]`, scatter indices `[E, 1]`, updates
    `[E, D]`; the updates' axis 1 is the window axis, the operand's axis 0 is inserted and is the one the scatter
    index names. Their conditions `wf` are decided on literal shapes. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (q' : Fin D)

/-- On the operand's axis 0 the start of update `(e, q')` is the index word `idx[e, 0]` read signed … -/
theorem rowScatter_start_row : (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2)
      (rowScatter N E D wf).scatterDimsToOperandDims, List.idxOf_lt_length_iff.2 (List.mem_singleton.mpr rfl)⟩
      = ix2 e 0 := by
    funext b; refine Fin.ext ?_
    match b with
    | ⟨0, _⟩ => rfl
    | ⟨1, _⟩ => rfl
  rw [hsi]

/-- … and on axis 1, which the scatter index does not name, it is 0. -/
theorem rowScatter_start_col : (rowScatter N E D wf).start (ix2 e q') idx 1 = 0 := by
  unfold ScatterDims.start
  exact dif_neg (fun h => absurd (List.mem_singleton.mp h) (show ¬ (1 : Fin 2) = 0 by decide))

/-- The window coordinate of update `(e, q')` is 0 on the inserted axis 0 … -/
theorem rowScatter_window_row : (rowScatter N E D wf).window (ix2 e q') 0 = 0 := by
  unfold ScatterDims.window
  refine dif_neg (fun h => ?_)
  have h2 := of_decide_eq_true (List.mem_filter.mp h).2
  exact h2 (List.mem_singleton.mpr rfl)

/-- … and the update's column `q'` on axis 1. -/
theorem rowScatter_window_col : (rowScatter N E D wf).window (ix2 e q') 1 = q'.val := by
  unfold ScatterDims.window
  rw [dif_pos (show (1 : Fin 2) ∈ (rowScatter N E D wf).sKept from List.mem_filter.mpr ⟨List.mem_finRange _,
    decide_eq_true (fun h => absurd (List.mem_singleton.mp h) (show ¬ (1 : Fin 2) = 0 by decide))⟩)]
  rfl

/-- Update `(e, q')` lands on the operand's entry `(n, q)` exactly when the index word `idx[e, 0]`, read signed, is
    `n` and the columns agree. -/
theorem rowScatter_resultIdx?_iff (n : Fin N) (q : Fin D) :
    (rowScatter N E D wf).resultIdx? (ix2 e q') idx = some (ix2 n q)
      ↔ (idx (ix2 e 0)).toInt = (n.val : ℤ) ∧ q' = q := by
  rw [resultIdx?_eq_some_iff]
  constructor
  · intro h
    have h0 := h 0
    have h1 := h 1
    rw [rowScatter_start_row, rowScatter_window_row] at h0
    rw [rowScatter_start_col, rowScatter_window_col] at h1
    refine ⟨?_, Fin.ext ?_⟩
    · have : ((ix2 n q : (⟨2, ![N, D]⟩ : Shape).Idx) 0).val = n.val := rfl
      omega
    · have : ((ix2 n q : (⟨2, ![N, D]⟩ : Shape).Idx) 1).val = q.val := rfl
      omega
  · rintro ⟨hn, rfl⟩ a
    match a with
    | ⟨0, _⟩ =>
      show (rowScatter N E D wf).start (ix2 e q') idx 0 + ((rowScatter N E D wf).window (ix2 e q') 0 : ℤ) = (n.val : ℤ)
      rw [rowScatter_start_row, rowScatter_window_row, hn]; simp
    | ⟨1, _⟩ =>
      show (rowScatter N E D wf).start (ix2 e q') idx 1 + ((rowScatter N E D wf).window (ix2 e q') 1 : ℤ) = (q'.val : ℤ)
      rw [rowScatter_start_col, rowScatter_window_col]; simp

end RowScatter

/-- THE ACCUMULATING ROW SCATTER READ AT `(n, q)`: the operand's entry plus the sum, over the update rows `e` whose
    index word `idx[e, 0]` read signed is `n`, of the updates' entries `(e, q)`. -/
theorem scatter_rows_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatter N E D wf) x idx upd (ix2 n q)
      = x (ix2 n q) + ∑ e ∈ Finset.univ.filter (fun e : Fin E => (idx (ix2 e 0)).toInt = (n.val : ℤ)), upd (ix2 e q) := by
  unfold Ideal.hostScatterAdd
  -- the updates landing on (n, q) are the entries (e, q) of the rows e landing on n
  have himg : (Finset.univ.filter fun j => (rowScatter N E D wf).resultIdx? j idx = some (ix2 n q))
      = (Finset.univ.filter fun e : Fin E => (idx (ix2 e 0)).toInt = (n.val : ℤ)).image (fun e => ix2 e q) := by
    ext j
    obtain ⟨e, q', rfl⟩ : ∃ e q', j = ix2 e q' := ⟨j 0, j 1, eq_ix2 j⟩
    simp only [Finset.mem_filter, Finset.mem_univ, true_and, Finset.mem_image, rowScatter_resultIdx?_iff]
    constructor
    · rintro ⟨h, rfl⟩; exact ⟨e, h, rfl⟩
    · rintro ⟨e', h, heq⟩
      have h0 : e' = e := congrFun heq 0
      have h1 : q = q' := congrFun heq 1
      subst h0; exact ⟨h, h1.symm⟩
  rw [himg, Finset.sum_image (fun a _ b _ hab => (congrFun hab 0 : a = b))]

end Cert.Lib.RowGatherScatter

end
-- ==== Proof.HostTerms.lean ====
import proofs.«118271_j25778393710892_2_alg».proof.Proof.Gen.KernelIdeal
import proofs.«118271_j25778393710892_2_alg».proof.Proof.Rd
import proofs.«118271_j25778393710892_2_alg».proof.Proof.Spec
import proofs.«118271_j25778393710892_2_alg».proof.Proof.LibRowGatherScatter
import Idealize.ShloMosaic.PureOps.Ideal.Laws
import Idealize.ShloMosaic.Lib.IdealHost
import Idealize.ShloMosaic.Lib.Pipeline.Value
import Idealize.ShloMosaic.Lib.ValueIdx
import Idealize.ShloMosaic.Lib.ValueLayout

/-!
  What the kernel program's host operations compute between its regions, as whole-array functions over the
  extended reals: the edge list's two rows and their normalized index columns, the degree-derived node weight
  dinv = rsqrt(1 + in-degree) and edge weight dinv(src)·dinv(dst), one aggregation (the scatter-add of the weighted
  gathered rows INTO the self term), and the per-column scale and shift of the folded batch normalization.
-/

noncomputable section

open scoped BigOperators

namespace Cert.KernelIdeal.HostValue

open Idealize.ShloMosaic Idealize.ShloMosaic.ValueIdx Cert.KernelIdeal Cert.GCN
open Cert.KernelIdeal.Facts₀ Cert.KernelIdeal.Facts

/-- row k of the edge list as a vector -/
def srcRowV (ei : IVec S2x1600000 32) : IVec S1600000 32 :=
  shapeCast _ (extractStridedSlice S1x1600000 ![0, 0] ei slices_S2x1600000_S1x1600000_0_0) shapeCasts_S1x1600000_S1600000
def dstRowV (ei : IVec S2x1600000 32) : IVec S1600000 32 :=
  shapeCast _ (extractStridedSlice S1x1600000 ![1, 0] ei slices_S2x1600000_S1x1600000_1_0) shapeCasts_S1x1600000_S1600000

/-- a row of node indices as the index column the gathers and scatters take: a negative index counts from the end -/
def col (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- rsqrt (1 + the number of edges landing on a node) -/
def dinvV (ei : IVec S2x1600000 32) : FVec Ideal S100000 .f32 :=
  Host.rsqrt (addf (Host.scatterAdd scatter_S100000_S1600000x1_S1600000_n_0_0_1
      (broadcastInDim S100000 ![] bcast_S_S100000 (constant S_ .f32 0x00000000#32)) (col (dstRowV ei))
      (broadcastInDim S1600000 ![] bcast_S_S1600000 (constant S_ .f32 0x3F800000#32)))
    (broadcastInDim S100000 ![] bcast_S_S100000 (constant S_ .f32 0x3F800000#32)))

/-- the edge weight dinv(src) · dinv(dst) -/
def normV (ei : IVec S2x1600000 32) : FVec Ideal S1600000 .f32 :=
  mulf (Host.gather gather_S100000_S1600000x1_S1600000_n_0_n_n_0_1_1 (dinvV ei) (col (srcRowV ei)))
    (Host.gather gather_S100000_S1600000x1_S1600000_n_0_n_n_0_1_1 (dinvV ei) (col (dstRowV ei)))

/-- the self weight dinv² as a column -/
def selfColV (ei : IVec S2x1600000 32) : FVec Ideal S100000x1 .f32 :=
  broadcastInDim S100000x1 ![0] bcast_S100000_S100000x1_0 (mulf (dinvV ei) (dinvV ei))

/-- a length-128 vector as a 1×128 row -/
def rowV (v : FVec Ideal S128 .f32) : FVec Ideal S1x128 .f32 := shapeCast _ v shapeCasts_S128_S1x128

/-- one aggregation: the weighted gathered rows scatter-added into the self term -/
def aggV (h : FVec Ideal S100000x128 .f32) (rs rd' : IVec S1600000 32) (nrm : FVec Ideal S1600000 .f32)
    (self : FVec Ideal S100000x1 .f32) : FVec Ideal S100000x128 .f32 :=
  Host.scatterAdd scatter_S100000x128_S1600000x1_S1600000x128_1_0_0_1
    (mulf h (broadcastInDim S100000x128 ![0, 1] bcast_S100000x1_S100000x128_0_1 self)) (col rd')
    (mulf (extf .f32 (Host.gather gather_S100000x128_S1600000x1_S1600000x128_1_0_n_n_0_1_1128
        (truncf .bf16 h bitsLt_bf16_f32) (col rs)) bitsLt_bf16_f32)
      (broadcastInDim S1600000x128 ![0, 1] bcast_S1600000x1_S1600000x128_0_1
        (broadcastInDim S1600000x1 ![0] bcast_S1600000_S1600000x1_0 nrm)))

/-- the column mean: the accumulated column sum over the node count -/
def meanV (s : FVec Ideal S1x128 .f32) : FVec Ideal S1x128 .f32 :=
  Host.divf s (broadcastInDim S1x128 ![] bcast_S_S1x128 (constant S_ .f32 0x47C35000#32))

/-- the column scale gamma · rsqrt (E[g²] − E[g]² + eps) -/
def scaleV (s ss γr : FVec Ideal S1x128 .f32) : FVec Ideal S1x128 .f32 :=
  mulf γr (Host.rsqrt (addf (subf (meanV ss) (mulf (meanV s) (meanV s)))
    (broadcastInDim S1x128 ![] bcast_S_S1x128 (constant S_ .f32 0x3727C5AC#32))))

/-- the column shift beta − mean · scale -/
def shiftV (s ss γr βr : FVec Ideal S1x128 .f32) : FVec Ideal S1x128 .f32 :=
  subf βr (mulf (meanV s) (scaleV s ss γr))

end Cert.KernelIdeal.HostValue

end
-- ==== Proof.Host0.lean ====
import proofs.«118271_j25778393710892_2_alg».proof.Proof.Gen.KernelIdeal.Launch
import proofs.«118271_j25778393710892_2_alg».proof.Proof.HostTerms
import Idealize.ShloMosaic.Lib.StableHlo.Run

/-! The first stretch of host operations read at the buffers later segments use: the edge rows, the edge and self weights, the two normalization rows; the arguments are not written. -/

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (W : Valuation τ sig (Elt Ideal))
theorem host0_v1 : after (hostOps0 (F := Ideal)) W (Proc.devRef .tc main_v1) = srcRowV (W (Proc.devRef .tc main_arg7)) := by
  after_results_simp <;> rfl

theorem host0_v3 : after (hostOps0 (F := Ideal)) W (Proc.devRef .tc main_v3) = dstRowV (W (Proc.devRef .tc main_arg7)) := by
  after_results_simp <;> rfl

theorem host0_v30 : after (hostOps0 (F := Ideal)) W (Proc.devRef .tc main_v30) = normV (W (Proc.devRef .tc main_arg7)) := by
  after_results_simp <;> rfl

theorem host0_v32 : after (hostOps0 (F := Ideal)) W (Proc.devRef .tc main_v32) = selfColV (W (Proc.devRef .tc main_arg7)) := by
  after_results_simp <;> rfl

theorem host0_v33 : after (hostOps0 (F := Ideal)) W (Proc.devRef .tc main_v33) = rowV (W (Proc.devRef .tc main_arg5)) := by
  after_results_simp <;> rfl

theorem host0_v34 : after (hostOps0 (F := Ideal)) W (Proc.devRef .tc main_v34) = rowV (W (Proc.devRef .tc main_arg6)) := by
  after_results_simp <;> rfl

theorem host0_keep_arg0 : after (hostOps0 (F := Ideal)) W (Proc.devRef .tc main_arg0) = W (Proc.devRef .tc main_arg0) := by
  after_results_simp <;> rfl

theorem host0_keep_arg1 : after (hostOps0 (F := Ideal)) W (Proc.devRef .tc main_arg1) = W (Proc.devRef .tc main_arg1) := by
  after_results_simp <;> rfl

theorem host0_keep_arg2 : after (hostOps0 (F := Ideal)) W (Proc.devRef .tc main_arg2) = W (Proc.devRef .tc main_arg2) := by
  after_results_simp <;> rfl

theorem host0_keep_arg3 : after (hostOps0 (F := Ideal)) W (Proc.devRef .tc main_arg3) = W (Proc.devRef .tc main_arg3) := by
  after_results_simp <;> rfl

theorem host0_keep_arg4 : after (hostOps0 (F := Ideal)) W (Proc.devRef .tc main_arg4) = W (Proc.devRef .tc main_arg4) := by
  after_results_simp <;> rfl
end Cert.KernelIdeal.HostValue

end
-- ==== Proof.Host1.lean ====
import proofs.«118271_j25778393710892_2_alg».proof.Proof.Gen.KernelIdeal.Launch
import proofs.«118271_j25778393710892_2_alg».proof.Proof.HostTerms
import Idealize.ShloMosaic.Lib.StableHlo.Run

/-! The second stretch: the first aggregation and its bias row; everything later segments read passes through. -/

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (W : Valuation τ sig (Elt Ideal))
theorem host1_v56 : after (hostOps1 (F := Ideal)) W (Proc.devRef .tc main_v56) = aggV (W (Proc.devRef .tc main_v35)) (W (Proc.devRef .tc main_v1)) (W (Proc.devRef .tc main_v3)) (W (Proc.devRef .tc main_v30)) (W (Proc.devRef .tc main_v32)) := by
  after_results_simp <;> rfl

theorem host1_v57 : after (hostOps1 (F := Ideal)) W (Proc.devRef .tc main_v57) = rowV (W (Proc.devRef .tc main_arg2)) := by
  after_results_simp <;> rfl

theorem host1_keep_v1 : after (hostOps1 (F := Ideal)) W (Proc.devRef .tc main_v1) = W (Proc.devRef .tc main_v1) := by
  after_results_simp <;> rfl

theorem host1_keep_v3 : after (hostOps1 (F := Ideal)) W (Proc.devRef .tc main_v3) = W (Proc.devRef .tc main_v3) := by
  after_results_simp <;> rfl

theorem host1_keep_v30 : after (hostOps1 (F := Ideal)) W (Proc.devRef .tc main_v30) = W (Proc.devRef .tc main_v30) := by
  after_results_simp <;> rfl

theorem host1_keep_v32 : after (hostOps1 (F := Ideal)) W (Proc.devRef .tc main_v32) = W (Proc.devRef .tc main_v32) := by
  after_results_simp <;> rfl

theorem host1_keep_v33 : after (hostOps1 (F := Ideal)) W (Proc.devRef .tc main_v33) = W (Proc.devRef .tc main_v33) := by
  after_results_simp <;> rfl

theorem host1_keep_v34 : after (hostOps1 (F := Ideal)) W (Proc.devRef .tc main_v34) = W (Proc.devRef .tc main_v34) := by
  after_results_simp <;> rfl

theorem host1_keep_arg0 : after (hostOps1 (F := Ideal)) W (Proc.devRef .tc main_arg0) = W (Proc.devRef .tc main_arg0) := by
  after_results_simp <;> rfl

theorem host1_keep_arg3 : after (hostOps1 (F := Ideal)) W (Proc.devRef .tc main_arg3) = W (Proc.devRef .tc main_arg3) := by
  after_results_simp <;> rfl

theorem host1_keep_arg4 : after (hostOps1 (F := Ideal)) W (Proc.devRef .tc main_arg4) = W (Proc.devRef .tc main_arg4) := by
  after_results_simp <;> rfl
end Cert.KernelIdeal.HostValue

end
-- ==== Proof.Host2.lean ====
import proofs.«118271_j25778393710892_2_alg».proof.Proof.Gen.KernelIdeal.Launch
import proofs.«118271_j25778393710892_2_alg».proof.Proof.HostTerms
import Idealize.ShloMosaic.Lib.StableHlo.Run

/-! The third stretch: the scale and shift rows of the first normalization from the accumulated column sums. -/

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (W : Valuation τ sig (Elt Ideal))
theorem host2_v68 : after (hostOps2 (F := Ideal)) W (Proc.devRef .tc main_v68) = scaleV (W (Proc.devRef .tc main_v58_1)) (W (Proc.devRef .tc main_v58_2)) (W (Proc.devRef .tc main_v33)) := by
  after_results_simp <;> rfl

theorem host2_v70 : after (hostOps2 (F := Ideal)) W (Proc.devRef .tc main_v70) = shiftV (W (Proc.devRef .tc main_v58_1)) (W (Proc.devRef .tc main_v58_2)) (W (Proc.devRef .tc main_v33)) (W (Proc.devRef .tc main_v34)) := by
  after_results_simp <;> rfl

theorem host2_keep_v58_0 : after (hostOps2 (F := Ideal)) W (Proc.devRef .tc main_v58_0) = W (Proc.devRef .tc main_v58_0) := by
  after_results_simp <;> rfl

theorem host2_keep_v1 : after (hostOps2 (F := Ideal)) W (Proc.devRef .tc main_v1) = W (Proc.devRef .tc main_v1) := by
  after_results_simp <;> rfl

theorem host2_keep_v3 : after (hostOps2 (F := Ideal)) W (Proc.devRef .tc main_v3) = W (Proc.devRef .tc main_v3) := by
  after_results_simp <;> rfl

theorem host2_keep_v30 : after (hostOps2 (F := Ideal)) W (Proc.devRef .tc main_v30) = W (Proc.devRef .tc main_v30) := by
  after_results_simp <;> rfl

theorem host2_keep_v32 : after (hostOps2 (F := Ideal)) W (Proc.devRef .tc main_v32) = W (Proc.devRef .tc main_v32) := by
  after_results_simp <;> rfl

theorem host2_keep_v33 : after (hostOps2 (F := Ideal)) W (Proc.devRef .tc main_v33) = W (Proc.devRef .tc main_v33) := by
  after_results_simp <;> rfl

theorem host2_keep_v34 : after (hostOps2 (F := Ideal)) W (Proc.devRef .tc main_v34) = W (Proc.devRef .tc main_v34) := by
  after_results_simp <;> rfl

theorem host2_keep_arg0 : after (hostOps2 (F := Ideal)) W (Proc.devRef .tc main_arg0) = W (Proc.devRef .tc main_arg0) := by
  after_results_simp <;> rfl

theorem host2_keep_arg3 : after (hostOps2 (F := Ideal)) W (Proc.devRef .tc main_arg3) = W (Proc.devRef .tc main_arg3) := by
  after_results_simp <;> rfl

theorem host2_keep_arg4 : after (hostOps2 (F := Ideal)) W (Proc.devRef .tc main_arg4) = W (Proc.devRef .tc main_arg4) := by
  after_results_simp <;> rfl
end Cert.KernelIdeal.HostValue

end
-- ==== Proof.Host3.lean ====
import proofs.«118271_j25778393710892_2_alg».proof.Proof.Gen.KernelIdeal.Launch
import proofs.«118271_j25778393710892_2_alg».proof.Proof.HostTerms
import Idealize.ShloMosaic.Lib.StableHlo.Run

/-! The fourth stretch: the second aggregation and its bias row. -/

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (W : Valuation τ sig (Elt Ideal))
theorem host3_v92 : after (hostOps3 (F := Ideal)) W (Proc.devRef .tc main_v92) = aggV (W (Proc.devRef .tc main_v71)) (W (Proc.devRef .tc main_v1)) (W (Proc.devRef .tc main_v3)) (W (Proc.devRef .tc main_v30)) (W (Proc.devRef .tc main_v32)) := by
  after_results_simp <;> rfl

theorem host3_v93 : after (hostOps3 (F := Ideal)) W (Proc.devRef .tc main_v93) = rowV (W (Proc.devRef .tc main_arg4)) := by
  after_results_simp <;> rfl

theorem host3_keep_v33 : after (hostOps3 (F := Ideal)) W (Proc.devRef .tc main_v33) = W (Proc.devRef .tc main_v33) := by
  after_results_simp <;> rfl

theorem host3_keep_v34 : after (hostOps3 (F := Ideal)) W (Proc.devRef .tc main_v34) = W (Proc.devRef .tc main_v34) := by
  after_results_simp <;> rfl

theorem host3_keep_arg0 : after (hostOps3 (F := Ideal)) W (Proc.devRef .tc main_arg0) = W (Proc.devRef .tc main_arg0) := by
  after_results_simp <;> rfl
end Cert.KernelIdeal.HostValue

end
-- ==== Proof.Host4.lean ====
import proofs.«118271_j25778393710892_2_alg».proof.Proof.Gen.KernelIdeal.Launch
import proofs.«118271_j25778393710892_2_alg».proof.Proof.HostTerms
import Idealize.ShloMosaic.Lib.StableHlo.Run

/-! The fifth stretch: the scale and shift rows of the second normalization. -/

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (W : Valuation τ sig (Elt Ideal))
theorem host4_v104 : after (hostOps4 (F := Ideal)) W (Proc.devRef .tc main_v104) = scaleV (W (Proc.devRef .tc main_v94_1)) (W (Proc.devRef .tc main_v94_2)) (W (Proc.devRef .tc main_v33)) := by
  after_results_simp <;> rfl

theorem host4_v106 : after (hostOps4 (F := Ideal)) W (Proc.devRef .tc main_v106) = shiftV (W (Proc.devRef .tc main_v94_1)) (W (Proc.devRef .tc main_v94_2)) (W (Proc.devRef .tc main_v33)) (W (Proc.devRef .tc main_v34)) := by
  after_results_simp <;> rfl

theorem host4_keep_v94_0 : after (hostOps4 (F := Ideal)) W (Proc.devRef .tc main_v94_0) = W (Proc.devRef .tc main_v94_0) := by
  after_results_simp <;> rfl

theorem host4_keep_arg0 : after (hostOps4 (F := Ideal)) W (Proc.devRef .tc main_arg0) = W (Proc.devRef .tc main_arg0) := by
  after_results_simp <;> rfl
end Cert.KernelIdeal.HostValue

end
-- ==== Proof.Carry.lean ====
import proofs.«118271_j25778393710892_2_alg».proof.Proof.Gen.KernelIdeal.Frame
import proofs.«118271_j25778393710892_2_alg».proof.Proof.Host0
import proofs.«118271_j25778393710892_2_alg».proof.Proof.Host1
import proofs.«118271_j25778393710892_2_alg».proof.Proof.Host2
import proofs.«118271_j25778393710892_2_alg».proof.Proof.Host3
import proofs.«118271_j25778393710892_2_alg».proof.Proof.Host4

/-!
  The buffers the kernel program computes once and reads again later — the two rows of the edge list, the edge weights,
  the self-weight column, the two normalization rows — and its argument arrays, followed through the program's segment
  boundaries: a stretch of host operations leaves a buffer it does not write as it found it, and so does a region
  whose windows' arrays do not include it (an input window's array is read, never written). At every boundary where a
  later segment reads one of them it still holds what the first stretch computed, or the launch contents.
-/

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostValue

variable (m : (ℓ : Loc nD τ sig) → Buf (Elt Ideal) ℓ) (ρ : Dev nD → PrngReg) (c : Dev nD)

theorem f1_v1 : W1 m ρ c (Proc.devRef .tc main_v1) = srcRowV (m ((c.tc : Thread nD τ).loc main_arg7)) := host0_v1 (W0 m ρ c)

theorem f1_v3 : W1 m ρ c (Proc.devRef .tc main_v3) = dstRowV (m ((c.tc : Thread nD τ).loc main_arg7)) := host0_v3 (W0 m ρ c)

theorem f1_v30 : W1 m ρ c (Proc.devRef .tc main_v30) = normV (m ((c.tc : Thread nD τ).loc main_arg7)) := host0_v30 (W0 m ρ c)

theorem f1_v32 : W1 m ρ c (Proc.devRef .tc main_v32) = selfColV (m ((c.tc : Thread nD τ).loc main_arg7)) := host0_v32 (W0 m ρ c)

theorem f1_v33 : W1 m ρ c (Proc.devRef .tc main_v33) = rowV (m ((c.tc : Thread nD τ).loc main_arg5)) := host0_v33 (W0 m ρ c)

theorem f1_v34 : W1 m ρ c (Proc.devRef .tc main_v34) = rowV (m ((c.tc : Thread nD τ).loc main_arg6)) := host0_v34 (W0 m ρ c)

theorem f1_arg0 : W1 m ρ c (Proc.devRef .tc main_arg0) = (m ((c.tc : Thread nD τ).loc main_arg0)) := host0_keep_arg0 (W0 m ρ c)

theorem f1_arg1 : W1 m ρ c (Proc.devRef .tc main_arg1) = (m ((c.tc : Thread nD τ).loc main_arg1)) := host0_keep_arg1 (W0 m ρ c)

theorem f1_arg2 : W1 m ρ c (Proc.devRef .tc main_arg2) = (m ((c.tc : Thread nD τ).loc main_arg2)) := host0_keep_arg2 (W0 m ρ c)

theorem f1_arg3 : W1 m ρ c (Proc.devRef .tc main_arg3) = (m ((c.tc : Thread nD τ).loc main_arg3)) := host0_keep_arg3 (W0 m ρ c)

theorem f1_arg4 : W1 m ρ c (Proc.devRef .tc main_arg4) = (m ((c.tc : Thread nD τ).loc main_arg4)) := host0_keep_arg4 (W0 m ρ c)

theorem f2_v1 : W2 m ρ c (Proc.devRef .tc main_v1) = srcRowV (m ((c.tc : Thread nD τ).loc main_arg7)) :=
  (W2_of_ne m ρ c main_v1 (by decide)).trans (f1_v1 m ρ c)

theorem f2_v3 : W2 m ρ c (Proc.devRef .tc main_v3) = dstRowV (m ((c.tc : Thread nD τ).loc main_arg7)) :=
  (W2_of_ne m ρ c main_v3 (by decide)).trans (f1_v3 m ρ c)

theorem f2_v30 : W2 m ρ c (Proc.devRef .tc main_v30) = normV (m ((c.tc : Thread nD τ).loc main_arg7)) :=
  (W2_of_ne m ρ c main_v30 (by decide)).trans (f1_v30 m ρ c)

theorem f2_v32 : W2 m ρ c (Proc.devRef .tc main_v32) = selfColV (m ((c.tc : Thread nD τ).loc main_arg7)) :=
  (W2_of_ne m ρ c main_v32 (by decide)).trans (f1_v32 m ρ c)

theorem f2_v33 : W2 m ρ c (Proc.devRef .tc main_v33) = rowV (m ((c.tc : Thread nD τ).loc main_arg5)) :=
  (W2_of_ne m ρ c main_v33 (by decide)).trans (f1_v33 m ρ c)

theorem f2_v34 : W2 m ρ c (Proc.devRef .tc main_v34) = rowV (m ((c.tc : Thread nD τ).loc main_arg6)) :=
  (W2_of_ne m ρ c main_v34 (by decide)).trans (f1_v34 m ρ c)

theorem f2_arg2 : W2 m ρ c (Proc.devRef .tc main_arg2) = (m ((c.tc : Thread nD τ).loc main_arg2)) :=
  (W2_of_ne m ρ c main_arg2 (by decide)).trans (f1_arg2 m ρ c)

theorem f2_arg3 : W2 m ρ c (Proc.devRef .tc main_arg3) = (m ((c.tc : Thread nD τ).loc main_arg3)) :=
  (W2_of_ne m ρ c main_arg3 (by decide)).trans (f1_arg3 m ρ c)

theorem f2_arg4 : W2 m ρ c (Proc.devRef .tc main_arg4) = (m ((c.tc : Thread nD τ).loc main_arg4)) :=
  (W2_of_ne m ρ c main_arg4 (by decide)).trans (f1_arg4 m ρ c)

theorem f2_arg0 : W2 m ρ c (Proc.devRef .tc main_arg0) = (m ((c.tc : Thread nD τ).loc main_arg0)) :=
  ((W2_arr m ρ c 0).trans (((dat0 (V1 m ρ) c).arrAt_in 0 rfl _).trans (A_eq0 (V1 m ρ) c 0))).trans (f1_arg0 m ρ c)

theorem f3_v1 : W3 m ρ c (Proc.devRef .tc main_v1) = srcRowV (m ((c.tc : Thread nD τ).loc main_arg7)) :=
  (host1_keep_v1 (W2 m ρ c)).trans (f2_v1 m ρ c)

theorem f3_v3 : W3 m ρ c (Proc.devRef .tc main_v3) = dstRowV (m ((c.tc : Thread nD τ).loc main_arg7)) :=
  (host1_keep_v3 (W2 m ρ c)).trans (f2_v3 m ρ c)

theorem f3_v30 : W3 m ρ c (Proc.devRef .tc main_v30) = normV (m ((c.tc : Thread nD τ).loc main_arg7)) :=
  (host1_keep_v30 (W2 m ρ c)).trans (f2_v30 m ρ c)

theorem f3_v32 : W3 m ρ c (Proc.devRef .tc main_v32) = selfColV (m ((c.tc : Thread nD τ).loc main_arg7)) :=
  (host1_keep_v32 (W2 m ρ c)).trans (f2_v32 m ρ c)

theorem f3_v33 : W3 m ρ c (Proc.devRef .tc main_v33) = rowV (m ((c.tc : Thread nD τ).loc main_arg5)) :=
  (host1_keep_v33 (W2 m ρ c)).trans (f2_v33 m ρ c)

theorem f3_v34 : W3 m ρ c (Proc.devRef .tc main_v34) = rowV (m ((c.tc : Thread nD τ).loc main_arg6)) :=
  (host1_keep_v34 (W2 m ρ c)).trans (f2_v34 m ρ c)

theorem f3_arg0 : W3 m ρ c (Proc.devRef .tc main_arg0) = (m ((c.tc : Thread nD τ).loc main_arg0)) :=
  (host1_keep_arg0 (W2 m ρ c)).trans (f2_arg0 m ρ c)

theorem f3_arg3 : W3 m ρ c (Proc.devRef .tc main_arg3) = (m ((c.tc : Thread nD τ).loc main_arg3)) :=
  (host1_keep_arg3 (W2 m ρ c)).trans (f2_arg3 m ρ c)

theorem f3_arg4 : W3 m ρ c (Proc.devRef .tc main_arg4) = (m ((c.tc : Thread nD τ).loc main_arg4)) :=
  (host1_keep_arg4 (W2 m ρ c)).trans (f2_arg4 m ρ c)

theorem f4_v1 : W4 m ρ c (Proc.devRef .tc main_v1) = srcRowV (m ((c.tc : Thread nD τ).loc main_arg7)) :=
  (W4_of_ne m ρ c main_v1 (by decide)).trans (f3_v1 m ρ c)

theorem f4_v3 : W4 m ρ c (Proc.devRef .tc main_v3) = dstRowV (m ((c.tc : Thread nD τ).loc main_arg7)) :=
  (W4_of_ne m ρ c main_v3 (by decide)).trans (f3_v3 m ρ c)

theorem f4_v30 : W4 m ρ c (Proc.devRef .tc main_v30) = normV (m ((c.tc : Thread nD τ).loc main_arg7)) :=
  (W4_of_ne m ρ c main_v30 (by decide)).trans (f3_v30 m ρ c)

theorem f4_v32 : W4 m ρ c (Proc.devRef .tc main_v32) = selfColV (m ((c.tc : Thread nD τ).loc main_arg7)) :=
  (W4_of_ne m ρ c main_v32 (by decide)).trans (f3_v32 m ρ c)

theorem f4_v33 : W4 m ρ c (Proc.devRef .tc main_v33) = rowV (m ((c.tc : Thread nD τ).loc main_arg5)) :=
  (W4_of_ne m ρ c main_v33 (by decide)).trans (f3_v33 m ρ c)

theorem f4_v34 : W4 m ρ c (Proc.devRef .tc main_v34) = rowV (m ((c.tc : Thread nD τ).loc main_arg6)) :=
  (W4_of_ne m ρ c main_v34 (by decide)).trans (f3_v34 m ρ c)

theorem f4_arg0 : W4 m ρ c (Proc.devRef .tc main_arg0) = (m ((c.tc : Thread nD τ).loc main_arg0)) :=
  (W4_of_ne m ρ c main_arg0 (by decide)).trans (f3_arg0 m ρ c)

theorem f4_arg3 : W4 m ρ c (Proc.devRef .tc main_arg3) = (m ((c.tc : Thread nD τ).loc main_arg3)) :=
  (W4_of_ne m ρ c main_arg3 (by decide)).trans (f3_arg3 m ρ c)

theorem f4_arg4 : W4 m ρ c (Proc.devRef .tc main_arg4) = (m ((c.tc : Thread nD τ).loc main_arg4)) :=
  (W4_of_ne m ρ c main_arg4 (by decide)).trans (f3_arg4 m ρ c)

theorem f5_v1 : W5 m ρ c (Proc.devRef .tc main_v1) = srcRowV (m ((c.tc : Thread nD τ).loc main_arg7)) :=
  (host2_keep_v1 (W4 m ρ c)).trans (f4_v1 m ρ c)

theorem f5_v3 : W5 m ρ c (Proc.devRef .tc main_v3) = dstRowV (m ((c.tc : Thread nD τ).loc main_arg7)) :=
  (host2_keep_v3 (W4 m ρ c)).trans (f4_v3 m ρ c)

theorem f5_v30 : W5 m ρ c (Proc.devRef .tc main_v30) = normV (m ((c.tc : Thread nD τ).loc main_arg7)) :=
  (host2_keep_v30 (W4 m ρ c)).trans (f4_v30 m ρ c)

theorem f5_v32 : W5 m ρ c (Proc.devRef .tc main_v32) = selfColV (m ((c.tc : Thread nD τ).loc main_arg7)) :=
  (host2_keep_v32 (W4 m ρ c)).trans (f4_v32 m ρ c)

theorem f5_v33 : W5 m ρ c (Proc.devRef .tc main_v33) = rowV (m ((c.tc : Thread nD τ).loc main_arg5)) :=
  (host2_keep_v33 (W4 m ρ c)).trans (f4_v33 m ρ c)

theorem f5_v34 : W5 m ρ c (Proc.devRef .tc main_v34) = rowV (m ((c.tc : Thread nD τ).loc main_arg6)) :=
  (host2_keep_v34 (W4 m ρ c)).trans (f4_v34 m ρ c)

theorem f5_arg0 : W5 m ρ c (Proc.devRef .tc main_arg0) = (m ((c.tc : Thread nD τ).loc main_arg0)) :=
  (host2_keep_arg0 (W4 m ρ c)).trans (f4_arg0 m ρ c)

theorem f5_arg3 : W5 m ρ c (Proc.devRef .tc main_arg3) = (m ((c.tc : Thread nD τ).loc main_arg3)) :=
  (host2_keep_arg3 (W4 m ρ c)).trans (f4_arg3 m ρ c)

theorem f5_arg4 : W5 m ρ c (Proc.devRef .tc main_arg4) = (m ((c.tc : Thread nD τ).loc main_arg4)) :=
  (host2_keep_arg4 (W4 m ρ c)).trans (f4_arg4 m ρ c)

theorem f6_v1 : W6 m ρ c (Proc.devRef .tc main_v1) = srcRowV (m ((c.tc : Thread nD τ).loc main_arg7)) :=
  (W6_of_ne m ρ c main_v1 (by decide)).trans (f5_v1 m ρ c)

theorem f6_v3 : W6 m ρ c (Proc.devRef .tc main_v3) = dstRowV (m ((c.tc : Thread nD τ).loc main_arg7)) :=
  (W6_of_ne m ρ c main_v3 (by decide)).trans (f5_v3 m ρ c)

theorem f6_v30 : W6 m ρ c (Proc.devRef .tc main_v30) = normV (m ((c.tc : Thread nD τ).loc main_arg7)) :=
  (W6_of_ne m ρ c main_v30 (by decide)).trans (f5_v30 m ρ c)

theorem f6_v32 : W6 m ρ c (Proc.devRef .tc main_v32) = selfColV (m ((c.tc : Thread nD τ).loc main_arg7)) :=
  (W6_of_ne m ρ c main_v32 (by decide)).trans (f5_v32 m ρ c)

theorem f6_v33 : W6 m ρ c (Proc.devRef .tc main_v33) = rowV (m ((c.tc : Thread nD τ).loc main_arg5)) :=
  (W6_of_ne m ρ c main_v33 (by decide)).trans (f5_v33 m ρ c)

theorem f6_v34 : W6 m ρ c (Proc.devRef .tc main_v34) = rowV (m ((c.tc : Thread nD τ).loc main_arg6)) :=
  (W6_of_ne m ρ c main_v34 (by decide)).trans (f5_v34 m ρ c)

theorem f6_arg0 : W6 m ρ c (Proc.devRef .tc main_arg0) = (m ((c.tc : Thread nD τ).loc main_arg0)) :=
  (W6_of_ne m ρ c main_arg0 (by decide)).trans (f5_arg0 m ρ c)

theorem f6_arg4 : W6 m ρ c (Proc.devRef .tc main_arg4) = (m ((c.tc : Thread nD τ).loc main_arg4)) :=
  (W6_of_ne m ρ c main_arg4 (by decide)).trans (f5_arg4 m ρ c)

theorem f7_v33 : W7 m ρ c (Proc.devRef .tc main_v33) = rowV (m ((c.tc : Thread nD τ).loc main_arg5)) :=
  (host3_keep_v33 (W6 m ρ c)).trans (f6_v33 m ρ c)

theorem f7_v34 : W7 m ρ c (Proc.devRef .tc main_v34) = rowV (m ((c.tc : Thread nD τ).loc main_arg6)) :=
  (host3_keep_v34 (W6 m ρ c)).trans (f6_v34 m ρ c)

theorem f7_arg0 : W7 m ρ c (Proc.devRef .tc main_arg0) = (m ((c.tc : Thread nD τ).loc main_arg0)) :=
  (host3_keep_arg0 (W6 m ρ c)).trans (f6_arg0 m ρ c)

theorem f8_v33 : W8 m ρ c (Proc.devRef .tc main_v33) = rowV (m ((c.tc : Thread nD τ).loc main_arg5)) :=
  (W8_of_ne m ρ c main_v33 (by decide)).trans (f7_v33 m ρ c)

theorem f8_v34 : W8 m ρ c (Proc.devRef .tc main_v34) = rowV (m ((c.tc : Thread nD τ).loc main_arg6)) :=
  (W8_of_ne m ρ c main_v34 (by decide)).trans (f7_v34 m ρ c)

theorem f8_arg0 : W8 m ρ c (Proc.devRef .tc main_arg0) = (m ((c.tc : Thread nD τ).loc main_arg0)) :=
  (W8_of_ne m ρ c main_arg0 (by decide)).trans (f7_arg0 m ρ c)

theorem f9_arg0 : W9 m ρ c (Proc.devRef .tc main_arg0) = (m ((c.tc : Thread nD τ).loc main_arg0)) :=
  (host4_keep_arg0 (W8 m ρ c)).trans (f8_arg0 m ρ c)

end Cert.KernelIdeal.KernelValue

end
-- ==== Proof.LibAggregate.lean ====
/-
  One graph aggregation read at one entry, over the extended reals, for any sizes.

  The aggregation starts from the zero `[N, D]` array and scatter-adds, along the target indices `ci`, the `E` rows
  `nrm[e] · feat[ri[e], :]`: the per-edge normalization, a length-`E` vector broadcast to a column `[E, 1]` and then to
  `[E, D]`, times the rows of `feat` gathered at the source indices `ri`. Entry `(n, q)` of the result is
  `0 + ∑ nrm[e] · feat[r(e), q]` over the edges `e` whose target word `ci[e, 0]`, read signed, is `n`, where `r(e)` is the
  source word `ri[e, 0]` read signed and clamped into `[0, N − 1]`.
-/
import proofs.«118271_j25778393710892_2_alg».proof.Proof.LibRowGatherScatter
import Idealize.ShloMosaic.PureOps.Ideal.Laws
import Idealize.ShloMosaic.Lib.IdealHost
import Idealize.ShloMosaic.Lib.Pipeline.Value

noncomputable section

open scoped BigOperators

namespace Cert.Lib.Aggregate

open Idealize.ShloMosaic Idealize.ShloMosaic.ValueIdx Cert.Lib.RowGatherScatter

/-- A length-`E` vector broadcast to a column `[E, 1]` and then across `D` columns, read at `(e, q)`: entry `e` of the
    vector, whatever the column. -/
theorem bcast_col_apply {E D : ℕ} {α : Type} (v : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, D]⟩ ![0, 1]) (e : Fin E) (q : Fin D) :
    broadcastInDim ⟨2, ![E, D]⟩ ![0, 1] h2 (broadcastInDim ⟨2, ![E, 1]⟩ ![0] h1 v) (ix2 e q) = v (ix1 e) := by
  -- the column at (e, 0): axis 0 keeps the row (row 0 when E = 1, the only row), the unit axis 1 reads 0
  refine (broadcastInDim_apply ![0, 1] h2 _ (ix2 e q) (ix2 e (0 : Fin 1)) (fun a => ?_)).trans ?_
  · match a with
    | ⟨0, _⟩ =>
      show e.val = if E = 1 then 0 else e.val
      split_ifs with hE
      · have := e.isLt; omega
      · rfl
    | ⟨1, _⟩ =>
      exact (if_pos rfl).symm
  -- the vector at e
  · refine broadcastInDim_apply ![0] h1 v (ix2 e (0 : Fin 1)) (ix1 e) (fun a => ?_)
    match a with
    | ⟨0, _⟩ =>
      show e.val = if E = 1 then 0 else e.val
      split_ifs with hE
      · have := e.isLt; omega
      · rfl

/-- THE AGGREGATION READ AT `(n, q)`: zero plus the sum, over the edges `e` whose target word `ci[e, 0]` read signed
    is `n`, of the edge's normalization times entry `q` of the source row `srcRow (ri[e, 0])` of `feat`. -/
theorem aggregate_apply {N E D w : ℕ} (hN : 0 < N)
    (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hb0 : (⟨0, ![]⟩ : Shape).BroadcastsInDim ⟨2, ![N, D]⟩ ![])
    (h1 : (⟨1, ![E]⟩ : Shape).BroadcastsInDim ⟨2, ![E, 1]⟩ ![0])
    (h2 : (⟨2, ![E, 1]⟩ : Shape).BroadcastsInDim ⟨2, ![E, D]⟩ ![0, 1])
    (nrm : FVec Ideal ⟨1, ![E]⟩ .f32) (ci ri : IVec ⟨2, ![E, 1]⟩ w) (feat : FVec Ideal ⟨2, ![N, D]⟩ .f32)
    (n : Fin N) (q : Fin D) :
    Host.scatterAdd (F := Ideal) (rowScatter N E D wfs)
        (broadcastInDim ⟨2, ![N, D]⟩ ![] hb0 (constant ⟨0, ![]⟩ .f32 0x00000000#32)) ci
        (mulf (broadcastInDim ⟨2, ![E, D]⟩ ![0, 1] h2 (broadcastInDim ⟨2, ![E, 1]⟩ ![0] h1 nrm))
          (Host.gather (rowGather N E D wfg) feat ri)) (ix2 n q)
      = 0 + ∑ e ∈ Finset.univ.filter (fun e : Fin E => (ci (ix2 e 0)).toInt = (n.val : ℤ)),
          nrm (ix1 e) * feat (ix2 (srcRow N hN (ri (ix2 e 0))) q) := by
  unfold Host.scatterAdd
  rw [Ideal.hostScatterAdd_def, scatter_rows_apply]
  congr 1
  · -- the operand is the zero array
    rw [broadcastInDim_scalar_apply, constant_apply, Ideal.ofBits_zero_f32]
  · -- each update entry is the edge's normalization times the gathered entry
    refine Finset.sum_congr rfl (fun e _ => ?_)
    rw [mulf_apply, gather_rows_apply hN, bcast_col_apply]

end Cert.Lib.Aggregate

end
-- ==== Proof.LibSelfAggregate.lean ====
/-
  One graph aggregation whose edge sum is accumulated INTO the self term, read at one entry, over the extended reals,
  for any sizes.

  The scatter-add starts from the [N, D] array feat · (dd broadcast down the columns): the node weight dd, a length-N
  vector broadcast to a column [N, 1] and then to [N, D]. Along the target indices cD it adds the E rows
  feat[r(e), :] · nrm[e]: the rows of feat gathered at the source indices cS (through a narrowing and a widening of
  the float format, both the identity on the extended reals), times the per-edge weight nrm broadcast to [E, 1] and
  then to [E, D]. Entry (n, q) of the result is
      feat(n, q) · dd(n) + ∑ feat(r(e), q) · nrm(e)   over the edges e whose target word cD[e, 0], read signed, is n,
  where r(e) is the source word cS[e, 0] read signed and clamped into [0, N − 1].
-/
import proofs.«118271_j25778393710892_2_alg».proof.Proof.LibAggregate

noncomputable section

open scoped BigOperators

namespace Cert.Lib.SelfAggregate

open Idealize.ShloMosaic Idealize.ShloMosaic.ValueIdx Cert.Lib.RowGatherScatter Cert.Lib.Aggregate

/-- THE AGGREGATION INTO THE SELF TERM READ AT (n, q). -/
theorem self_aggregate_apply {N E D w : ℕ} (hN : 0 < N)
    (wfs : ScatterDims.WF ⟨2, ![N, D]⟩ ⟨2, ![E, 1]⟩ ⟨2, ![E, D]⟩ [1] [0] [0] 1)
    (wfg : GatherDims.WF ⟨2, ![N, D]⟩ ⟨2, ![E, 1]⟩ ⟨2, ![E, D]⟩ [1] [0] [] [0] [] 1 ![1, D])
    (hs1 : (⟨1, ![N]⟩ : Shape).BroadcastsInDim ⟨2, ![N, 1]⟩ ![0])
    (hs2 : (⟨2, ![N, 1]⟩ : Shape).BroadcastsInDim ⟨2, ![N, D]⟩ ![0, 1])
    (h1 : (⟨1, ![E]⟩ : Shape).BroadcastsInDim ⟨2, ![E, 1]⟩ ![0])
    (h2 : (⟨2, ![E, 1]⟩ : Shape).BroadcastsInDim ⟨2, ![E, D]⟩ ![0, 1])
    (hb : FTy.bf16.bits < FTy.f32.bits)
    (feat : FVec Ideal ⟨2, ![N, D]⟩ .f32) (cS cD : IVec ⟨2, ![E, 1]⟩ w) (nrm : FVec Ideal ⟨1, ![E]⟩ .f32)
    (dd : FVec Ideal ⟨1, ![N]⟩ .f32) (n : Fin N) (q : Fin D) :
    Host.scatterAdd (F := Ideal) (rowScatter N E D wfs)
        (mulf feat (broadcastInDim ⟨2, ![N, D]⟩ ![0, 1] hs2 (broadcastInDim ⟨2, ![N, 1]⟩ ![0] hs1 dd))) cD
        (mulf (extf .f32 (Host.gather (rowGather N E D wfg) (truncf .bf16 feat hb) cS) hb)
          (broadcastInDim ⟨2, ![E, D]⟩ ![0, 1] h2 (broadcastInDim ⟨2, ![E, 1]⟩ ![0] h1 nrm))) (ix2 n q)
      = feat (ix2 n q) * dd (ix1 n)
        + ∑ e ∈ Finset.univ.filter (fun e : Fin E => (cD (ix2 e 0)).toInt = (n.val : ℤ)),
            feat (ix2 (srcRow N hN (cS (ix2 e 0))) q) * nrm (ix1 e) := by
  unfold Host.scatterAdd
  rw [Ideal.hostScatterAdd_def, scatter_rows_apply]
  congr 1
  · rw [mulf_apply, bcast_col_apply]
  · refine Finset.sum_congr rfl (fun e _ => ?_)
    rw [mulf_apply, bcast_col_apply]
    refine congrArg (· * nrm (ix1 e)) ?_
    -- widening and narrowing the float format are the identity on the extended reals
    show Host.gather (rowGather N E D wfg) (truncf .bf16 feat hb) cS (ix2 e q) = _
    rw [gather_rows_apply hN]
    rfl

end Cert.Lib.SelfAggregate

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.HostEntries.lean ====
import proofs.«118271_j25778393710892_2_alg».proof.Proof.HostTerms
import proofs.«118271_j25778393710892_2_alg».proof.Proof.LibSelfAggregate
import proofs.«118271_j25778393710892_2_alg».proof.Proof.LibBiasRow

/-!
  The host stages of the kernel program read at an entry.  An aggregation at (n, q): the self term h(n,q)·dd(n) plus,
  over the edges e whose target index is n, the source row of e at column q times the weight of e.  The scale and shift
  rows at column q.  A length-128 vector reshaped to a row, at (0, q).
-/

set_option maxRecDepth 16384

noncomputable section

open scoped BigOperators

namespace Cert.KernelIdeal.HostValue

open Idealize.ShloMosaic Idealize.ShloMosaic.ValueIdx Cert.KernelIdeal Cert.GCN
open Cert.KernelIdeal.Facts₀ Cert.KernelIdeal.Facts
open Cert.Lib.RowGatherScatter Cert.Lib.SelfAggregate

/-- the edges landing on node n, by the target index column -/
def landOf (c : IVec S1600000x1 32) (n : Fin 100000) : Finset (Fin 1600000) :=
  Finset.univ.filter fun e : Fin 1600000 => (c (ix2 e 0)).toInt = (n.val : ℤ)

/-- the source node of edge e, by the source index column (read signed, clamped into the node range) -/
def srcOf (c : IVec S1600000x1 32) (e : Fin 1600000) : Fin 100000 := srcRow 100000 (by decide) (c (ix2 e 0))

/-- One aggregation at (n, q): the self term plus the weighted source rows of the edges landing on n. -/
theorem aggV_apply (h : FVec Ideal S100000x128 .f32) (rs rd' : IVec S1600000 32) (nrm : FVec Ideal S1600000 .f32)
    (dd : FVec Ideal S100000 .f32) (n : Fin 100000) (q : Fin 128) :
    rd S100000x128 (aggV h rs rd' nrm (broadcastInDim S100000x1 ![0] bcast_S100000_S100000x1_0 dd)) (ix2 n q)
      = rd S100000x128 h (ix2 n q) * rd S100000 dd (ix1 n)
        + ∑ e ∈ landOf (col rd') n, rd S100000x128 h (ix2 (srcOf (col rs) e) q) * rd S1600000 nrm (ix1 e) :=
  self_aggregate_apply (N := 100000) (E := 1600000) (D := 128) (by decide)
    scatter_S100000x128_S1600000x1_S1600000x128_1_0_0_1_wf gather_S100000x128_S1600000x1_S1600000x128_1_0_n_n_0_1_1128_wf
    bcast_S100000_S100000x1_0 bcast_S100000x1_S100000x128_0_1 bcast_S1600000_S1600000x1_0 bcast_S1600000x1_S1600000x128_0_1
    bitsLt_bf16_f32 h (col rs) (col rd') nrm dd n q

/-- A vector reshaped to a row, at (0, q). -/
theorem rowV_apply (v : FVec Ideal S128 .f32) (q : Fin 128) : rd S1x128 (rowV v) (ix2 0 q) = rd S128 v (ix1 q) :=
  congrFun (Cert.Row.shapeCast_row v shapeCasts_S128_S1x128) (ix2 0 q)

/-- The scale row at column q: gamma · rsqrt (E[g²] − E[g]² + eps), the two means the column sums over the node count. -/
theorem scaleV_apply (s ss γr : FVec Ideal S1x128 .f32) (q : Fin 128) :
    rd S1x128 (scaleV s ss γr) (ix2 0 q)
      = rd S1x128 γr (ix2 0 q) * Ideal.rsqrt ((Ideal.div (rd S1x128 ss (ix2 0 q)) cN
          - Ideal.div (rd S1x128 s (ix2 0 q)) cN * Ideal.div (rd S1x128 s (ix2 0 q)) cN) + eps) := rfl

/-- The shift row at column q: beta − mean · scale. -/
theorem shiftV_apply (s ss γr βr : FVec Ideal S1x128 .f32) (q : Fin 128) :
    rd S1x128 (shiftV s ss γr βr) (ix2 0 q)
      = rd S1x128 βr (ix2 0 q) - Ideal.div (rd S1x128 s (ix2 0 q)) cN * rd S1x128 (scaleV s ss γr) (ix2 0 q) := rfl

end Cert.KernelIdeal.HostValue

end
-- ==== Proof.KernelValue.lean ====
import proofs.«118271_j25778393710892_2_alg».proof.Proof.Carry
import proofs.«118271_j25778393710892_2_alg».proof.Proof.HostEntries

/-!
  The kernel program's result array, entry by entry, as the network of Spec.lean (netK) of the launch arrays.

  The program is followed segment by segment.  Each region's output is what the region facts say, entry by entry, of the
  buffers the region was entered with; each stretch of host operations is one of the host stages.  Layer by layer:
  the tiled product is the whole product (mm); the aggregation into the self term plus the bias row is convK; the
  statistics region leaves the column sums and sums of squares of that array; the host turns them into the scale and
  shift rows (scaleK, shiftK); the next region applies them, takes the maximum with zero and multiplies by the next
  weights; the last region applies the second normalization, adds the input features and takes the maximum with zero.
-/

set_option maxRecDepth 16384

noncomputable section

open scoped BigOperators

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostValue Cert.GCN
open Cert.KernelIdeal.Facts₀

/-- What the five regions compute, entry by entry, from the buffer contents a region is entered with. -/
structure RegionFacts : Prop where
  region0_out : ∀ (V : (c : Dev nD) → (b : Ref sig .tc) → Buf (Elt Ideal) ((c : Thread nD τ).loc b)) (c : Dev nD) (n : Fin 100000) (q : Fin 128),
    rd S100000x128 ((dat0 (F := Ideal) V c).arrAt 2 cfg0.N) (ix2 n q)
      = ∑ k : Fin 128, rd S100000x128 (V c main_arg0) (ix2 n k) * rd S128x128 (V c main_arg1) (ix2 k q)
  region1_out : ∀ (V : (c : Dev nD) → (b : Ref sig .tc) → Buf (Elt Ideal) ((c : Thread nD τ).loc b)) (c : Dev nD) (n : Fin 100000) (q : Fin 128),
    rd S100000x128 ((dat1 (F := Ideal) V c).arrAt 2 cfg1.N) (ix2 n q)
      = rd S100000x128 (V c main_v56) (ix2 n q) + rd S1x128 (V c main_v57) (ix2 0 q)
  region1_sum : ∀ (V : (c : Dev nD) → (b : Ref sig .tc) → Buf (Elt Ideal) ((c : Thread nD τ).loc b)) (c : Dev nD) (q : Fin 128),
    rd S1x128 ((dat1 (F := Ideal) V c).arrAt 3 cfg1.N) (ix2 0 q)
      = ∑ n : Fin 100000, (rd S100000x128 (V c main_v56) (ix2 n q) + rd S1x128 (V c main_v57) (ix2 0 q))
  region1_sumsq : ∀ (V : (c : Dev nD) → (b : Ref sig .tc) → Buf (Elt Ideal) ((c : Thread nD τ).loc b)) (c : Dev nD) (q : Fin 128),
    rd S1x128 ((dat1 (F := Ideal) V c).arrAt 4 cfg1.N) (ix2 0 q)
      = ∑ n : Fin 100000, (rd S100000x128 (V c main_v56) (ix2 n q) + rd S1x128 (V c main_v57) (ix2 0 q))
      * (rd S100000x128 (V c main_v56) (ix2 n q) + rd S1x128 (V c main_v57) (ix2 0 q))
  region2_out : ∀ (V : (c : Dev nD) → (b : Ref sig .tc) → Buf (Elt Ideal) ((c : Thread nD τ).loc b)) (c : Dev nD) (n : Fin 100000) (q : Fin 128),
    rd S100000x128 ((dat2 (F := Ideal) V c).arrAt 4 cfg2.N) (ix2 n q)
      = ∑ k : Fin 128, max (rd S100000x128 (V c main_v58_0) (ix2 n k) * rd S1x128 (V c main_v68) (ix2 0 k)
      + rd S1x128 (V c main_v70) (ix2 0 k)) 0 * rd S128x128 (V c main_arg3) (ix2 k q)
  region3_out : ∀ (V : (c : Dev nD) → (b : Ref sig .tc) → Buf (Elt Ideal) ((c : Thread nD τ).loc b)) (c : Dev nD) (n : Fin 100000) (q : Fin 128),
    rd S100000x128 ((dat3 (F := Ideal) V c).arrAt 2 cfg3.N) (ix2 n q)
      = rd S100000x128 (V c main_v92) (ix2 n q) + rd S1x128 (V c main_v93) (ix2 0 q)
  region3_sum : ∀ (V : (c : Dev nD) → (b : Ref sig .tc) → Buf (Elt Ideal) ((c : Thread nD τ).loc b)) (c : Dev nD) (q : Fin 128),
    rd S1x128 ((dat3 (F := Ideal) V c).arrAt 3 cfg3.N) (ix2 0 q)
      = ∑ n : Fin 100000, (rd S100000x128 (V c main_v92) (ix2 n q) + rd S1x128 (V c main_v93) (ix2 0 q))
  region3_sumsq : ∀ (V : (c : Dev nD) → (b : Ref sig .tc) → Buf (Elt Ideal) ((c : Thread nD τ).loc b)) (c : Dev nD) (q : Fin 128),
    rd S1x128 ((dat3 (F := Ideal) V c).arrAt 4 cfg3.N) (ix2 0 q)
      = ∑ n : Fin 100000, (rd S100000x128 (V c main_v92) (ix2 n q) + rd S1x128 (V c main_v93) (ix2 0 q))
      * (rd S100000x128 (V c main_v92) (ix2 n q) + rd S1x128 (V c main_v93) (ix2 0 q))
  region4_out : ∀ (V : (c : Dev nD) → (b : Ref sig .tc) → Buf (Elt Ideal) ((c : Thread nD τ).loc b)) (c : Dev nD) (n : Fin 100000) (q : Fin 128),
    rd S100000x128 ((dat4 (F := Ideal) V c).arrAt 4 cfg4.N) (ix2 n q)
      = max (rd S100000x128 (V c main_v94_0) (ix2 n q) * rd S1x128 (V c main_v104) (ix2 0 q)
      + rd S1x128 (V c main_v106) (ix2 0 q) + rd S100000x128 (V c main_arg0) (ix2 n q)) 0

variable (m : (ℓ : Loc nD τ sig) → Buf (Elt Ideal) ℓ) (ρ : Dev nD → PrngReg) (c : Dev nD)

/-! ## The launch arrays as the network's arguments -/

def xM : Mat := fun n q => rd S100000x128 (m ((c.tc : Thread nD τ).loc main_arg0)) (ix2 n q)
def w1M : Fin 128 → Fin 128 → EReal := fun k q => rd S128x128 (m ((c.tc : Thread nD τ).loc main_arg1)) (ix2 k q)
def w2M : Fin 128 → Fin 128 → EReal := fun k q => rd S128x128 (m ((c.tc : Thread nD τ).loc main_arg3)) (ix2 k q)
def b1M : Fin 128 → EReal := fun q => rd S128 (m ((c.tc : Thread nD τ).loc main_arg2)) (ix1 q)
def b2M : Fin 128 → EReal := fun q => rd S128 (m ((c.tc : Thread nD τ).loc main_arg4)) (ix1 q)
def gM : Fin 128 → EReal := fun q => rd S128 (m ((c.tc : Thread nD τ).loc main_arg5)) (ix1 q)
def bM : Fin 128 → EReal := fun q => rd S128 (m ((c.tc : Thread nD τ).loc main_arg6)) (ix1 q)
def dvM : Fin 100000 → EReal := fun n => rd S100000 (dinvV (m ((c.tc : Thread nD τ).loc main_arg7))) (ix1 n)
def nrM : Fin 1600000 → EReal := fun e => rd S1600000 (normV (m ((c.tc : Thread nD τ).loc main_arg7))) (ix1 e)
def srM : Fin 1600000 → Fin 100000 := srcOf (col (srcRowV (m ((c.tc : Thread nD τ).loc main_arg7))))
def LM : Fin 100000 → Finset (Fin 1600000) := landOf (col (dstRowV (m ((c.tc : Thread nD τ).loc main_arg7))))

/-- the network's intermediate matrices -/
def h1M : Mat := mm (xM m c) (w1M m c)
def g1M : Mat := convK (h1M m c) (dvM m c) (nrM m c) (srM m c) (LM m c) (b1M m c)
def h2M : Mat := mm (relu (bnK (g1M m c) (gM m c) (bM m c))) (w2M m c)
def g2M : Mat := convK (h2M m c) (dvM m c) (nrM m c) (srM m c) (LM m c) (b2M m c)

/-- the entrywise square of a node vector, at a node -/
theorem mulf_self_apply (v : FVec Ideal S100000 .f32) (n : Fin 100000) :
    rd S100000 (mulf v v) (ix1 n) = rd S100000 v (ix1 n) * rd S100000 v (ix1 n) := rfl

/-! ## Layer 1 -/

variable (hR : RegionFacts)
include hR

/-- Region 0: the first product. -/
theorem h1_entry (n : Fin 100000) (q : Fin 128) : rd S100000x128 (W2 m ρ c (Proc.devRef .tc main_v35)) (ix2 n q) = h1M m c n q := by
  have e := hR.region0_out (V1 m ρ) c n q
  rw [show V1 m ρ c main_arg0 = (m ((c.tc : Thread nD τ).loc main_arg0)) from f1_arg0 m ρ c, show V1 m ρ c main_arg1 = (m ((c.tc : Thread nD τ).loc main_arg1)) from f1_arg1 m ρ c] at e
  exact (congrArg (fun a => rd S100000x128 a (ix2 n q)) (W2_arr m ρ c 2)).trans e

/-- The aggregation of layer 1 as the host stage of the array the region before it left. -/
theorem agg1_eq : W3 m ρ c (Proc.devRef .tc main_v56) = aggV (W2 m ρ c (Proc.devRef .tc main_v35)) (srcRowV (m ((c.tc : Thread nD τ).loc main_arg7))) (dstRowV (m ((c.tc : Thread nD τ).loc main_arg7))) (normV (m ((c.tc : Thread nD τ).loc main_arg7))) (selfColV (m ((c.tc : Thread nD τ).loc main_arg7))) := by
  rw [show W3 m ρ c = StableHlo.after hostOps1 (W2 m ρ c) from rfl, host1_v56, f2_v1, f2_v3, f2_v30, f2_v32]

theorem bias1_eq : W3 m ρ c (Proc.devRef .tc main_v57) = rowV (m ((c.tc : Thread nD τ).loc main_arg2)) := by
  rw [show W3 m ρ c = StableHlo.after hostOps1 (W2 m ρ c) from rfl, host1_v57, f2_arg2]

/-- Layer 1 before normalization, at an entry: the aggregation plus the bias row. -/
theorem conv1_entry (hh : ∀ n q, rd S100000x128 (W2 m ρ c (Proc.devRef .tc main_v35)) (ix2 n q) = h1M m c n q) (n : Fin 100000) (q : Fin 128) :
    rd S100000x128 (W3 m ρ c (Proc.devRef .tc main_v56)) (ix2 n q) + rd S1x128 (W3 m ρ c (Proc.devRef .tc main_v57)) (ix2 0 q) = g1M m c n q := by
  rw [agg1_eq m ρ c hR, bias1_eq m ρ c hR]
  have hs : selfColV (m ((c.tc : Thread nD τ).loc main_arg7)) = broadcastInDim S100000x1 ![0] Cert.KernelIdeal.Facts₀.bcast_S100000_S100000x1_0 (mulf (dinvV (m ((c.tc : Thread nD τ).loc main_arg7))) (dinvV (m ((c.tc : Thread nD τ).loc main_arg7)))) := rfl
  rw [hs, aggV_apply, rowV_apply, hh n q, mulf_self_apply]
  have hsum : (∑ e ∈ landOf (col (dstRowV (m ((c.tc : Thread nD τ).loc main_arg7)))) n, rd S100000x128 (W2 m ρ c (Proc.devRef .tc main_v35)) (ix2 (srcOf (col (srcRowV (m ((c.tc : Thread nD τ).loc main_arg7)))) e) q) * rd S1600000 (normV (m ((c.tc : Thread nD τ).loc main_arg7))) (ix1 e))
      = ∑ e ∈ LM m c n, h1M m c (srM m c e) q * nrM m c e := Finset.sum_congr rfl (fun e _ => by rw [hh]; rfl)
  rw [hsum]
  rfl

/-- What the statistics region of layer 1 leaves: the layer's array, its column sums, its column sums of squares. -/
theorem g1_entry (hh : ∀ n q, rd S100000x128 (W2 m ρ c (Proc.devRef .tc main_v35)) (ix2 n q) = h1M m c n q) (n : Fin 100000) (q : Fin 128) :
    rd S100000x128 (W4 m ρ c (Proc.devRef .tc main_v58_0)) (ix2 n q) = g1M m c n q :=
  ((congrArg (fun a => rd S100000x128 a (ix2 n q)) (W4_arr m ρ c 2)).trans (hR.region1_out (V3 m ρ) c n q)).trans
    (conv1_entry m ρ c hR hh n q)

theorem sum1_entry (hh : ∀ n q, rd S100000x128 (W2 m ρ c (Proc.devRef .tc main_v35)) (ix2 n q) = h1M m c n q) (q : Fin 128) :
    rd S1x128 (W4 m ρ c (Proc.devRef .tc main_v58_1)) (ix2 0 q) = ∑ n : Fin 100000, g1M m c n q :=
  ((congrArg (fun a => rd S1x128 a (ix2 0 q)) (W4_arr m ρ c 3)).trans (hR.region1_sum (V3 m ρ) c q)).trans
    (Finset.sum_congr rfl fun n _ => conv1_entry m ρ c hR hh n q)

theorem sumsq1_entry (hh : ∀ n q, rd S100000x128 (W2 m ρ c (Proc.devRef .tc main_v35)) (ix2 n q) = h1M m c n q) (q : Fin 128) :
    rd S1x128 (W4 m ρ c (Proc.devRef .tc main_v58_2)) (ix2 0 q) = ∑ n : Fin 100000, g1M m c n q * g1M m c n q :=
  ((congrArg (fun a => rd S1x128 a (ix2 0 q)) (W4_arr m ρ c 4)).trans (hR.region1_sumsq (V3 m ρ) c q)).trans
    (Finset.sum_congr rfl fun n _ => by rw [conv1_entry m ρ c hR hh n q])

/-- The scale and shift rows of layer 1's normalization, at a column. -/
theorem scale1_entry (hh : ∀ n q, rd S100000x128 (W2 m ρ c (Proc.devRef .tc main_v35)) (ix2 n q) = h1M m c n q) (q : Fin 128) :
    rd S1x128 (W5 m ρ c (Proc.devRef .tc main_v68)) (ix2 0 q) = scaleK (g1M m c) (gM m c) q := by
  rw [show W5 m ρ c = StableHlo.after hostOps2 (W4 m ρ c) from rfl, host2_v68, f4_v33, scaleV_apply, rowV_apply,
    sum1_entry m ρ c hR hh q, sumsq1_entry m ρ c hR hh q]
  rfl

theorem shift1_entry (hh : ∀ n q, rd S100000x128 (W2 m ρ c (Proc.devRef .tc main_v35)) (ix2 n q) = h1M m c n q) (q : Fin 128) :
    rd S1x128 (W5 m ρ c (Proc.devRef .tc main_v70)) (ix2 0 q) = shiftK (g1M m c) (gM m c) (bM m c) q := by
  rw [show W5 m ρ c = StableHlo.after hostOps2 (W4 m ρ c) from rfl, host2_v70, f4_v33, f4_v34, shiftV_apply, scaleV_apply, rowV_apply, rowV_apply,
    sum1_entry m ρ c hR hh q, sumsq1_entry m ρ c hR hh q]
  rfl

/-- Region 2: the first normalization applied, the maximum with zero, the second product. -/
theorem h2_entry (n : Fin 100000) (q : Fin 128) : rd S100000x128 (W6 m ρ c (Proc.devRef .tc main_v71)) (ix2 n q) = h2M m c n q := by
  have hh := h1_entry m ρ c hR
  have e := hR.region2_out (V5 m ρ) c n q
  rw [show V5 m ρ c main_v58_0 = W4 m ρ c (Proc.devRef .tc main_v58_0) from host2_keep_v58_0 (W4 m ρ c),
    show V5 m ρ c main_arg3 = (m ((c.tc : Thread nD τ).loc main_arg3)) from f5_arg3 m ρ c,
    Finset.sum_congr rfl (fun k _ => by
      rw [g1_entry m ρ c hR hh n k, show V5 m ρ c main_v68 = W5 m ρ c (Proc.devRef .tc main_v68) from rfl, show V5 m ρ c main_v70 = W5 m ρ c (Proc.devRef .tc main_v70) from rfl,
        scale1_entry m ρ c hR hh k, shift1_entry m ρ c hR hh k])] at e
  exact (congrArg (fun a => rd S100000x128 a (ix2 n q)) (W6_arr m ρ c 4)).trans e

/-! ## Layer 2 -/

/-- The aggregation of layer 2 as the host stage of the array the region before it left. -/
theorem agg2_eq : W7 m ρ c (Proc.devRef .tc main_v92) = aggV (W6 m ρ c (Proc.devRef .tc main_v71)) (srcRowV (m ((c.tc : Thread nD τ).loc main_arg7))) (dstRowV (m ((c.tc : Thread nD τ).loc main_arg7))) (normV (m ((c.tc : Thread nD τ).loc main_arg7))) (selfColV (m ((c.tc : Thread nD τ).loc main_arg7))) := by
  rw [show W7 m ρ c = StableHlo.after hostOps3 (W6 m ρ c) from rfl, host3_v92, f6_v1, f6_v3, f6_v30, f6_v32]

theorem bias2_eq : W7 m ρ c (Proc.devRef .tc main_v93) = rowV (m ((c.tc : Thread nD τ).loc main_arg4)) := by
  rw [show W7 m ρ c = StableHlo.after hostOps3 (W6 m ρ c) from rfl, host3_v93, f6_arg4]

/-- Layer 2 before normalization, at an entry: the aggregation plus the bias row. -/
theorem conv2_entry (hh : ∀ n q, rd S100000x128 (W6 m ρ c (Proc.devRef .tc main_v71)) (ix2 n q) = h2M m c n q) (n : Fin 100000) (q : Fin 128) :
    rd S100000x128 (W7 m ρ c (Proc.devRef .tc main_v92)) (ix2 n q) + rd S1x128 (W7 m ρ c (Proc.devRef .tc main_v93)) (ix2 0 q) = g2M m c n q := by
  rw [agg2_eq m ρ c hR, bias2_eq m ρ c hR]
  have hs : selfColV (m ((c.tc : Thread nD τ).loc main_arg7)) = broadcastInDim S100000x1 ![0] Cert.KernelIdeal.Facts₀.bcast_S100000_S100000x1_0 (mulf (dinvV (m ((c.tc : Thread nD τ).loc main_arg7))) (dinvV (m ((c.tc : Thread nD τ).loc main_arg7)))) := rfl
  rw [hs, aggV_apply, rowV_apply, hh n q, mulf_self_apply]
  have hsum : (∑ e ∈ landOf (col (dstRowV (m ((c.tc : Thread nD τ).loc main_arg7)))) n, rd S100000x128 (W6 m ρ c (Proc.devRef .tc main_v71)) (ix2 (srcOf (col (srcRowV (m ((c.tc : Thread nD τ).loc main_arg7)))) e) q) * rd S1600000 (normV (m ((c.tc : Thread nD τ).loc main_arg7))) (ix1 e))
      = ∑ e ∈ LM m c n, h2M m c (srM m c e) q * nrM m c e := Finset.sum_congr rfl (fun e _ => by rw [hh]; rfl)
  rw [hsum]
  rfl

/-- What the statistics region of layer 2 leaves: the layer's array, its column sums, its column sums of squares. -/
theorem g2_entry (hh : ∀ n q, rd S100000x128 (W6 m ρ c (Proc.devRef .tc main_v71)) (ix2 n q) = h2M m c n q) (n : Fin 100000) (q : Fin 128) :
    rd S100000x128 (W8 m ρ c (Proc.devRef .tc main_v94_0)) (ix2 n q) = g2M m c n q :=
  ((congrArg (fun a => rd S100000x128 a (ix2 n q)) (W8_arr m ρ c 2)).trans (hR.region3_out (V7 m ρ) c n q)).trans
    (conv2_entry m ρ c hR hh n q)

theorem sum2_entry (hh : ∀ n q, rd S100000x128 (W6 m ρ c (Proc.devRef .tc main_v71)) (ix2 n q) = h2M m c n q) (q : Fin 128) :
    rd S1x128 (W8 m ρ c (Proc.devRef .tc main_v94_1)) (ix2 0 q) = ∑ n : Fin 100000, g2M m c n q :=
  ((congrArg (fun a => rd S1x128 a (ix2 0 q)) (W8_arr m ρ c 3)).trans (hR.region3_sum (V7 m ρ) c q)).trans
    (Finset.sum_congr rfl fun n _ => conv2_entry m ρ c hR hh n q)

theorem sumsq2_entry (hh : ∀ n q, rd S100000x128 (W6 m ρ c (Proc.devRef .tc main_v71)) (ix2 n q) = h2M m c n q) (q : Fin 128) :
    rd S1x128 (W8 m ρ c (Proc.devRef .tc main_v94_2)) (ix2 0 q) = ∑ n : Fin 100000, g2M m c n q * g2M m c n q :=
  ((congrArg (fun a => rd S1x128 a (ix2 0 q)) (W8_arr m ρ c 4)).trans (hR.region3_sumsq (V7 m ρ) c q)).trans
    (Finset.sum_congr rfl fun n _ => by rw [conv2_entry m ρ c hR hh n q])

/-- The scale and shift rows of layer 2's normalization, at a column. -/
theorem scale2_entry (hh : ∀ n q, rd S100000x128 (W6 m ρ c (Proc.devRef .tc main_v71)) (ix2 n q) = h2M m c n q) (q : Fin 128) :
    rd S1x128 (W9 m ρ c (Proc.devRef .tc main_v104)) (ix2 0 q) = scaleK (g2M m c) (gM m c) q := by
  rw [show W9 m ρ c = StableHlo.after hostOps4 (W8 m ρ c) from rfl, host4_v104, f8_v33, scaleV_apply, rowV_apply,
    sum2_entry m ρ c hR hh q, sumsq2_entry m ρ c hR hh q]
  rfl

theorem shift2_entry (hh : ∀ n q, rd S100000x128 (W6 m ρ c (Proc.devRef .tc main_v71)) (ix2 n q) = h2M m c n q) (q : Fin 128) :
    rd S1x128 (W9 m ρ c (Proc.devRef .tc main_v106)) (ix2 0 q) = shiftK (g2M m c) (gM m c) (bM m c) q := by
  rw [show W9 m ρ c = StableHlo.after hostOps4 (W8 m ρ c) from rfl, host4_v106, f8_v33, f8_v34, shiftV_apply, scaleV_apply, rowV_apply, rowV_apply,
    sum2_entry m ρ c hR hh q, sumsq2_entry m ρ c hR hh q]
  rfl

/-- THE RESULT: region 4 applies the second normalization, adds the input features and takes the maximum with zero. -/
theorem result_entry (n : Fin 100000) (q : Fin 128) :
    rd S100000x128 (W10 m ρ c (Proc.devRef .tc main_v107)) (ix2 n q)
      = netK (xM m c) (w1M m c) (w2M m c) (b1M m c) (b2M m c) (gM m c) (bM m c) (dvM m c) (nrM m c) (srM m c) (LM m c) n q := by
  have hh := h2_entry m ρ c hR
  have e := hR.region4_out (V9 m ρ) c n q
  rw [show V9 m ρ c main_v94_0 = W8 m ρ c (Proc.devRef .tc main_v94_0) from host4_keep_v94_0 (W8 m ρ c),
    show V9 m ρ c main_arg0 = (m ((c.tc : Thread nD τ).loc main_arg0)) from f9_arg0 m ρ c,
    g2_entry m ρ c hR hh n q, show V9 m ρ c main_v104 = W9 m ρ c (Proc.devRef .tc main_v104) from rfl, show V9 m ρ c main_v106 = W9 m ρ c (Proc.devRef .tc main_v106) from rfl,
    scale2_entry m ρ c hR hh q, shift2_entry m ρ c hR hh q] at e
  exact (congrArg (fun a => rd S100000x128 a (ix2 n q)) (W10_arr m ρ c 4)).trans e

end Cert.KernelIdeal.KernelValue

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.RegionLin.lean ====
import proofs.«118271_j25778393710892_2_alg».proof.Proof.Gen.KernelIdeal.Frame
import Idealize.ShloMosaic.Lib.ValueIdx
import proofs.«118271_j25778393710892_2_alg».proof.Proof.Rd
import Idealize.ShloMosaic.Lib.Pipeline.Value
import proofs.«118271_j25778393710892_2_alg».proof.Proof.LibPlainDot
import Idealize.ShloMosaic.Lib.ValueLayout

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen Cert.GCN
open scoped BigOperators

/-! Two of the five regions multiply a row-tiled array by a small square matrix. Each grid point handles 5000 rows;
    since an entry of a product depends only on its own row of the left factor, the blocks' products are the blocks of
    the whole product, and the twenty blocks cover every row. -/

variable (V : (c : Dev nD) → (b : Ref sig .tc) → Buf (Elt Ideal) ((c : Thread nD τ).loc b)) (c : Dev nD)

/-- The zero offsets of a whole-buffer access, as the constant function. -/
theorem zero_offsets_lin : (![0, 0] : Fin 2 → Nat) = fun _ => 0 := funext fun a => by fin_cases a <;> rfl

/-! ## Region 0: rows of the product -/

/-- Entry (p, q) of a block's payload: the block of the left operand times the right operand, summed over the shared axis. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibPlainDot.matmul_zero_apply dot_S5000x128_S128x128_S5000x128_1_0_0_1_n_n rfl none _ _ p q

/-- The whole product, entry by entry: row n of the left array against column q of the right one. -/
abbrev G0 (a0 : S100000x128.Idx → EReal) (a1 : S128x128.Idx → EReal) : S100000x128.Idx → EReal :=
  fun i => ∑ k : Fin 128, a0 (ix2 (i 0 : Fin 100000) k) * a1 (ix2 k (i 1 : Fin 128))

/-- A block's payload at an entry is the whole product at the array entry it lands on, once the block's rows are the
    array's rows there and the right operand is the whole right array. -/
theorem point0 (x0 : Vec Ideal S5000x128 .f32) (x1 : Vec Ideal S128x128 .f32)
    (a0 : S100000x128.Idx → EReal) (a1 : S128x128.Idx → EReal) (y : S5000x128.Idx) (i : S100000x128.Idx)
    (h0 : ∀ k : Fin 128, x0 (ix2 (y 0 : Fin 5000) k) = a0 (ix2 (i 0 : Fin 100000) k))
    (h1 : ∀ k : Fin 128, x1 (ix2 k (y 1 : Fin 128)) = a1 (ix2 k (i 1 : Fin 128))) :
    k0_pay1 (F := Ideal) x0 x1 y = G0 a0 a1 i := by
  obtain ⟨p, q, rfl⟩ : ∃ (p : Fin 5000) (q : Fin 128), y = ix2 p q := ⟨y 0, y 1, eq_ix2 y⟩
  rw [pay0_apply]
  exact Finset.sum_congr rfl fun k _ => by rw [h0 k, h1 k]

/-- The index maps over the grid: the row-tiled windows sit at block t, the right operand's window at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t .. 5000 t + 4999 of its array. -/
theorem iblk0_0_apply (t : Fin cfg0.N) (y : S5000x128.Idx) (i : S100000x128.Idx)
    (h0 : (i 0).val = 5000 * t.val + (y 0).val) (h1 : (i 1).val = (y 1).val) :
    (iblk0 (F := Ideal) V c 0 t : Vec Ideal S5000x128 .f32) y = rd S100000x128 (V c main_arg0) i := by
  obtain ⟨e0, e1, -⟩ := idx_facts0 t
  unfold iblk0
  rw [View.read_apply]
  show V c main_arg0 _ = V c main_arg0 _
  refine congrArg _ ?_
  funext a
  apply Fin.ext
  match a with
  | ⟨0, _⟩ => show win0_0.index t 0 * 5000 + 1 * (y 0).val = (i 0).val; omega
  | ⟨1, _⟩ => show win0_0.index t 1 * 128 + 1 * (y 1).val = (i 1).val; omega

/-- The right operand's block at every point is its whole array. -/
theorem iblk0_1_apply (t : Fin cfg0.N) (y : S128x128.Idx) (i : S128x128.Idx)
    (h0 : (i 0).val = (y 0).val) (h1 : (i 1).val = (y 1).val) :
    (iblk0 (F := Ideal) V c 1 t : Vec Ideal S128x128 .f32) y = rd S128x128 (V c main_arg1) i := by
  obtain ⟨-, -, e0, e1, -⟩ := idx_facts0 t
  unfold iblk0
  rw [View.read_apply]
  show V c main_arg1 _ = V c main_arg1 _
  refine congrArg _ ?_
  funext a
  apply Fin.ext
  match a with
  | ⟨0, _⟩ => show win0_1.index t 0 * 128 + 1 * (y 0).val = (i 0).val; omega
  | ⟨1, _⟩ => show win0_1.index t 1 * 128 + 1 * (y 1).val = (i 1).val; omega

/-- What point t writes back is block t of the whole product. -/
theorem flushed0_eq (t : Fin cfg0.N) :
    (dat0 (F := Ideal) V c).flushed 2 t = ((cfg0.win 2).blk t).view.read (Elt Ideal) (G0 (V c main_arg0) (V c main_arg1)) := by
  show (cfg0.win 2).cut (grid0.coords t) ((dat0 (F := Ideal) V c).after 2 t) = _
  rw [after0_2]
  unfold out0_2
  rw [View.canon_unit_zero zero_offsets_lin]
  simp only [View.ld_unit_zero (S := S5000x128) zero_offsets_lin, View.ld_unit_zero (S := S128x128) zero_offsets_lin]
  obtain ⟨-, -, -, -, e0, e1⟩ := idx_facts0 t
  funext j
  have hj0 : (j 0).val < 5000 := (j 0).isLt
  have hj1 : (j 1).val < 128 := (j 1).isLt
  have r0 : ((((cfg0.win 2).blk t).view.emb j) 0).val = 5000 * t.val + (j 0).val := by
    show win0_2.index t 0 * 5000 + 1 * (j 0).val = _; omega
  have r1 : ((((cfg0.win 2).blk t).view.emb j) 1).val = (j 1).val := by
    show win0_2.index t 1 * 128 + 1 * (j 1).val = _; omega
  refine point0 (iblk0 (F := Ideal) V c 0 t) (iblk0 (F := Ideal) V c 1 t) (V c main_arg0) (V c main_arg1)
    ((cfg0.win 2).xinj (grid0.coords t) j) (((cfg0.win 2).blk t).view.emb j) (fun k => ?_) (fun k => ?_)
  · exact iblk0_0_apply V c t _ _ r0 rfl
  · exact iblk0_1_apply V c t _ _ rfl r1

/-- An entry of the array is in point t's block iff its row and column are in the block's ranges. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every entry lies in the block of the point its row names: row r is in block r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk0]
  obtain ⟨-, -, -, -, e0, e1⟩ := idx_facts0 ⟨(i 0).val / 5000, by rw [hN]; omega⟩
  intro a
  match a with
  | ⟨0, _⟩ =>
    show win0_2.index _ 0 * 5000 ≤ (i 0).val ∧ (i 0).val < win0_2.index _ 0 * 5000 + 5000
    rw [e0]; show (i 0).val / 5000 * 5000 ≤ (i 0).val ∧ (i 0).val < (i 0).val / 5000 * 5000 + 5000; omega
  | ⟨1, _⟩ =>
    show win0_2.index _ 1 * 128 ≤ (i 1).val ∧ (i 1).val < win0_2.index _ 1 * 128 + 128
    rw [e1]; omega

/-- The output array after the grid is the whole product. -/
theorem final0 : (dat0 (F := Ideal) V c).arrAt 2 cfg0.N = G0 (V c main_arg0) (V c main_arg1) :=
  (dat0 (F := Ideal) V c).arrAt_eq_of_cover 2 (G0 (V c main_arg0) (V c main_arg1)) (fun t _ => flushed0_eq V c t) cover0

/-- region 0: the row-tiled product is the whole product, entry by entry -/
theorem region0_out (n : Fin 100000) (q : Fin 128) :
    rd S100000x128 ((dat0 (F := Ideal) V c).arrAt 2 cfg0.N) (ix2 n q)
      = ∑ k : Fin 128, rd S100000x128 (V c main_arg0) (ix2 n k) * rd S128x128 (V c main_arg1) (ix2 k q) := by
  rw [final0]

/-! ## Region 2: the clamped, scaled and shifted rows times the second matrix -/

/-- One entry of the left factor of region 2's product: the block entry scaled and shifted by the two rows, then clamped
    below at zero. A reshape to the same shape changes nothing, and a row broadcast down the block reads the row. -/
theorem bnrelu_apply (v0 v4 : Vec Ideal S1x128 .f32) (v8 : Vec Ideal S5000x128 .f32) (p : Fin 5000) (k : Fin 128)
    (h1 h2 h3 h4 : S1x128.ShapeCasts S1x128) (hb hb' : S1x128.Broadcasts S5000x128) (h5 : S5000x128.ShapeCasts S5000x128) :
    (maximumf (addf (mulf (shapeCast S5000x128 v8 h5) (broadcastTo S5000x128 (shapeCast S1x128 (shapeCast S1x128 v0 h1) h2) hb))
        (broadcastTo S5000x128 (shapeCast S1x128 (shapeCast S1x128 v4 h3) h4) hb'))
      (broadcast S5000x128 (Scalar.ofBits (F := Ideal) .f32 0x00000000#32)) : FVec Ideal S5000x128 .f32) (ix2 p k)
      = max (v8 (ix2 p k) * v0 (ix2 0 k) + v4 (ix2 0 k)) 0 := by
  rw [shapeCast_self, shapeCast_self, shapeCast_self, shapeCast_self, shapeCast_self]
  rw [maximumf_apply, addf_apply, mulf_apply, broadcast_apply, broadcastTo_1b_ab_apply, broadcastTo_1b_ab_apply]
  exact congrArg _ Ideal.ofBits_zero_f32

/-- Entry (p, q) of a block's payload in region 2: the clamped, scaled and shifted block times the right operand. -/
theorem pay2_apply (v0 v4 : Vec Ideal S1x128 .f32) (v8 : Vec Ideal S5000x128 .f32) (v15 : Vec Ideal S128x128 .f32)
    (p : Fin 5000) (q : Fin 128) :
    k2_pay1 (F := Ideal) v0 v4 v8 v15 (ix2 p q)
      = ∑ k : Fin 128, max (v8 (ix2 p k) * v0 (ix2 0 k) + v4 (ix2 0 k)) 0 * v15 (ix2 k q) := by
  unfold k2_pay1
  refine (Cert.LibPlainDot.matmul_zero_apply dot_S5000x128_S128x128_S5000x128_1_0_0_1_n_n rfl none _ _ p q).trans ?_
  refine Finset.sum_congr rfl fun k _ => ?_
  exact congrArg (· * v15 (ix2 k q)) (bnrelu_apply v0 v4 v8 p k _ _ _ _ _ _ _)

/-- The whole result, entry by entry: row n of the first array, scaled and shifted column by column and clamped below at
    zero, against column q of the matrix. -/
abbrev G2 (a0 : S100000x128.Idx → EReal) (s b : S1x128.Idx → EReal) (a3 : S128x128.Idx → EReal) : S100000x128.Idx → EReal :=
  fun i => ∑ k : Fin 128, max (a0 (ix2 (i 0 : Fin 100000) k) * s (ix2 0 k) + b (ix2 0 k)) 0 * a3 (ix2 k (i 1 : Fin 128))

/-- A block's payload at an entry is the whole result at the array entry it lands on, once the block's rows are the
    array's rows there and the three small operands are their whole arrays. -/
theorem point2 (x0 : Vec Ideal S5000x128 .f32) (x1 x2 : Vec Ideal S1x128 .f32) (x3 : Vec Ideal S128x128 .f32)
    (a0 : S100000x128.Idx → EReal) (s b : S1x128.Idx → EReal) (a3 : S128x128.Idx → EReal) (y : S5000x128.Idx) (i : S100000x128.Idx)
    (h0 : ∀ k : Fin 128, x0 (ix2 (y 0 : Fin 5000) k) = a0 (ix2 (i 0 : Fin 100000) k))
    (h1 : ∀ k : Fin 128, x1 (ix2 0 k) = s (ix2 0 k))
    (h2 : ∀ k : Fin 128, x2 (ix2 0 k) = b (ix2 0 k))
    (h3 : ∀ k : Fin 128, x3 (ix2 k (y 1 : Fin 128)) = a3 (ix2 k (i 1 : Fin 128))) :
    k2_pay1 (F := Ideal) x1 x2 x0 x3 y = G2 a0 s b a3 i := by
  obtain ⟨p, q, rfl⟩ : ∃ (p : Fin 5000) (q : Fin 128), y = ix2 p q := ⟨y 0, y 1, eq_ix2 y⟩
  rw [pay2_apply]
  exact Finset.sum_congr rfl fun k _ => by rw [h0 k, h1 k, h2 k, h3 k]

/-- The index maps over the grid: the row-tiled windows sit at block t, the three small windows at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point t is rows 5000 t .. 5000 t + 4999 of its array. -/
theorem iblk2_0_apply (t : Fin cfg2.N) (y : S5000x128.Idx) (i : S100000x128.Idx)
    (h0 : (i 0).val = 5000 * t.val + (y 0).val) (h1 : (i 1).val = (y 1).val) :
    (iblk2 (F := Ideal) V c 0 t : Vec Ideal S5000x128 .f32) y = rd S100000x128 (V c main_v58_0) i := by
  obtain ⟨e0, e1, -, -, -, -, -, -, -, -⟩ := idx_facts2 t
  unfold iblk2
  rw [View.read_apply]
  show V c main_v58_0 _ = V c main_v58_0 _
  refine congrArg _ ?_
  funext a
  apply Fin.ext
  match a with
  | ⟨0, _⟩ => show win2_0.index t 0 * 5000 + 1 * (y 0).val = (i 0).val; omega
  | ⟨1, _⟩ => show win2_0.index t 1 * 128 + 1 * (y 1).val = (i 1).val; omega

/-- Window 1's block at every point is its whole array (the scale row). -/
theorem iblk2_1_apply (t : Fin cfg2.N) (y : S1x128.Idx) (i : S1x128.Idx)
    (h0 : (i 0).val = (y 0).val) (h1 : (i 1).val = (y 1).val) :
    (iblk2 (F := Ideal) V c 1 t : Vec Ideal S1x128 .f32) y = rd S1x128 (V c main_v68) i := by
  obtain ⟨-, -, e0, e1, -, -, -, -, -, -⟩ := idx_facts2 t
  unfold iblk2
  rw [View.read_apply]
  show V c main_v68 _ = V c main_v68 _
  refine congrArg _ ?_
  funext a
  apply Fin.ext
  match a with
  | ⟨0, _⟩ => show win2_1.index t 0 * 1 + 1 * (y 0).val = (i 0).val; omega
  | ⟨1, _⟩ => show win2_1.index t 1 * 128 + 1 * (y 1).val = (i 1).val; omega

/-- Window 2's block at every point is its whole array (the shift row). -/
theorem iblk2_2_apply (t : Fin cfg2.N) (y : S1x128.Idx) (i : S1x128.Idx)
    (h0 : (i 0).val = (y 0).val) (h1 : (i 1).val = (y 1).val) :
    (iblk2 (F := Ideal) V c 2 t : Vec Ideal S1x128 .f32) y = rd S1x128 (V c main_v70) i := by
  obtain ⟨-, -, -, -, e0, e1, -, -, -, -⟩ := idx_facts2 t
  unfold iblk2
  rw [View.read_apply]
  show V c main_v70 _ = V c main_v70 _
  refine congrArg _ ?_
  funext a
  apply Fin.ext
  match a with
  | ⟨0, _⟩ => show win2_2.index t 0 * 1 + 1 * (y 0).val = (i 0).val; omega
  | ⟨1, _⟩ => show win2_2.index t 1 * 128 + 1 * (y 1).val = (i 1).val; omega

/-- Window 3's block at every point is its whole array (the matrix). -/
theorem iblk2_3_apply (t : Fin cfg2.N) (y : S128x128.Idx) (i : S128x128.Idx)
    (h0 : (i 0).val = (y 0).val) (h1 : (i 1).val = (y 1).val) :
    (iblk2 (F := Ideal) V c 3 t : Vec Ideal S128x128 .f32) y = rd S128x128 (V c main_arg3) i := by
  obtain ⟨-, -, -, -, -, -, e0, e1, -, -⟩ := idx_facts2 t
  unfold iblk2
  rw [View.read_apply]
  show V c main_arg3 _ = V c main_arg3 _
  refine congrArg _ ?_
  funext a
  apply Fin.ext
  match a with
  | ⟨0, _⟩ => show win2_3.index t 0 * 128 + 1 * (y 0).val = (i 0).val; omega
  | ⟨1, _⟩ => show win2_3.index t 1 * 128 + 1 * (y 1).val = (i 1).val; omega

/-- What point t writes back is block t of the whole result. -/
theorem flushed2_eq (t : Fin cfg2.N) :
    (dat2 (F := Ideal) V c).flushed 4 t = ((cfg2.win 4).blk t).view.read (Elt Ideal)
      (G2 (V c main_v58_0) (V c main_v68) (V c main_v70) (V c main_arg3)) := by
  show (cfg2.win 4).cut (grid2.coords t) ((dat2 (F := Ideal) V c).after 4 t) = _
  rw [after2_4]
  unfold out2_4
  rw [View.canon_unit_zero zero_offsets_lin]
  simp only [View.ld_unit_zero (S := S5000x128) zero_offsets_lin, View.ld_unit_zero (S := S1x128) zero_offsets_lin, View.ld_unit_zero (S := S128x128) zero_offsets_lin]
  obtain ⟨-, -, -, -, -, -, -, -, e0, e1⟩ := idx_facts2 t
  funext j
  have hj0 : (j 0).val < 5000 := (j 0).isLt
  have hj1 : (j 1).val < 128 := (j 1).isLt
  have r0 : ((((cfg2.win 4).blk t).view.emb j) 0).val = 5000 * t.val + (j 0).val := by
    show win2_4.index t 0 * 5000 + 1 * (j 0).val = _; omega
  have r1 : ((((cfg2.win 4).blk t).view.emb j) 1).val = (j 1).val := by
    show win2_4.index t 1 * 128 + 1 * (j 1).val = _; omega
  refine point2 (iblk2 (F := Ideal) V c 0 t) (iblk2 (F := Ideal) V c 1 t) (iblk2 (F := Ideal) V c 2 t) (iblk2 (F := Ideal) V c 3 t)
    (V c main_v58_0) (V c main_v68) (V c main_v70) (V c main_arg3)
    ((cfg2.win 4).xinj (grid2.coords t) j) (((cfg2.win 4).blk t).view.emb j) (fun k => ?_) (fun k => ?_) (fun k => ?_) (fun k => ?_)
  · exact iblk2_0_apply V c t _ _ r0 rfl
  · exact iblk2_1_apply V c t _ _ rfl rfl
  · exact iblk2_2_apply V c t _ _ rfl rfl
  · exact iblk2_3_apply V c t _ _ rfl r1

/-- An entry of the array is in point t's block iff its row and column are in the block's ranges. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v71).slice (win2_4.rect t)).set ↔ _
  rw [View.set_slice_whole, Rect.mem_set_unit]
  exact Iff.rfl

/-- Every entry lies in the block of the point its row names: row r is in block r / 5000. -/
theorem cover2 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_4 _, ?_⟩
  rw [mem_blk2]
  obtain ⟨-, -, -, -, -, -, -, -, e0, e1⟩ := idx_facts2 ⟨(i 0).val / 5000, by rw [hN]; omega⟩
  intro a
  match a with
  | ⟨0, _⟩ =>
    show win2_4.index _ 0 * 5000 ≤ (i 0).val ∧ (i 0).val < win2_4.index _ 0 * 5000 + 5000
    rw [e0]; show (i 0).val / 5000 * 5000 ≤ (i 0).val ∧ (i 0).val < (i 0).val / 5000 * 5000 + 5000; omega
  | ⟨1, _⟩ =>
    show win2_4.index _ 1 * 128 ≤ (i 1).val ∧ (i 1).val < win2_4.index _ 1 * 128 + 128
    rw [e1]; omega

/-- The output array after the grid is the whole result. -/
theorem final2 : (dat2 (F := Ideal) V c).arrAt 4 cfg2.N = G2 (V c main_v58_0) (V c main_v68) (V c main_v70) (V c main_arg3) :=
  (dat2 (F := Ideal) V c).arrAt_eq_of_cover 4 (G2 (V c main_v58_0) (V c main_v68) (V c main_v70) (V c main_arg3))
    (fun t _ => flushed2_eq V c t) cover2

/-- region 2: the row-tiled product of the clamped, scaled and shifted array is the whole product, entry by entry -/
theorem region2_out (n : Fin 100000) (q : Fin 128) :
    rd S100000x128 ((dat2 (F := Ideal) V c).arrAt 4 cfg2.N) (ix2 n q)
      = ∑ k : Fin 128, max (rd S100000x128 (V c main_v58_0) (ix2 n k) * rd S1x128 (V c main_v68) (ix2 0 k)
            + rd S1x128 (V c main_v70) (ix2 0 k)) 0 * rd S128x128 (V c main_arg3) (ix2 k q) := by
  rw [final2]

end Cert.KernelIdeal.RegionValue

end
-- ==== Proof.RegionOut.lean ====
import proofs.«118271_j25778393710892_2_alg».proof.Proof.Gen.KernelIdeal.Frame
import Idealize.ShloMosaic.Lib.ValueIdx
import proofs.«118271_j25778393710892_2_alg».proof.Proof.Rd
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen Cert.GCN
open scoped BigOperators

/-! The last region works entry by entry: each entry of the first array is scaled and shifted by its column's entries of two
    rows, the residual array's entry is added, and the result is clamped below at zero. Each grid point handles 5000 rows, so
    the blocks' results are the blocks of the whole result, and the twenty blocks cover every row. -/

variable (V : (c : Dev nD) → (b : Ref sig .tc) → Buf (Elt Ideal) ((c : Thread nD τ).loc b)) (c : Dev nD)

/-- The zero offsets of a whole-buffer access, as the constant function. -/
theorem zero_offsets_out : (![0, 0] : Fin 2 → Nat) = fun _ => 0 := funext fun a => by fin_cases a <;> rfl

/-- One entry of the body's result: a reshape to the same shape changes nothing, and a row broadcast down the block reads
    the row at the entry's column. -/
theorem bnres_apply (v0 v4 : Vec Ideal S1x128 .f32) (v8 v12 : Vec Ideal S5000x128 .f32) (p : Fin 5000) (q : Fin 128)
    (h1 h2 h3 h4 : S1x128.ShapeCasts S1x128) (hb hb' : S1x128.Broadcasts S5000x128) (h5 : S5000x128.ShapeCasts S5000x128) :
    (maximumf (addf (addf (mulf (shapeCast S5000x128 v8 h5) (broadcastTo S5000x128 (shapeCast S1x128 (shapeCast S1x128 v0 h1) h2) hb))
        (broadcastTo S5000x128 (shapeCast S1x128 (shapeCast S1x128 v4 h3) h4) hb')) v12)
      (broadcast S5000x128 (Scalar.ofBits (F := Ideal) .f32 0x00000000#32)) : FVec Ideal S5000x128 .f32) (ix2 p q)
      = max (v8 (ix2 p q) * v0 (ix2 0 q) + v4 (ix2 0 q) + v12 (ix2 p q)) 0 := by
  rw [shapeCast_self, shapeCast_self, shapeCast_self, shapeCast_self, shapeCast_self]
  rw [maximumf_apply, addf_apply, addf_apply, mulf_apply, broadcast_apply, broadcastTo_1b_ab_apply, broadcastTo_1b_ab_apply]
  exact congrArg _ Ideal.ofBits_zero_f32

/-- Entry (p, q) of a block's payload. -/
theorem pay4_apply (v0 v4 : Vec Ideal S1x128 .f32) (v8 v12 : Vec Ideal S5000x128 .f32) (p : Fin 5000) (q : Fin 128) :
    k4_pay1 (F := Ideal) v0 v4 v8 v12 (ix2 p q) = max (v8 (ix2 p q) * v0 (ix2 0 q) + v4 (ix2 0 q) + v12 (ix2 p q)) 0 := by
  unfold k4_pay1
  exact bnres_apply v0 v4 v8 v12 p q _ _ _ _ _ _ _

/-- The whole result, entry by entry. -/
abbrev G4 (a0 : S100000x128.Idx → EReal) (s b : S1x128.Idx → EReal) (a3 : S100000x128.Idx → EReal) : S100000x128.Idx → EReal :=
  fun i => max (a0 i * s (ix2 0 (i 1 : Fin 128)) + b (ix2 0 (i 1 : Fin 128)) + a3 i) 0

/-- A block's payload at an entry is the whole result at the array entry it lands on, once the two row-tiled blocks' entries
    are their arrays' entries there and the two rows are their whole arrays. -/
theorem point4 (x0 x3 : Vec Ideal S5000x128 .f32) (x1 x2 : Vec Ideal S1x128 .f32)
    (a0 : S100000x128.Idx → EReal) (s b : S1x128.Idx → EReal) (a3 : S100000x128.Idx → EReal) (y : S5000x128.Idx) (i : S100000x128.Idx)
    (h0 : x0 y = a0 i)
    (h1 : x1 (ix2 0 (y 1 : Fin 128)) = s (ix2 0 (i 1 : Fin 128)))
    (h2 : x2 (ix2 0 (y 1 : Fin 128)) = b (ix2 0 (i 1 : Fin 128)))
    (h3 : x3 y = a3 i) :
    k4_pay1 (F := Ideal) x1 x2 x0 x3 y = G4 a0 s b a3 i := by
  obtain ⟨p, q, rfl⟩ : ∃ (p : Fin 5000) (q : Fin 128), y = ix2 p q := ⟨y 0, y 1, eq_ix2 y⟩
  rw [pay4_apply, h0, h3]
  show max (a0 i * x1 (ix2 0 q) + x2 (ix2 0 q) + a3 i) 0 = max (a0 i * s (ix2 0 (i 1 : Fin 128)) + b (ix2 0 (i 1 : Fin 128)) + a3 i) 0
  rw [← h1, ← h2]

/-- The index maps over the grid: the row-tiled windows sit at block t, the two rows' windows at block 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Window 0's block at point t is rows 5000 t .. 5000 t + 4999 of its array. -/
theorem iblk4_0_apply (t : Fin cfg4.N) (y : S5000x128.Idx) (i : S100000x128.Idx)
    (h0 : (i 0).val = 5000 * t.val + (y 0).val) (h1 : (i 1).val = (y 1).val) :
    (iblk4 (F := Ideal) V c 0 t : Vec Ideal S5000x128 .f32) y = rd S100000x128 (V c main_v94_0) i := by
  obtain ⟨e0, e1, -, -, -, -, -, -, -, -⟩ := idx_facts4 t
  unfold iblk4
  rw [View.read_apply]
  show V c main_v94_0 _ = V c main_v94_0 _
  refine congrArg _ ?_
  funext a
  apply Fin.ext
  match a with
  | ⟨0, _⟩ => show win4_0.index t 0 * 5000 + 1 * (y 0).val = (i 0).val; omega
  | ⟨1, _⟩ => show win4_0.index t 1 * 128 + 1 * (y 1).val = (i 1).val; omega

/-- Window 1's block at every point is its whole array (the scale row). -/
theorem iblk4_1_apply (t : Fin cfg4.N) (y : S1x128.Idx) (i : S1x128.Idx)
    (h0 : (i 0).val = (y 0).val) (h1 : (i 1).val = (y 1).val) :
    (iblk4 (F := Ideal) V c 1 t : Vec Ideal S1x128 .f32) y = rd S1x128 (V c main_v104) i := by
  obtain ⟨-, -, e0, e1, -, -, -, -, -, -⟩ := idx_facts4 t
  unfold iblk4
  rw [View.read_apply]
  show V c main_v104 _ = V c main_v104 _
  refine congrArg _ ?_
  funext a
  apply Fin.ext
  match a with
  | ⟨0, _⟩ => show win4_1.index t 0 * 1 + 1 * (y 0).val = (i 0).val; omega
  | ⟨1, _⟩ => show win4_1.index t 1 * 128 + 1 * (y 1).val = (i 1).val; omega

/-- Window 2's block at every point is its whole array (the shift row). -/
theorem iblk4_2_apply (t : Fin cfg4.N) (y : S1x128.Idx) (i : S1x128.Idx)
    (h0 : (i 0).val = (y 0).val) (h1 : (i 1).val = (y 1).val) :
    (iblk4 (F := Ideal) V c 2 t : Vec Ideal S1x128 .f32) y = rd S1x128 (V c main_v106) i := by
  obtain ⟨-, -, -, -, e0, e1, -, -, -, -⟩ := idx_facts4 t
  unfold iblk4
  rw [View.read_apply]
  show V c main_v106 _ = V c main_v106 _
  refine congrArg _ ?_
  funext a
  apply Fin.ext
  match a with
  | ⟨0, _⟩ => show win4_2.index t 0 * 1 + 1 * (y 0).val = (i 0).val; omega
  | ⟨1, _⟩ => show win4_2.index t 1 * 128 + 1 * (y 1).val = (i 1).val; omega

/-- Window 3's block at point t is rows 5000 t .. 5000 t + 4999 of its array. -/
theorem iblk4_3_apply (t : Fin cfg4.N) (y : S5000x128.Idx) (i : S100000x128.Idx)
    (h0 : (i 0).val = 5000 * t.val + (y 0).val) (h1 : (i 1).val = (y 1).val) :
    (iblk4 (F := Ideal) V c 3 t : Vec Ideal S5000x128 .f32) y = rd S100000x128 (V c main_arg0) i := by
  obtain ⟨-, -, -, -, -, -, e0, e1, -, -⟩ := idx_facts4 t
  unfold iblk4
  rw [View.read_apply]
  show V c main_arg0 _ = V c main_arg0 _
  refine congrArg _ ?_
  funext a
  apply Fin.ext
  match a with
  | ⟨0, _⟩ => show win4_3.index t 0 * 5000 + 1 * (y 0).val = (i 0).val; omega
  | ⟨1, _⟩ => show win4_3.index t 1 * 128 + 1 * (y 1).val = (i 1).val; omega

/-- What point t writes back is block t of the whole result. -/
theorem flushed4_eq (t : Fin cfg4.N) :
    (dat4 (F := Ideal) V c).flushed 4 t = ((cfg4.win 4).blk t).view.read (Elt Ideal)
      (G4 (V c main_v94_0) (V c main_v104) (V c main_v106) (V c main_arg0)) := by
  show (cfg4.win 4).cut (grid4.coords t) ((dat4 (F := Ideal) V c).after 4 t) = _
  rw [after4_4]
  unfold out4_4
  rw [View.canon_unit_zero zero_offsets_out]
  simp only [View.ld_unit_zero (S := S5000x128) zero_offsets_out, View.ld_unit_zero (S := S1x128) zero_offsets_out]
  obtain ⟨-, -, -, -, -, -, -, -, e0, e1⟩ := idx_facts4 t
  funext j
  have hj0 : (j 0).val < 5000 := (j 0).isLt
  have hj1 : (j 1).val < 128 := (j 1).isLt
  have r0 : ((((cfg4.win 4).blk t).view.emb j) 0).val = 5000 * t.val + (j 0).val := by
    show win4_4.index t 0 * 5000 + 1 * (j 0).val = _; omega
  have r1 : ((((cfg4.win 4).blk t).view.emb j) 1).val = (j 1).val := by
    show win4_4.index t 1 * 128 + 1 * (j 1).val = _; omega
  refine point4 (iblk4 (F := Ideal) V c 0 t) (iblk4 (F := Ideal) V c 3 t) (iblk4 (F := Ideal) V c 1 t) (iblk4 (F := Ideal) V c 2 t)
    (V c main_v94_0) (V c main_v104) (V c main_v106) (V c main_arg0)
    ((cfg4.win 4).xinj (grid4.coords t) j) (((cfg4.win 4).blk t).view.emb j) ?_ ?_ ?_ ?_
  · exact iblk4_0_apply V c t _ _ r0 r1
  · exact iblk4_1_apply V c t _ _ rfl r1
  · exact iblk4_2_apply V c t _ _ rfl r1
  · exact iblk4_3_apply V c t _ _ r0 r1

/-- An entry of the array is in point t's block iff its row and column are in the block's ranges. -/
theorem mem_blk4 (t : Fin cfg4.N) (i : S100000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v107).slice (win4_4.rect t)).set ↔ _
  rw [View.set_slice_whole, Rect.mem_set_unit]
  exact Iff.rfl

/-- Every entry lies in the block of the point its row names: row r is in block r / 5000. -/
theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_4 _, ?_⟩
  rw [mem_blk4]
  obtain ⟨-, -, -, -, -, -, -, -, e0, e1⟩ := idx_facts4 ⟨(i 0).val / 5000, by rw [hN]; omega⟩
  intro a
  match a with
  | ⟨0, _⟩ =>
    show win4_4.index _ 0 * 5000 ≤ (i 0).val ∧ (i 0).val < win4_4.index _ 0 * 5000 + 5000
    rw [e0]; show (i 0).val / 5000 * 5000 ≤ (i 0).val ∧ (i 0).val < (i 0).val / 5000 * 5000 + 5000; omega
  | ⟨1, _⟩ =>
    show win4_4.index _ 1 * 128 ≤ (i 1).val ∧ (i 1).val < win4_4.index _ 1 * 128 + 128
    rw [e1]; omega

/-- The output array after the grid is the whole result. -/
theorem final4 : (dat4 (F := Ideal) V c).arrAt 4 cfg4.N = G4 (V c main_v94_0) (V c main_v104) (V c main_v106) (V c main_arg0) :=
  (dat4 (F := Ideal) V c).arrAt_eq_of_cover 4 (G4 (V c main_v94_0) (V c main_v104) (V c main_v106) (V c main_arg0))
    (fun t _ => flushed4_eq V c t) cover4

/-- region 4: the row-tiled pointwise result is the whole pointwise result, entry by entry -/
theorem region4_out (n : Fin 100000) (q : Fin 128) :
    rd S100000x128 ((dat4 (F := Ideal) V c).arrAt 4 cfg4.N) (ix2 n q)
      = max (rd S100000x128 (V c main_v94_0) (ix2 n q) * rd S1x128 (V c main_v104) (ix2 0 q)
            + rd S1x128 (V c main_v106) (ix2 0 q) + rd S100000x128 (V c main_arg0) (ix2 n q)) 0 := by
  rw [final4]

end Cert.KernelIdeal.RegionValue

end
-- ==== Proof.RegionStats1.lean ====
import proofs.«118271_j25778393710892_2_alg».proof.Proof.Gen.KernelIdeal.Frame
import Idealize.ShloMosaic.Lib.ValueIdx
import proofs.«118271_j25778393710892_2_alg».proof.Proof.Rd
import Idealize.ShloMosaic.Lib.Pipeline.Value
import Idealize.ShloMosaic.Lib.Tactic
import Idealize.ShloMosaic.Lib.ValueLayout
import Idealize.ShloMosaic.PureOps.Ideal.Laws

/-!
  The region that combines and reduces (the program runs the same body in two regions; this is the first of them). At every
  grid point the body adds the bias row to each of the 5000 rows of the point's block of the aggregate, writes that block
  out, and adds the block's column sums, and the column sums of its squares, onto two one-row accumulators; the first
  point starts the accumulators from zero, and only the last point's accumulators reach their arrays.

  Proved here: what the body leaves in each buffer at a point, as arithmetic of the blocks it read; that arithmetic entry
  by entry over the extended reals; by induction on the point, the accumulators after point n as the sums over the rows
  below 5000 (n + 1); and the three arrays after the region: the output entry by entry, and the two one-row arrays as
  sums over all 100000 rows. Addition on the extended reals is commutative and associative with 0 + x = x, so gathering
  the 20 blocks of 5000 rows into one sum over the rows uses no finiteness.
-/

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen Cert.GCN
open scoped BigOperators

namespace Stats1

/-! ## What the body leaves in each output buffer, in each of its two cases

At the first point the body stores a zero row into each accumulator before anything else; at every point it stores the
block of rows plus bias into the output buffer, then reads each accumulator back and stores it with the block's column sum
(of the entries, of their squares) added. Each buffer is written whole, so what it holds afterwards is the last value
stored, over the blocks the body read. -/

section Cases

variable {F : FTy → Type} [FloatOps F]

/-- The zero offsets of a whole-buffer access. -/
theorem hz : (![0, 0] : Fin 2 → Nat) = fun _ => 0 := funext fun a => by fin_cases a <;> rfl

/-- First point: the output buffer holds the rows plus bias. -/
theorem firstOut_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond1_0 i) (x0 : Vec F S5000x128 .f32) (x1 : Vec F S1x128 .f32) :
    out1_A_2 c i arg1 harg1 arg2 harg2 arg3 harg3 arg4 harg4 arg5 harg5 hc0 x0 x1 = k1_pay3 x1 x0 := by
  unfold out1_A_2
  rw [View.read_writes_eq_canon _ _ _ (cover1_A_2 c i arg1 harg1 arg2 harg2 arg3 harg3 arg4 harg4 arg5 harg5 hc0 x0 x1)]
  unfold kernelRun1_A
  dsimp only
  try sl_unfold_words
  rw [View.canon_unit_zero hz]
  simp only [View.readAt_eq_ld, harg1.read_unread, harg2.read_unread, View.ld_unit_zero (S := S5000x128) hz, View.ld_unit_zero (S := S1x128) hz]

/-- First point: the first accumulator holds the zero row plus the block's column sums. -/
theorem firstSum_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond1_0 i) (x0 : Vec F S5000x128 .f32) (x1 : Vec F S1x128 .f32) :
    out1_A_3 c i arg1 harg1 arg2 harg2 arg3 harg3 arg4 harg4 arg5 harg5 hc0 x0 x1 = k1_pay4 x1 x0 (k1_pay1 (F := F)) := by
  unfold out1_A_3
  rw [View.read_writes_eq_canon _ _ _ (cover1_A_3 c i arg1 harg1 arg2 harg2 arg3 harg3 arg4 harg4 arg5 harg5 hc0 x0 x1)]
  unfold kernelRun1_A
  dsimp only
  sl_unfold_words
  rw [View.canon_cons_unit_zero (S := S1x128) hz, View.readCov_unit_zero (S := S1x128) _ hz]
  simp only [View.readAt_eq_ld, harg1.read_unread, harg2.read_unread, View.ld_unit_zero (S := S5000x128) hz, View.ld_unit_zero (S := S1x128) hz]

/-- First point: the second accumulator holds the zero row plus the column sums of the squares. -/
theorem firstSumsq_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond1_0 i) (x0 : Vec F S5000x128 .f32) (x1 : Vec F S1x128 .f32) :
    out1_A_4 c i arg1 harg1 arg2 harg2 arg3 harg3 arg4 harg4 arg5 harg5 hc0 x0 x1 = k1_pay5 x1 x0 (k1_pay2 (F := F)) := by
  unfold out1_A_4
  rw [View.read_writes_eq_canon _ _ _ (cover1_A_4 c i arg1 harg1 arg2 harg2 arg3 harg3 arg4 harg4 arg5 harg5 hc0 x0 x1)]
  unfold kernelRun1_A
  dsimp only
  sl_unfold_words
  rw [View.canon_cons_unit_zero (S := S1x128) hz, View.readCov_unit_zero (S := S1x128) _ hz]
  simp only [View.readAt_eq_ld, harg1.read_unread, harg2.read_unread, View.ld_unit_zero (S := S5000x128) hz, View.ld_unit_zero (S := S1x128) hz]

/-- Later points: the output buffer holds the rows plus bias. -/
theorem laterOut_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (x0 : Vec F S5000x128 .f32) (x1 xo3 xo4 : Vec F S1x128 .f32) :
    out1_B_2 c i arg1 harg1 arg2 harg2 arg3 harg3 arg4 harg4 arg5 harg5 hc0 x0 x1 xo3 xo4 = k1_pay3 x1 x0 := by
  unfold out1_B_2
  rw [View.read_writes_eq_canon _ _ _ (cover1_B_2 c i arg1 harg1 arg2 harg2 arg3 harg3 arg4 harg4 arg5 harg5 hc0 x0 x1 xo3 xo4)]
  unfold kernelRun1_B
  dsimp only
  try sl_unfold_words
  rw [View.canon_unit_zero hz]
  simp only [View.readAt_eq_ld, harg1.read_unread, harg2.read_unread, View.ld_unit_zero (S := S5000x128) hz, View.ld_unit_zero (S := S1x128) hz]

/-- Later points: the first accumulator holds what it held plus the block's column sums. -/
theorem laterSum_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (x0 : Vec F S5000x128 .f32) (x1 xo3 xo4 : Vec F S1x128 .f32) :
    out1_B_3 c i arg1 harg1 arg2 harg2 arg3 harg3 arg4 harg4 arg5 harg5 hc0 x0 x1 xo3 xo4 = k1_pay4 x1 x0 xo3 := by
  unfold out1_B_3
  rw [View.read_writes_eq_canon _ _ _ (cover1_B_3 c i arg1 harg1 arg2 harg2 arg3 harg3 arg4 harg4 arg5 harg5 hc0 x0 x1 xo3 xo4)]
  unfold kernelRun1_B
  dsimp only
  try sl_unfold_words
  rw [View.canon_unit_zero hz]
  simp only [View.readAt_eq_ld, harg1.read_unread, harg2.read_unread, harg4.read_unread, View.ld_unit_zero (S := S5000x128) hz, View.ld_unit_zero (S := S1x128) hz]

/-- Later points: the second accumulator holds what it held plus the column sums of the squares. -/
theorem laterSumsq_eq (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (x0 : Vec F S5000x128 .f32) (x1 xo3 xo4 : Vec F S1x128 .f32) :
    out1_B_4 c i arg1 harg1 arg2 harg2 arg3 harg3 arg4 harg4 arg5 harg5 hc0 x0 x1 xo3 xo4 = k1_pay5 x1 x0 xo4 := by
  unfold out1_B_4
  rw [View.read_writes_eq_canon _ _ _ (cover1_B_4 c i arg1 harg1 arg2 harg2 arg3 harg3 arg4 harg4 arg5 harg5 hc0 x0 x1 xo3 xo4)]
  unfold kernelRun1_B
  dsimp only
  try sl_unfold_words
  rw [View.canon_unit_zero hz]
  simp only [View.readAt_eq_ld, harg1.read_unread, harg2.read_unread, harg5.read_unread, View.ld_unit_zero (S := S5000x128) hz, View.ld_unit_zero (S := S1x128) hz]

end Cases

/-! ## The body's arithmetic, entry by entry, over the extended reals -/

/-- The output block: the aggregated row plus the bias row, entry by entry. -/
theorem rowPlusBias_apply (v3 : Vec Ideal S1x128 .f32) (v7 : Vec Ideal S5000x128 .f32) (r : Fin 5000) (q : Fin 128) :
    k1_pay3 (F := Ideal) v3 v7 (ix2 r q) = rd S5000x128 v7 (ix2 r q) + rd S1x128 v3 (ix2 0 q) := by
  unfold k1_pay3
  simp only [shapeCast_self]
  refine (addf_apply _ _ _).trans ?_
  exact congrArg (rd S5000x128 v7 (ix2 r q) + ·) (broadcastTo_1b_ab_apply v3 broadcasts_S1x128_S5000x128 r q)

/-- The index the column sum visits: row k of column q. -/
theorem lift_eq (q : Fin 128) (k : Fin 5000) :
    reduces_S5000x128_S128.lift (ix1 q) k = ix2 k q := by
  funext a
  match a with
  | ⟨0, _⟩ => rfl
  | ⟨1, _⟩ => rfl

/-- A column sum of a block, from the zero word. -/
theorem colsum_apply (X : FVec Ideal S5000x128 .f32) (hacc : (0x00000000#32 : BitVec 32) = 0x00000000#32) (u : Fin 1) (q : Fin 128) :
    shapeCast S1x128 (multiReduction (F := Ideal) .add [0] S128 X 0x00000000#32 reduces_S5000x128_S128 (.inl rfl) hacc) shapeCasts_S128_S1x128 (ix2 u q)
      = ∑ k : Fin 5000, X (ix2 k q) := by
  refine (shapeCast_a_1a_apply _ shapeCasts_S128_S1x128 u q).trans ?_
  refine (Ideal.multiReduction_add_single X 0x00000000#32 reduces_S5000x128_S128 (.inl rfl) hacc (ix1 q)).trans ?_
  exact Finset.sum_congr rfl fun k _ => congrArg X (lift_eq q k)

/-- The running column sum: what was carried plus the block's column sum. -/
theorem runningSum_apply (v3 : Vec Ideal S1x128 .f32) (v7 : Vec Ideal S5000x128 .f32) (v11 : Vec Ideal S1x128 .f32) (u : Fin 1) (q : Fin 128) :
    k1_pay4 (F := Ideal) v3 v7 v11 (ix2 u q)
      = rd S1x128 v11 (ix2 u q) + ∑ k : Fin 5000, (rd S5000x128 v7 (ix2 k q) + rd S1x128 v3 (ix2 0 q)) := by
  unfold k1_pay4
  simp only [shapeCast_self]
  refine (addf_apply _ _ _).trans ?_
  refine congrArg (rd S1x128 v11 (ix2 u q) + ·) ?_
  refine (colsum_apply _ rfl u q).trans ?_
  exact Finset.sum_congr rfl fun k _ => rowPlusBias_apply v3 v7 k q

/-- The running column sum of squares. -/
theorem runningSumsq_apply (v3 : Vec Ideal S1x128 .f32) (v7 : Vec Ideal S5000x128 .f32) (v17 : Vec Ideal S1x128 .f32) (u : Fin 1) (q : Fin 128) :
    k1_pay5 (F := Ideal) v3 v7 v17 (ix2 u q)
      = rd S1x128 v17 (ix2 u q) + ∑ k : Fin 5000, (rd S5000x128 v7 (ix2 k q) + rd S1x128 v3 (ix2 0 q))
          * (rd S5000x128 v7 (ix2 k q) + rd S1x128 v3 (ix2 0 q)) := by
  unfold k1_pay5
  simp only [shapeCast_self]
  refine (addf_apply _ _ _).trans ?_
  refine congrArg (rd S1x128 v17 (ix2 u q) + ·) ?_
  refine (colsum_apply _ rfl u q).trans ?_
  refine Finset.sum_congr rfl fun k _ => ?_
  refine (mulf_apply _ _ _).trans ?_
  rw [rowPlusBias_apply v3 v7 k q]

/-- The zero rows the first point stores. -/
theorem zeroRowSum_apply (u : Fin 1) (q : Fin 128) : k1_pay1 (F := Ideal) (ix2 u q) = 0 := by
  unfold k1_pay1
  exact Ideal.ofBits_zero_f32
/-- The same for the accumulator of squares. -/
theorem zeroRowSumsq_apply (u : Fin 1) (q : Fin 128) : k1_pay2 (F := Ideal) (ix2 u q) = 0 := by
  unfold k1_pay2
  exact Ideal.ofBits_zero_f32

/-! ## The windows' blocks as rows of the arrays -/

section Region

variable (V : (c : Dev nD) → (b : Ref sig .tc) → Buf (Elt Ideal) ((c : Thread nD τ).loc b)) (c : Dev nD)

/-- The printed index maps over the grid: the row-tiled windows sit at block (t, 0), the one-row windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row r of the aggregate's block at point t is row 5000 t + r of the array. -/
theorem aggBlock_apply (t : Fin cfg1.N) (r : Fin 5000) (q : Fin 128) (n : Fin 100000) (hn : n.val = 5000 * t.val + r.val) :
    rd S5000x128 (iblk1 (F := Ideal) V c 0 t) (ix2 r q) = rd S100000x128 (V c main_v56) (ix2 n q) := by
  obtain ⟨e0, e1, -⟩ := idx_facts t
  unfold iblk1
  dsimp only [rd]
  rw [View.read_apply]
  show V c main_v56 _ = V c main_v56 _
  refine congrArg (V c main_v56) ?_
  funext a
  apply Fin.ext
  match a with
  | ⟨0, _⟩ => show win1_0.index t (0 : Fin 2) * 5000 + 1 * r.val = n.val; rw [e0, hn]; omega
  | ⟨1, _⟩ => show win1_0.index t (1 : Fin 2) * 128 + 1 * q.val = q.val; rw [e1]; omega

/-- The bias row's block is the bias row at every point. -/
theorem biasBlock_apply (t : Fin cfg1.N) (u : Fin 1) (q : Fin 128) :
    rd S1x128 (iblk1 (F := Ideal) V c 1 t) (ix2 u q) = rd S1x128 (V c main_v57) (ix2 0 q) := by
  obtain ⟨-, -, e0, e1, -⟩ := idx_facts t
  unfold iblk1
  dsimp only [rd]
  rw [View.read_apply]
  show V c main_v57 _ = V c main_v57 _
  refine congrArg (V c main_v57) ?_
  funext a
  apply Fin.ext
  match a with
  | ⟨0, _⟩ => show win1_1.index t (0 : Fin 2) * 1 + 1 * u.val = 0; rw [e0]; omega
  | ⟨1, _⟩ => show win1_1.index t (1 : Fin 2) * 128 + 1 * q.val = q.val; rw [e1]; omega

/-! ## What the output buffers hold after each point, as the body's arithmetic of the blocks -/

/-- At the first point: the output block, and the two accumulators started from the zero rows. -/
theorem after_first (t : Fin cfg1.N) (h0 : t.val % 20 = 0) :
    outsAt1 (F := Ideal) V c t.val t.isLt
      = (k1_pay3 (iblk1 V c 1 t) (iblk1 V c 0 t), k1_pay4 (iblk1 V c 1 t) (iblk1 V c 0 t) (k1_pay1 (F := Ideal)),
          k1_pay5 (iblk1 V c 1 t) (iblk1 V c 0 t) (k1_pay2 (F := Ideal))) := by
  rw [outsAt1_A V c t h0]
  exact congr (congrArg Prod.mk (firstOut_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)))
    (congr (congrArg Prod.mk (firstSum_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)))
      (firstSumsq_eq (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)))

/-- At a later point: the output block, and the accumulators carried from the point before. -/
theorem after_later (t : Fin cfg1.N) (h0 : ¬t.val % 20 = 0) :
    outsAt1 (F := Ideal) V c t.val t.isLt
      = (k1_pay3 (iblk1 V c 1 t) (iblk1 V c 0 t),
          k1_pay4 (iblk1 V c 1 t) (iblk1 V c 0 t) (outsAt1 V c (t.val - 1) (Nat.lt_of_le_of_lt (Nat.sub_le _ _) t.isLt)).2.1,
          k1_pay5 (iblk1 V c 1 t) (iblk1 V c 0 t) (outsAt1 V c (t.val - 1) (Nat.lt_of_le_of_lt (Nat.sub_le _ _) t.isLt)).2.2) := by
  rw [outsAt1_B V c t h0]
  exact congr (congrArg Prod.mk (laterOut_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _))
    (congr (congrArg Prod.mk (laterSum_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _))
      (laterSumsq_eq (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) _ _))

/-- The output block at every point. -/
theorem after_out (t : Fin cfg1.N) : (outsAt1 (F := Ideal) V c t.val t.isLt).1 = k1_pay3 (iblk1 V c 1 t) (iblk1 V c 0 t) := by
  by_cases h0 : t.val % 20 = 0
  · rw [after_first V c t h0]
  · rw [after_later V c t h0]

/-! ## The accumulators after each point: sums over the rows met so far -/

/-- The combined entry of row number k in column q, aggregate plus bias (zero past the last row). -/
def comb (q : Fin 128) (k : ℕ) : EReal :=
  if h : k < 100000 then rd S100000x128 (V c main_v56) (ix2 ⟨k, h⟩ q) + rd S1x128 (V c main_v57) (ix2 0 q) else 0

/-- The column sum over one block is the sum of the combined entries of its 5000 rows. -/
theorem block_sum (t : Fin cfg1.N) (s : ℕ) (hs : t.val = s) (q : Fin 128) :
    ∑ r : Fin 5000, (rd S5000x128 (iblk1 (F := Ideal) V c 0 t) (ix2 r q) + rd S1x128 (iblk1 (F := Ideal) V c 1 t) (ix2 0 q))
      = ∑ k ∈ Finset.range 5000, comb V c q (5000 * s + k) := by
  subst hs
  have hN : t.val < 20 := lt_of_lt_of_eq t.isLt (show cfg1.N = 20 from N_1)
  rw [Finset.sum_range]
  refine Finset.sum_congr rfl fun r _ => ?_
  have hr : 5000 * t.val + r.val < 100000 := by have := r.isLt; omega
  unfold comb
  rw [dif_pos hr, aggBlock_apply V c t r q ⟨5000 * t.val + r.val, hr⟩ rfl, biasBlock_apply V c t 0 q]

/-- The same for the squares. -/
theorem block_sumsq (t : Fin cfg1.N) (s : ℕ) (hs : t.val = s) (q : Fin 128) :
    ∑ r : Fin 5000, (rd S5000x128 (iblk1 (F := Ideal) V c 0 t) (ix2 r q) + rd S1x128 (iblk1 (F := Ideal) V c 1 t) (ix2 0 q))
        * (rd S5000x128 (iblk1 (F := Ideal) V c 0 t) (ix2 r q) + rd S1x128 (iblk1 (F := Ideal) V c 1 t) (ix2 0 q))
      = ∑ k ∈ Finset.range 5000, comb V c q (5000 * s + k) * comb V c q (5000 * s + k) := by
  subst hs
  have hN : t.val < 20 := lt_of_lt_of_eq t.isLt (show cfg1.N = 20 from N_1)
  rw [Finset.sum_range]
  refine Finset.sum_congr rfl fun r _ => ?_
  have hr : 5000 * t.val + r.val < 100000 := by have := r.isLt; omega
  unfold comb
  rw [dif_pos hr, aggBlock_apply V c t r q ⟨5000 * t.val + r.val, hr⟩ rfl, biasBlock_apply V c t 0 q]

/-- After point n the two accumulators hold the sums, and the sums of squares, of the combined entries of the rows below
    5000 (n + 1): by induction on the point, the first point starting from zero, every later one adding its block's
    column sums onto what the point before left. -/
theorem acc_eq : ∀ (n : ℕ) (h : n < cfg1.N) (u : Fin 1) (q : Fin 128),
    rd S1x128 (outsAt1 (F := Ideal) V c n h).2.1 (ix2 u q) = ∑ k ∈ Finset.range (5000 * n + 5000), comb V c q k
    ∧ rd S1x128 (outsAt1 (F := Ideal) V c n h).2.2 (ix2 u q) = ∑ k ∈ Finset.range (5000 * n + 5000), comb V c q k * comb V c q k
  | 0, h, u, q => by
    have e := after_first V c ⟨0, h⟩ rfl
    rw [show outsAt1 (F := Ideal) V c 0 h = _ from e]
    constructor
    · refine (runningSum_apply (iblk1 V c 1 ⟨0, h⟩) (iblk1 V c 0 ⟨0, h⟩) (k1_pay1 (F := Ideal)) u q).trans ?_
      rw [show rd S1x128 (k1_pay1 (F := Ideal)) (ix2 u q) = 0 from zeroRowSum_apply u q, zero_add,
        block_sum V c ⟨0, h⟩ 0 rfl q]
      simp only [Nat.mul_zero, Nat.zero_add]
    · refine (runningSumsq_apply (iblk1 V c 1 ⟨0, h⟩) (iblk1 V c 0 ⟨0, h⟩) (k1_pay2 (F := Ideal)) u q).trans ?_
      rw [show rd S1x128 (k1_pay2 (F := Ideal)) (ix2 u q) = 0 from zeroRowSumsq_apply u q, zero_add,
        block_sumsq V c ⟨0, h⟩ 0 rfl q]
      simp only [Nat.mul_zero, Nat.zero_add]
  | n + 1, h, u, q => by
    have hN : cfg1.N = 20 := N_1
    have hB : ¬(⟨n + 1, h⟩ : Fin cfg1.N).val % 20 = 0 := by dsimp only; omega
    have e := after_later V c ⟨n + 1, h⟩ hB
    obtain ⟨ih1, ih2⟩ := acc_eq n (Nat.lt_of_succ_lt h) u q
    have em : 5000 * (n + 1) = 5000 * n + 5000 := by omega
    rw [show outsAt1 (F := Ideal) V c (n + 1) h = _ from e]
    constructor
    · refine (runningSum_apply (iblk1 V c 1 ⟨n + 1, h⟩) (iblk1 V c 0 ⟨n + 1, h⟩) (outsAt1 V c n (Nat.lt_of_succ_lt h)).2.1 u q).trans ?_
      rw [ih1, block_sum V c ⟨n + 1, h⟩ (n + 1) rfl q, Finset.sum_range_add _ (5000 * (n + 1)) 5000, em]
    · refine (runningSumsq_apply (iblk1 V c 1 ⟨n + 1, h⟩) (iblk1 V c 0 ⟨n + 1, h⟩) (outsAt1 V c n (Nat.lt_of_succ_lt h)).2.2 u q).trans ?_
      rw [ih2, block_sumsq V c ⟨n + 1, h⟩ (n + 1) rfl q, Finset.sum_range_add _ (5000 * (n + 1)) 5000, em]

/-- Over all 100000 rows the combined entries' sum is the sum over the row index. -/
theorem comb_sum (q : Fin 128) : ∑ k ∈ Finset.range 100000, comb V c q k
    = ∑ n : Fin 100000, (rd S100000x128 (V c main_v56) (ix2 n q) + rd S1x128 (V c main_v57) (ix2 0 q)) := by
  rw [Finset.sum_range]
  refine Finset.sum_congr rfl fun n _ => ?_
  unfold comb
  rw [dif_pos n.isLt]

/-- The same for the squares. -/
theorem comb_sumsq (q : Fin 128) : ∑ k ∈ Finset.range 100000, comb V c q k * comb V c q k
    = ∑ n : Fin 100000, (rd S100000x128 (V c main_v56) (ix2 n q) + rd S1x128 (V c main_v57) (ix2 0 q))
        * (rd S100000x128 (V c main_v56) (ix2 n q) + rd S1x128 (V c main_v57) (ix2 0 q)) := by
  rw [Finset.sum_range]
  refine Finset.sum_congr rfl fun n _ => ?_
  unfold comb
  rw [dif_pos n.isLt]

/-! ## The arrays after the region -/

/-- The output array as one function of the two operands: row n is the aggregate's row n plus the bias row. -/
def outG : S100000x128.Idx → EReal :=
  fun i => rd S100000x128 (V c main_v56) i + rd S1x128 (V c main_v57) (ix2 0 ⟨(i 1).val, idx2_lt1 i⟩)

/-- The column sums of the output array, as a one-row array. -/
def sumG : S1x128.Idx → EReal :=
  fun i => ∑ n : Fin 100000, (rd S100000x128 (V c main_v56) (ix2 n ⟨(i 1).val, idx2_lt1 i⟩)
    + rd S1x128 (V c main_v57) (ix2 0 ⟨(i 1).val, idx2_lt1 i⟩))

/-- The column sums of the squares of the output array, as a one-row array. -/
def sumsqG : S1x128.Idx → EReal :=
  fun i => ∑ n : Fin 100000, (rd S100000x128 (V c main_v56) (ix2 n ⟨(i 1).val, idx2_lt1 i⟩)
      + rd S1x128 (V c main_v57) (ix2 0 ⟨(i 1).val, idx2_lt1 i⟩))
    * (rd S100000x128 (V c main_v56) (ix2 n ⟨(i 1).val, idx2_lt1 i⟩)
      + rd S1x128 (V c main_v57) (ix2 0 ⟨(i 1).val, idx2_lt1 i⟩))

/-- Two blocks that agree entry by entry are equal. -/
theorem block_ext (X Y : S5000x128.Idx → EReal) (h : ∀ (r : Fin 5000) (q : Fin 128), X (ix2 r q) = Y (ix2 r q)) : X = Y :=
  funext fun j => by rw [eq_ix2 j]; exact h _ _

/-- Two one-row blocks that agree entry by entry are equal. -/
theorem row_ext (X Y : S1x128.Idx → EReal) (h : ∀ (u : Fin 1) (q : Fin 128), X (ix2 u q) = Y (ix2 u q)) : X = Y :=
  funext fun j => by rw [eq_ix2 j]; exact h _ _

/-- What point t writes back to the output array is block t of the one function. -/
theorem flushedOut_eq (t : Fin cfg1.N) :
    (dat1 (F := Ideal) V c).flushed 2 t = ((cfg1.win 2).blk t).view.read (Elt Ideal) (outG V c) := by
  have hN : t.val < 20 := lt_of_lt_of_eq t.isLt (show cfg1.N = 20 from N_1)
  obtain ⟨-, -, -, -, e0, e1, -⟩ := idx_facts t
  show (cfg1.win 2).cut (grid1.coords t) ((dat1 V c).after 2 t) = _
  rw [after1_2, after_out]
  refine block_ext _ _ fun r q => ?_
  have hr : 5000 * t.val + r.val < 100000 := by have := r.isLt; omega
  show k1_pay3 (F := Ideal) (iblk1 V c 1 t) (iblk1 V c 0 t) (ix2 r q) = outG V c (((cfg1.win 2).blk t).view.emb (ix2 r q))
  refine (rowPlusBias_apply (iblk1 V c 1 t) (iblk1 V c 0 t) r q).trans ?_
  rw [aggBlock_apply V c t r q ⟨5000 * t.val + r.val, hr⟩ rfl, biasBlock_apply V c t 0 q]
  have hemb : ((cfg1.win 2).blk t).view.emb (ix2 r q) = ix2 (⟨5000 * t.val + r.val, hr⟩ : Fin 100000) q := by
    funext a; apply Fin.ext
    match a with
    | ⟨0, _⟩ => show win1_2.index t (0 : Fin 2) * 5000 + 1 * r.val = 5000 * t.val + r.val; rw [e0]; omega
    | ⟨1, _⟩ => show win1_2.index t (1 : Fin 2) * 128 + 1 * q.val = q.val; rw [e1]; omega
  rw [hemb]
  rfl

/-- Every row lies in the block of the point numbered by the row's quotient by 5000. -/
theorem coverOut (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 20 := N_1
  have ht : (i 0).val / 5000 < cfg1.N := by rw [hN]; omega
  obtain ⟨-, -, -, -, e0, e1, -⟩ := idx_facts ⟨(i 0).val / 5000, ht⟩
  refine ⟨⟨(i 0).val / 5000, ht⟩, flush1_2 _, ?_⟩
  show i ∈ ((View.whole main_v58_0).slice (win1_2.rect ⟨(i 0).val / 5000, ht⟩)).set
  rw [View.set_slice_whole, Rect.mem_set_unit]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e1]; omega

/-- So the output array ends holding the one function. -/
theorem finalOut : (dat1 (F := Ideal) V c).arrAt 2 cfg1.N = outG V c :=
  (dat1 V c).arrAt_eq_of_cover 2 (outG V c) (fun t _ => flushedOut_eq V c t) (coverOut)

/-- Where an entry of the one-row block sits in its array: at itself, whatever the point. -/
theorem embSum (t : Fin cfg1.N) (u : Fin 1) (q : Fin 128) : ((cfg1.win 3).blk t).view.emb (ix2 u q) = ix2 (0 : Fin 1) q := by
  obtain ⟨-, -, -, -, -, -, e0, e1, -⟩ := idx_facts t
  funext a; apply Fin.ext
  match a with
  | ⟨0, _⟩ => show win1_3.index t (0 : Fin 2) * 1 + 1 * u.val = 0; rw [e0]; omega
  | ⟨1, _⟩ => show win1_3.index t (1 : Fin 2) * 128 + 1 * q.val = q.val; rw [e1]; omega

/-- The same for the array of the sums of squares. -/
theorem embSumsq (t : Fin cfg1.N) (u : Fin 1) (q : Fin 128) : ((cfg1.win 4).blk t).view.emb (ix2 u q) = ix2 (0 : Fin 1) q := by
  obtain ⟨-, -, -, -, -, -, -, -, e0, e1⟩ := idx_facts t
  funext a; apply Fin.ext
  match a with
  | ⟨0, _⟩ => show win1_4.index t (0 : Fin 2) * 1 + 1 * u.val = 0; rw [e0]; omega
  | ⟨1, _⟩ => show win1_4.index t (1 : Fin 2) * 128 + 1 * q.val = q.val; rw [e1]; omega

/-- The sums' arrays at column q. -/
theorem sumG_apply (q : Fin 128) : sumG V c (ix2 0 q)
    = ∑ n : Fin 100000, (rd S100000x128 (V c main_v56) (ix2 n q) + rd S1x128 (V c main_v57) (ix2 0 q)) := rfl
/-- The same for the sums of squares. -/
theorem sumsqG_apply (q : Fin 128) : sumsqG V c (ix2 0 q)
    = ∑ n : Fin 100000, (rd S100000x128 (V c main_v56) (ix2 n q) + rd S1x128 (V c main_v57) (ix2 0 q))
        * (rd S100000x128 (V c main_v56) (ix2 n q) + rd S1x128 (V c main_v57) (ix2 0 q)) := rfl

/-- A one-row buffer that holds, in every column, a one-row array's entry is what the one-row window's block reads of that array. -/
theorem cutSum_eq (t : Fin cfg1.N) (X G : S1x128.Idx → EReal) (hX : ∀ (u : Fin 1) (q : Fin 128), rd S1x128 X (ix2 u q) = G (ix2 0 q)) :
    (cfg1.win 3).cut (grid1.coords t) X = ((cfg1.win 3).blk t).view.read (Elt Ideal) G := by
  refine row_ext _ _ fun u q => ?_
  show X (ix2 u q) = G (((cfg1.win 3).blk t).view.emb (ix2 u q))
  rw [embSum t u q]
  exact hX u q

/-- The same for the array of the sums of squares. -/
theorem cutSumsq_eq (t : Fin cfg1.N) (X G : S1x128.Idx → EReal) (hX : ∀ (u : Fin 1) (q : Fin 128), rd S1x128 X (ix2 u q) = G (ix2 0 q)) :
    (cfg1.win 4).cut (grid1.coords t) X = ((cfg1.win 4).blk t).view.read (Elt Ideal) G := by
  refine row_ext _ _ fun u q => ?_
  show X (ix2 u q) = G (((cfg1.win 4).blk t).view.emb (ix2 u q))
  rw [embSumsq t u q]
  exact hX u q

/-- The one write-back of the sums, after the last point, writes the sums over all rows. -/
theorem flushedSum_eq (t : Fin cfg1.N) (hf : (cfg1.win 3).flush t = true) :
    (dat1 (F := Ideal) V c).flushed 3 t = ((cfg1.win 3).blk t).view.read (Elt Ideal) (sumG V c) := by
  have hN : cfg1.N = 20 := N_1
  have h19 : t.val = 19 := by have := (flush1_3 t).mp hf; have := t.isLt; omega
  have e100 : 5000 * 19 + 5000 = 100000 := by norm_num
  show (cfg1.win 3).cut (grid1.coords t) ((dat1 V c).after 3 t) = _
  rw [after1_3]
  refine cutSum_eq t _ (sumG V c) fun u q => ?_
  rw [(acc_eq V c t.val t.isLt u q).1, h19, e100, sumG_apply V c q]
  exact comb_sum V c q

/-- The same for the sums of squares. -/
theorem flushedSumsq_eq (t : Fin cfg1.N) (hf : (cfg1.win 4).flush t = true) :
    (dat1 (F := Ideal) V c).flushed 4 t = ((cfg1.win 4).blk t).view.read (Elt Ideal) (sumsqG V c) := by
  have hN : cfg1.N = 20 := N_1
  have h19 : t.val = 19 := by have := (flush1_4 t).mp hf; have := t.isLt; omega
  have e100 : 5000 * 19 + 5000 = 100000 := by norm_num
  show (cfg1.win 4).cut (grid1.coords t) ((dat1 V c).after 4 t) = _
  rw [after1_4]
  refine cutSumsq_eq t _ (sumsqG V c) fun u q => ?_
  rw [(acc_eq V c t.val t.isLt u q).2, h19, e100, sumsqG_apply V c q]
  exact comb_sumsq V c q

/-- The last point's block is the whole one-row array. -/
theorem coverSum (i : S1x128.Idx) :
    ∃ t : Fin cfg1.N, (cfg1.win 3).flush t = true ∧ i ∈ ((cfg1.win 3).blk t).view.set := by
  have hi0 : (i 0).val < 1 := idx2_lt0 i
  have hi1 : (i 1).val < 128 := idx2_lt1 i
  have hN : cfg1.N = 20 := N_1
  have ht : 19 < cfg1.N := by rw [hN]; omega
  obtain ⟨-, -, -, -, -, -, e0, e1, -⟩ := idx_facts ⟨19, ht⟩
  refine ⟨⟨19, ht⟩, (flush1_3 _).mpr rfl, ?_⟩
  show i ∈ ((View.whole main_v58_1).slice (win1_3.rect ⟨19, ht⟩)).set
  rw [View.set_slice_whole, Rect.mem_set_unit]
  intro a
  match a with
  | ⟨0, _⟩ =>
    show win1_3.index ⟨19, ht⟩ (0 : Fin 2) * 1 ≤ (i 0).val ∧ (i 0).val < win1_3.index ⟨19, ht⟩ (0 : Fin 2) * 1 + 1
    rw [e0]; omega
  | ⟨1, _⟩ =>
    show win1_3.index ⟨19, ht⟩ (1 : Fin 2) * 128 ≤ (i 1).val ∧ (i 1).val < win1_3.index ⟨19, ht⟩ (1 : Fin 2) * 128 + 128
    rw [e1]; omega

/-- The same for the array of the sums of squares. -/
theorem coverSumsq (i : S1x128.Idx) :
    ∃ t : Fin cfg1.N, (cfg1.win 4).flush t = true ∧ i ∈ ((cfg1.win 4).blk t).view.set := by
  have hi0 : (i 0).val < 1 := idx2_lt0 i
  have hi1 : (i 1).val < 128 := idx2_lt1 i
  have hN : cfg1.N = 20 := N_1
  have ht : 19 < cfg1.N := by rw [hN]; omega
  obtain ⟨-, -, -, -, -, -, -, -, e0, e1⟩ := idx_facts ⟨19, ht⟩
  refine ⟨⟨19, ht⟩, (flush1_4 _).mpr rfl, ?_⟩
  show i ∈ ((View.whole main_v58_2).slice (win1_4.rect ⟨19, ht⟩)).set
  rw [View.set_slice_whole, Rect.mem_set_unit]
  intro a
  match a with
  | ⟨0, _⟩ =>
    show win1_4.index ⟨19, ht⟩ (0 : Fin 2) * 1 ≤ (i 0).val ∧ (i 0).val < win1_4.index ⟨19, ht⟩ (0 : Fin 2) * 1 + 1
    rw [e0]; omega
  | ⟨1, _⟩ =>
    show win1_4.index ⟨19, ht⟩ (1 : Fin 2) * 128 ≤ (i 1).val ∧ (i 1).val < win1_4.index ⟨19, ht⟩ (1 : Fin 2) * 128 + 128
    rw [e1]; omega

/-- So the two one-row arrays end holding the column sums and the column sums of squares over all rows. -/
theorem finalSum : (dat1 (F := Ideal) V c).arrAt 3 cfg1.N = sumG V c :=
  (dat1 V c).arrAt_eq_of_cover 3 (sumG V c) (flushedSum_eq V c) (coverSum)

/-- The same for the sums of squares. -/
theorem finalSumsq : (dat1 (F := Ideal) V c).arrAt 4 cfg1.N = sumsqG V c :=
  (dat1 V c).arrAt_eq_of_cover 4 (sumsqG V c) (flushedSumsq_eq V c) (coverSumsq)

end Region

end Stats1

variable (V : (c : Dev nD) → (b : Ref sig .tc) → Buf (Elt Ideal) ((c : Thread nD τ).loc b)) (c : Dev nD)

/-- After the region the output array is, entry by entry, the aggregate plus the bias row. -/
theorem region1_out (n : Fin 100000) (q : Fin 128) :
    rd S100000x128 ((dat1 (F := Ideal) V c).arrAt 2 cfg1.N) (ix2 n q)
      = rd S100000x128 (V c main_v56) (ix2 n q) + rd S1x128 (V c main_v57) (ix2 0 q) := by
  rw [Stats1.finalOut V c]
  rfl

/-- After the region the first one-row array holds, per column, the sum of that over all rows. -/
theorem region1_sum (q : Fin 128) :
    rd S1x128 ((dat1 (F := Ideal) V c).arrAt 3 cfg1.N) (ix2 0 q)
      = ∑ n : Fin 100000, (rd S100000x128 (V c main_v56) (ix2 n q) + rd S1x128 (V c main_v57) (ix2 0 q)) := by
  rw [Stats1.finalSum V c]
  exact Stats1.sumG_apply V c q

/-- After the region the second one-row array holds, per column, the sum of its squares over all rows. -/
theorem region1_sumsq (q : Fin 128) :
    rd S1x128 ((dat1 (F := Ideal) V c).arrAt 4 cfg1.N) (ix2 0 q)
      = ∑ n : Fin 100000, (rd S100000x128 (V c main_v56) (ix2 n q) + rd S1x128 (V c main_v57) (ix2 0 q))
          * (rd S100000x128 (V c main_v56) (ix2 n q) + rd S1x128 (V c main_v57) (ix2 0 q)) := by
  rw [Stats1.finalSumsq V c]
  exact Stats1.sumsqG_apply V c q

end Cert.KernelIdeal.RegionValue

end
-- ==== Proof.RegionStats3.lean ====
import proofs.«118271_j25778393710892_2_alg».proof.Proof.Gen.KernelIdeal.Frame
import Idealize.ShloMosaic.Lib.ValueIdx
import proofs.«118271_j25778393710892_2_alg».proof.Proof.Rd
import Idealize.ShloMosaic.Lib.Pipeline.Value
import Idealize.ShloMosaic.Lib.Tactic
import Idealize.ShloMosaic.Lib.ValueLayout
import Idealize.ShloMosaic.PureOps.Ideal.Laws

/-!
  The region that combines and reduces (the program runs the same body in two regions; this is the second of them). At every
  grid point the body adds the bias row to each of the 5000 rows of the point's block of the aggregate, writes that block
  out, and adds the block's column sums, and the column sums of its squares, onto two one-row accumulators; the first
  point starts the accumulators from zero, and only the last point's accumulators reach their arrays.

  Proved here: what the body leaves in each buffer at a point, as arithmetic of the blocks it read; that arithmetic entry
  by entry over the extended reals; by induction on the point, the accumulators after point n as the sums over the rows
  below 5000 (n + 1); and the three arrays after the region: the output entry by entry, and the two one-row arrays as
  sums over all 100000 rows. Addition on the extended reals is commutative and associative with 0 + x = x, so gathering
  the 20 blocks of 5000 rows into one sum over the rows uses no finiteness.
-/

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen Cert.GCN
open scoped BigOperators

namespace Stats3

/-! ## What the body leaves in each output buffer, in each of its two cases

At the first point the body stores a zero row into each accumulator before anything else; at every point it stores the
block of rows plus bias into the output buffer, then reads each accumulator back and stores it with the block's column sum
(of the entries, of their squares) added. Each buffer is written whole, so what it holds afterwards is the last value
stored, over the blocks the body read. -/

section Cases

variable {F : FTy → Type} [FloatOps F]

/-- The zero offsets of a whole-buffer access. -/
theorem hz : (![0, 0] : Fin 2 → Nat) = fun _ => 0 := funext fun a => by fin_cases a <;> rfl

/-- First point: the output buffer holds the rows plus bias. -/
theorem firstOut_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond3_0 i) (x0 : Vec F S5000x128 .f32) (x1 : Vec F S1x128 .f32) :
    out3_A_2 c i arg1 harg1 arg2 harg2 arg3 harg3 arg4 harg4 arg5 harg5 hc0 x0 x1 = k3_pay3 x1 x0 := by
  unfold out3_A_2
  rw [View.read_writes_eq_canon _ _ _ (cover3_A_2 c i arg1 harg1 arg2 harg2 arg3 harg3 arg4 harg4 arg5 harg5 hc0 x0 x1)]
  unfold kernelRun3_A
  dsimp only
  try sl_unfold_words
  rw [View.canon_unit_zero hz]
  simp only [View.readAt_eq_ld, harg1.read_unread, harg2.read_unread, View.ld_unit_zero (S := S5000x128) hz, View.ld_unit_zero (S := S1x128) hz]

/-- First point: the first accumulator holds the zero row plus the block's column sums. -/
theorem firstSum_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond3_0 i) (x0 : Vec F S5000x128 .f32) (x1 : Vec F S1x128 .f32) :
    out3_A_3 c i arg1 harg1 arg2 harg2 arg3 harg3 arg4 harg4 arg5 harg5 hc0 x0 x1 = k3_pay4 x1 x0 (k3_pay1 (F := F)) := by
  unfold out3_A_3
  rw [View.read_writes_eq_canon _ _ _ (cover3_A_3 c i arg1 harg1 arg2 harg2 arg3 harg3 arg4 harg4 arg5 harg5 hc0 x0 x1)]
  unfold kernelRun3_A
  dsimp only
  sl_unfold_words
  rw [View.canon_cons_unit_zero (S := S1x128) hz, View.readCov_unit_zero (S := S1x128) _ hz]
  simp only [View.readAt_eq_ld, harg1.read_unread, harg2.read_unread, View.ld_unit_zero (S := S5000x128) hz, View.ld_unit_zero (S := S1x128) hz]

/-- First point: the second accumulator holds the zero row plus the column sums of the squares. -/
theorem firstSumsq_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond3_0 i) (x0 : Vec F S5000x128 .f32) (x1 : Vec F S1x128 .f32) :
    out3_A_4 c i arg1 harg1 arg2 harg2 arg3 harg3 arg4 harg4 arg5 harg5 hc0 x0 x1 = k3_pay5 x1 x0 (k3_pay2 (F := F)) := by
  unfold out3_A_4
  rw [View.read_writes_eq_canon _ _ _ (cover3_A_4 c i arg1 harg1 arg2 harg2 arg3 harg3 arg4 harg4 arg5 harg5 hc0 x0 x1)]
  unfold kernelRun3_A
  dsimp only
  sl_unfold_words
  rw [View.canon_cons_unit_zero (S := S1x128) hz, View.readCov_unit_zero (S := S1x128) _ hz]
  simp only [View.readAt_eq_ld, harg1.read_unread, harg2.read_unread, View.ld_unit_zero (S := S5000x128) hz, View.ld_unit_zero (S := S1x128) hz]

/-- Later points: the output buffer holds the rows plus bias. -/
theorem laterOut_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond3_0 i) (x0 : Vec F S5000x128 .f32) (x1 xo3 xo4 : Vec F S1x128 .f32) :
    out3_B_2 c i arg1 harg1 arg2 harg2 arg3 harg3 arg4 harg4 arg5 harg5 hc0 x0 x1 xo3 xo4 = k3_pay3 x1 x0 := by
  unfold out3_B_2
  rw [View.read_writes_eq_canon _ _ _ (cover3_B_2 c i arg1 harg1 arg2 harg2 arg3 harg3 arg4 harg4 arg5 harg5 hc0 x0 x1 xo3 xo4)]
  unfold kernelRun3_B
  dsimp only
  try sl_unfold_words
  rw [View.canon_unit_zero hz]
  simp only [View.readAt_eq_ld, harg1.read_unread, harg2.read_unread, View.ld_unit_zero (S := S5000x128) hz, View.ld_unit_zero (S := S1x128) hz]

/-- Later points: the first accumulator holds what it held plus the block's column sums. -/
theorem laterSum_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond3_0 i) (x0 : Vec F S5000x128 .f32) (x1 xo3 xo4 : Vec F S1x128 .f32) :
    out3_B_3 c i arg1 harg1 arg2 harg2 arg3 harg3 arg4 harg4 arg5 harg5 hc0 x0 x1 xo3 xo4 = k3_pay4 x1 x0 xo3 := by
  unfold out3_B_3
  rw [View.read_writes_eq_canon _ _ _ (cover3_B_3 c i arg1 harg1 arg2 harg2 arg3 harg3 arg4 harg4 arg5 harg5 hc0 x0 x1 xo3 xo4)]
  unfold kernelRun3_B
  dsimp only
  try sl_unfold_words
  rw [View.canon_unit_zero hz]
  simp only [View.readAt_eq_ld, harg1.read_unread, harg2.read_unread, harg4.read_unread, View.ld_unit_zero (S := S5000x128) hz, View.ld_unit_zero (S := S1x128) hz]

/-- Later points: the second accumulator holds what it held plus the column sums of the squares. -/
theorem laterSumsq_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond3_0 i) (x0 : Vec F S5000x128 .f32) (x1 xo3 xo4 : Vec F S1x128 .f32) :
    out3_B_4 c i arg1 harg1 arg2 harg2 arg3 harg3 arg4 harg4 arg5 harg5 hc0 x0 x1 xo3 xo4 = k3_pay5 x1 x0 xo4 := by
  unfold out3_B_4
  rw [View.read_writes_eq_canon _ _ _ (cover3_B_4 c i arg1 harg1 arg2 harg2 arg3 harg3 arg4 harg4 arg5 harg5 hc0 x0 x1 xo3 xo4)]
  unfold kernelRun3_B
  dsimp only
  try sl_unfold_words
  rw [View.canon_unit_zero hz]
  simp only [View.readAt_eq_ld, harg1.read_unread, harg2.read_unread, harg5.read_unread, View.ld_unit_zero (S := S5000x128) hz, View.ld_unit_zero (S := S1x128) hz]

end Cases

/-! ## The body's arithmetic, entry by entry, over the extended reals -/

/-- The output block: the aggregated row plus the bias row, entry by entry. -/
theorem rowPlusBias_apply (v3 : Vec Ideal S1x128 .f32) (v7 : Vec Ideal S5000x128 .f32) (r : Fin 5000) (q : Fin 128) :
    k3_pay3 (F := Ideal) v3 v7 (ix2 r q) = rd S5000x128 v7 (ix2 r q) + rd S1x128 v3 (ix2 0 q) := by
  unfold k3_pay3
  simp only [shapeCast_self]
  refine (addf_apply _ _ _).trans ?_
  exact congrArg (rd S5000x128 v7 (ix2 r q) + ·) (broadcastTo_1b_ab_apply v3 broadcasts_S1x128_S5000x128 r q)

/-- The index the column sum visits: row k of column q. -/
theorem lift_eq (q : Fin 128) (k : Fin 5000) :
    reduces_S5000x128_S128.lift (ix1 q) k = ix2 k q := by
  funext a
  match a with
  | ⟨0, _⟩ => rfl
  | ⟨1, _⟩ => rfl

/-- A column sum of a block, from the zero word. -/
theorem colsum_apply (X : FVec Ideal S5000x128 .f32) (hacc : (0x00000000#32 : BitVec 32) = 0x00000000#32) (u : Fin 1) (q : Fin 128) :
    shapeCast S1x128 (multiReduction (F := Ideal) .add [0] S128 X 0x00000000#32 reduces_S5000x128_S128 (.inl rfl) hacc) shapeCasts_S128_S1x128 (ix2 u q)
      = ∑ k : Fin 5000, X (ix2 k q) := by
  refine (shapeCast_a_1a_apply _ shapeCasts_S128_S1x128 u q).trans ?_
  refine (Ideal.multiReduction_add_single X 0x00000000#32 reduces_S5000x128_S128 (.inl rfl) hacc (ix1 q)).trans ?_
  exact Finset.sum_congr rfl fun k _ => congrArg X (lift_eq q k)

/-- The running column sum: what was carried plus the block's column sum. -/
theorem runningSum_apply (v3 : Vec Ideal S1x128 .f32) (v7 : Vec Ideal S5000x128 .f32) (v11 : Vec Ideal S1x128 .f32) (u : Fin 1) (q : Fin 128) :
    k3_pay4 (F := Ideal) v3 v7 v11 (ix2 u q)
      = rd S1x128 v11 (ix2 u q) + ∑ k : Fin 5000, (rd S5000x128 v7 (ix2 k q) + rd S1x128 v3 (ix2 0 q)) := by
  unfold k3_pay4
  simp only [shapeCast_self]
  refine (addf_apply _ _ _).trans ?_
  refine congrArg (rd S1x128 v11 (ix2 u q) + ·) ?_
  refine (colsum_apply _ rfl u q).trans ?_
  exact Finset.sum_congr rfl fun k _ => rowPlusBias_apply v3 v7 k q

/-- The running column sum of squares. -/
theorem runningSumsq_apply (v3 : Vec Ideal S1x128 .f32) (v7 : Vec Ideal S5000x128 .f32) (v17 : Vec Ideal S1x128 .f32) (u : Fin 1) (q : Fin 128) :
    k3_pay5 (F := Ideal) v3 v7 v17 (ix2 u q)
      = rd S1x128 v17 (ix2 u q) + ∑ k : Fin 5000, (rd S5000x128 v7 (ix2 k q) + rd S1x128 v3 (ix2 0 q))
          * (rd S5000x128 v7 (ix2 k q) + rd S1x128 v3 (ix2 0 q)) := by
  unfold k3_pay5
  simp only [shapeCast_self]
  refine (addf_apply _ _ _).trans ?_
  refine congrArg (rd S1x128 v17 (ix2 u q) + ·) ?_
  refine (colsum_apply _ rfl u q).trans ?_
  refine Finset.sum_congr rfl fun k _ => ?_
  refine (mulf_apply _ _ _).trans ?_
  rw [rowPlusBias_apply v3 v7 k q]

/-- The zero rows the first point stores. -/
theorem zeroRowSum_apply (u : Fin 1) (q : Fin 128) : k3_pay1 (F := Ideal) (ix2 u q) = 0 := by
  unfold k3_pay1
  exact Ideal.ofBits_zero_f32
/-- The same for the accumulator of squares. -/
theorem zeroRowSumsq_apply (u : Fin 1) (q : Fin 128) : k3_pay2 (F := Ideal) (ix2 u q) = 0 := by
  unfold k3_pay2
  exact Ideal.ofBits_zero_f32

/-! ## The windows' blocks as rows of the arrays -/

section Region

variable (V : (c : Dev nD) → (b : Ref sig .tc) → Buf (Elt Ideal) ((c : Thread nD τ).loc b)) (c : Dev nD)

/-- The printed index maps over the grid: the row-tiled windows sit at block (t, 0), the one-row windows at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row r of the aggregate's block at point t is row 5000 t + r of the array. -/
theorem aggBlock_apply (t : Fin cfg3.N) (r : Fin 5000) (q : Fin 128) (n : Fin 100000) (hn : n.val = 5000 * t.val + r.val) :
    rd S5000x128 (iblk3 (F := Ideal) V c 0 t) (ix2 r q) = rd S100000x128 (V c main_v92) (ix2 n q) := by
  obtain ⟨e0, e1, -⟩ := idx_facts t
  unfold iblk3
  dsimp only [rd]
  rw [View.read_apply]
  show V c main_v92 _ = V c main_v92 _
  refine congrArg (V c main_v92) ?_
  funext a
  apply Fin.ext
  match a with
  | ⟨0, _⟩ => show win3_0.index t (0 : Fin 2) * 5000 + 1 * r.val = n.val; rw [e0, hn]; omega
  | ⟨1, _⟩ => show win3_0.index t (1 : Fin 2) * 128 + 1 * q.val = q.val; rw [e1]; omega

/-- The bias row's block is the bias row at every point. -/
theorem biasBlock_apply (t : Fin cfg3.N) (u : Fin 1) (q : Fin 128) :
    rd S1x128 (iblk3 (F := Ideal) V c 1 t) (ix2 u q) = rd S1x128 (V c main_v93) (ix2 0 q) := by
  obtain ⟨-, -, e0, e1, -⟩ := idx_facts t
  unfold iblk3
  dsimp only [rd]
  rw [View.read_apply]
  show V c main_v93 _ = V c main_v93 _
  refine congrArg (V c main_v93) ?_
  funext a
  apply Fin.ext
  match a with
  | ⟨0, _⟩ => show win3_1.index t (0 : Fin 2) * 1 + 1 * u.val = 0; rw [e0]; omega
  | ⟨1, _⟩ => show win3_1.index t (1 : Fin 2) * 128 + 1 * q.val = q.val; rw [e1]; omega

/-! ## What the output buffers hold after each point, as the body's arithmetic of the blocks -/

/-- At the first point: the output block, and the two accumulators started from the zero rows. -/
theorem after_first (t : Fin cfg3.N) (h0 : t.val % 20 = 0) :
    outsAt3 (F := Ideal) V c t.val t.isLt
      = (k3_pay3 (iblk3 V c 1 t) (iblk3 V c 0 t), k3_pay4 (iblk3 V c 1 t) (iblk3 V c 0 t) (k3_pay1 (F := Ideal)),
          k3_pay5 (iblk3 V c 1 t) (iblk3 V c 0 t) (k3_pay2 (F := Ideal))) := by
  rw [outsAt3_A V c t h0]
  exact congr (congrArg Prod.mk (firstOut_eq (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t)))
    (congr (congrArg Prod.mk (firstSum_eq (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t)))
      (firstSumsq_eq (F := Ideal) c (grid3.coords t) (ms3_0 t) (hs3_0 t) (ms3_1 t) (hs3_1 t) (ms3_2 t) (hs3_2 t) (ms3_3 t) (hs3_3 t) (ms3_4 t) (hs3_4 t) ((hcond3_0 t).mpr h0) (iblk3 V c 0 t) (iblk3 V c 1 t)))

/-- At a later point: the output block, and the accumulators carried from the point before. -/
theorem after_later (t : Fin cfg3.N) (h0 : ¬t.val % 20 = 0) :
    outsAt3 (F := Ideal) V c t.val t.isLt
      = (k3_pay3 (iblk3 V c 1 t) (iblk3 V c 0 t),
          k3_pay4 (iblk3 V c 1 t) (iblk3 V c 0 t) (outsAt3 V c (t.val - 1) (Nat.lt_of_le_of_lt (Nat.sub_le _ _) t.isLt)).2.1,
          k3_pay5 (iblk3 V c 1 t) (iblk3 V c 0 t) (outsAt3 V c (t.val - 1) (Nat.lt_of_le_of_lt (Nat.sub_le _ _) t.isLt)).2.2) := by
  rw [outsAt3_B V c t h0]
  exact congr (congrArg Prod.mk (laterOut_eq (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) _ _))
    (congr (congrArg Prod.mk (laterSum_eq (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) _ _))
      (laterSumsq_eq (F := Ideal) c (grid3.coords t) (ms3_0 t) (hs3_0 t) (ms3_1 t) (hs3_1 t) (ms3_2 t) (hs3_2 t) (ms3_3 t) (hs3_3 t) (ms3_4 t) (hs3_4 t) (fun h => h0 ((hcond3_0 t).mp h)) (iblk3 V c 0 t) (iblk3 V c 1 t) _ _))

/-- The output block at every point. -/
theorem after_out (t : Fin cfg3.N) : (outsAt3 (F := Ideal) V c t.val t.isLt).1 = k3_pay3 (iblk3 V c 1 t) (iblk3 V c 0 t) := by
  by_cases h0 : t.val % 20 = 0
  · rw [after_first V c t h0]
  · rw [after_later V c t h0]

/-! ## The accumulators after each point: sums over the rows met so far -/

/-- The combined entry of row number k in column q, aggregate plus bias (zero past the last row). -/
def comb (q : Fin 128) (k : ℕ) : EReal :=
  if h : k < 100000 then rd S100000x128 (V c main_v92) (ix2 ⟨k, h⟩ q) + rd S1x128 (V c main_v93) (ix2 0 q) else 0

/-- The column sum over one block is the sum of the combined entries of its 5000 rows. -/
theorem block_sum (t : Fin cfg3.N) (s : ℕ) (hs : t.val = s) (q : Fin 128) :
    ∑ r : Fin 5000, (rd S5000x128 (iblk3 (F := Ideal) V c 0 t) (ix2 r q) + rd S1x128 (iblk3 (F := Ideal) V c 1 t) (ix2 0 q))
      = ∑ k ∈ Finset.range 5000, comb V c q (5000 * s + k) := by
  subst hs
  have hN : t.val < 20 := lt_of_lt_of_eq t.isLt (show cfg3.N = 20 from N_3)
  rw [Finset.sum_range]
  refine Finset.sum_congr rfl fun r _ => ?_
  have hr : 5000 * t.val + r.val < 100000 := by have := r.isLt; omega
  unfold comb
  rw [dif_pos hr, aggBlock_apply V c t r q ⟨5000 * t.val + r.val, hr⟩ rfl, biasBlock_apply V c t 0 q]

/-- The same for the squares. -/
theorem block_sumsq (t : Fin cfg3.N) (s : ℕ) (hs : t.val = s) (q : Fin 128) :
    ∑ r : Fin 5000, (rd S5000x128 (iblk3 (F := Ideal) V c 0 t) (ix2 r q) + rd S1x128 (iblk3 (F := Ideal) V c 1 t) (ix2 0 q))
        * (rd S5000x128 (iblk3 (F := Ideal) V c 0 t) (ix2 r q) + rd S1x128 (iblk3 (F := Ideal) V c 1 t) (ix2 0 q))
      = ∑ k ∈ Finset.range 5000, comb V c q (5000 * s + k) * comb V c q (5000 * s + k) := by
  subst hs
  have hN : t.val < 20 := lt_of_lt_of_eq t.isLt (show cfg3.N = 20 from N_3)
  rw [Finset.sum_range]
  refine Finset.sum_congr rfl fun r _ => ?_
  have hr : 5000 * t.val + r.val < 100000 := by have := r.isLt; omega
  unfold comb
  rw [dif_pos hr, aggBlock_apply V c t r q ⟨5000 * t.val + r.val, hr⟩ rfl, biasBlock_apply V c t 0 q]

/-- After point n the two accumulators hold the sums, and the sums of squares, of the combined entries of the rows below
    5000 (n + 1): by induction on the point, the first point starting from zero, every later one adding its block's
    column sums onto what the point before left. -/
theorem acc_eq : ∀ (n : ℕ) (h : n < cfg3.N) (u : Fin 1) (q : Fin 128),
    rd S1x128 (outsAt3 (F := Ideal) V c n h).2.1 (ix2 u q) = ∑ k ∈ Finset.range (5000 * n + 5000), comb V c q k
    ∧ rd S1x128 (outsAt3 (F := Ideal) V c n h).2.2 (ix2 u q) = ∑ k ∈ Finset.range (5000 * n + 5000), comb V c q k * comb V c q k
  | 0, h, u, q => by
    have e := after_first V c ⟨0, h⟩ rfl
    rw [show outsAt3 (F := Ideal) V c 0 h = _ from e]
    constructor
    · refine (runningSum_apply (iblk3 V c 1 ⟨0, h⟩) (iblk3 V c 0 ⟨0, h⟩) (k3_pay1 (F := Ideal)) u q).trans ?_
      rw [show rd S1x128 (k3_pay1 (F := Ideal)) (ix2 u q) = 0 from zeroRowSum_apply u q, zero_add,
        block_sum V c ⟨0, h⟩ 0 rfl q]
      simp only [Nat.mul_zero, Nat.zero_add]
    · refine (runningSumsq_apply (iblk3 V c 1 ⟨0, h⟩) (iblk3 V c 0 ⟨0, h⟩) (k3_pay2 (F := Ideal)) u q).trans ?_
      rw [show rd S1x128 (k3_pay2 (F := Ideal)) (ix2 u q) = 0 from zeroRowSumsq_apply u q, zero_add,
        block_sumsq V c ⟨0, h⟩ 0 rfl q]
      simp only [Nat.mul_zero, Nat.zero_add]
  | n + 1, h, u, q => by
    have hN : cfg3.N = 20 := N_3
    have hB : ¬(⟨n + 1, h⟩ : Fin cfg3.N).val % 20 = 0 := by dsimp only; omega
    have e := after_later V c ⟨n + 1, h⟩ hB
    obtain ⟨ih1, ih2⟩ := acc_eq n (Nat.lt_of_succ_lt h) u q
    have em : 5000 * (n + 1) = 5000 * n + 5000 := by omega
    rw [show outsAt3 (F := Ideal) V c (n + 1) h = _ from e]
    constructor
    · refine (runningSum_apply (iblk3 V c 1 ⟨n + 1, h⟩) (iblk3 V c 0 ⟨n + 1, h⟩) (outsAt3 V c n (Nat.lt_of_succ_lt h)).2.1 u q).trans ?_
      rw [ih1, block_sum V c ⟨n + 1, h⟩ (n + 1) rfl q, Finset.sum_range_add _ (5000 * (n + 1)) 5000, em]
    · refine (runningSumsq_apply (iblk3 V c 1 ⟨n + 1, h⟩) (iblk3 V c 0 ⟨n + 1, h⟩) (outsAt3 V c n (Nat.lt_of_succ_lt h)).2.2 u q).trans ?_
      rw [ih2, block_sumsq V c ⟨n + 1, h⟩ (n + 1) rfl q, Finset.sum_range_add _ (5000 * (n + 1)) 5000, em]

/-- Over all 100000 rows the combined entries' sum is the sum over the row index. -/
theorem comb_sum (q : Fin 128) : ∑ k ∈ Finset.range 100000, comb V c q k
    = ∑ n : Fin 100000, (rd S100000x128 (V c main_v92) (ix2 n q) + rd S1x128 (V c main_v93) (ix2 0 q)) := by
  rw [Finset.sum_range]
  refine Finset.sum_congr rfl fun n _ => ?_
  unfold comb
  rw [dif_pos n.isLt]

/-- The same for the squares. -/
theorem comb_sumsq (q : Fin 128) : ∑ k ∈ Finset.range 100000, comb V c q k * comb V c q k
    = ∑ n : Fin 100000, (rd S100000x128 (V c main_v92) (ix2 n q) + rd S1x128 (V c main_v93) (ix2 0 q))
        * (rd S100000x128 (V c main_v92) (ix2 n q) + rd S1x128 (V c main_v93) (ix2 0 q)) := by
  rw [Finset.sum_range]
  refine Finset.sum_congr rfl fun n _ => ?_
  unfold comb
  rw [dif_pos n.isLt]

/-! ## The arrays after the region -/

/-- The output array as one function of the two operands: row n is the aggregate's row n plus the bias row. -/
def outG : S100000x128.Idx → EReal :=
  fun i => rd S100000x128 (V c main_v92) i + rd S1x128 (V c main_v93) (ix2 0 ⟨(i 1).val, idx2_lt1 i⟩)

/-- The column sums of the output array, as a one-row array. -/
def sumG : S1x128.Idx → EReal :=
  fun i => ∑ n : Fin 100000, (rd S100000x128 (V c main_v92) (ix2 n ⟨(i 1).val, idx2_lt1 i⟩)
    + rd S1x128 (V c main_v93) (ix2 0 ⟨(i 1).val, idx2_lt1 i⟩))

/-- The column sums of the squares of the output array, as a one-row array. -/
def sumsqG : S1x128.Idx → EReal :=
  fun i => ∑ n : Fin 100000, (rd S100000x128 (V c main_v92) (ix2 n ⟨(i 1).val, idx2_lt1 i⟩)
      + rd S1x128 (V c main_v93) (ix2 0 ⟨(i 1).val, idx2_lt1 i⟩))
    * (rd S100000x128 (V c main_v92) (ix2 n ⟨(i 1).val, idx2_lt1 i⟩)
      + rd S1x128 (V c main_v93) (ix2 0 ⟨(i 1).val, idx2_lt1 i⟩))

/-- Two blocks that agree entry by entry are equal. -/
theorem block_ext (X Y : S5000x128.Idx → EReal) (h : ∀ (r : Fin 5000) (q : Fin 128), X (ix2 r q) = Y (ix2 r q)) : X = Y :=
  funext fun j => by rw [eq_ix2 j]; exact h _ _

/-- Two one-row blocks that agree entry by entry are equal. -/
theorem row_ext (X Y : S1x128.Idx → EReal) (h : ∀ (u : Fin 1) (q : Fin 128), X (ix2 u q) = Y (ix2 u q)) : X = Y :=
  funext fun j => by rw [eq_ix2 j]; exact h _ _

/-- What point t writes back to the output array is block t of the one function. -/
theorem flushedOut_eq (t : Fin cfg3.N) :
    (dat3 (F := Ideal) V c).flushed 2 t = ((cfg3.win 2).blk t).view.read (Elt Ideal) (outG V c) := by
  have hN : t.val < 20 := lt_of_lt_of_eq t.isLt (show cfg3.N = 20 from N_3)
  obtain ⟨-, -, -, -, e0, e1, -⟩ := idx_facts t
  show (cfg3.win 2).cut (grid3.coords t) ((dat3 V c).after 2 t) = _
  rw [after3_2, after_out]
  refine block_ext _ _ fun r q => ?_
  have hr : 5000 * t.val + r.val < 100000 := by have := r.isLt; omega
  show k3_pay3 (F := Ideal) (iblk3 V c 1 t) (iblk3 V c 0 t) (ix2 r q) = outG V c (((cfg3.win 2).blk t).view.emb (ix2 r q))
  refine (rowPlusBias_apply (iblk3 V c 1 t) (iblk3 V c 0 t) r q).trans ?_
  rw [aggBlock_apply V c t r q ⟨5000 * t.val + r.val, hr⟩ rfl, biasBlock_apply V c t 0 q]
  have hemb : ((cfg3.win 2).blk t).view.emb (ix2 r q) = ix2 (⟨5000 * t.val + r.val, hr⟩ : Fin 100000) q := by
    funext a; apply Fin.ext
    match a with
    | ⟨0, _⟩ => show win3_2.index t (0 : Fin 2) * 5000 + 1 * r.val = 5000 * t.val + r.val; rw [e0]; omega
    | ⟨1, _⟩ => show win3_2.index t (1 : Fin 2) * 128 + 1 * q.val = q.val; rw [e1]; omega
  rw [hemb]
  rfl

/-- Every row lies in the block of the point numbered by the row's quotient by 5000. -/
theorem coverOut (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : cfg3.N = 20 := N_3
  have ht : (i 0).val / 5000 < cfg3.N := by rw [hN]; omega
  obtain ⟨-, -, -, -, e0, e1, -⟩ := idx_facts ⟨(i 0).val / 5000, ht⟩
  refine ⟨⟨(i 0).val / 5000, ht⟩, flush3_2 _, ?_⟩
  show i ∈ ((View.whole main_v94_0).slice (win3_2.rect ⟨(i 0).val / 5000, ht⟩)).set
  rw [View.set_slice_whole, Rect.mem_set_unit]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e1]; omega

/-- So the output array ends holding the one function. -/
theorem finalOut : (dat3 (F := Ideal) V c).arrAt 2 cfg3.N = outG V c :=
  (dat3 V c).arrAt_eq_of_cover 2 (outG V c) (fun t _ => flushedOut_eq V c t) (coverOut)

/-- Where an entry of the one-row block sits in its array: at itself, whatever the point. -/
theorem embSum (t : Fin cfg3.N) (u : Fin 1) (q : Fin 128) : ((cfg3.win 3).blk t).view.emb (ix2 u q) = ix2 (0 : Fin 1) q := by
  obtain ⟨-, -, -, -, -, -, e0, e1, -⟩ := idx_facts t
  funext a; apply Fin.ext
  match a with
  | ⟨0, _⟩ => show win3_3.index t (0 : Fin 2) * 1 + 1 * u.val = 0; rw [e0]; omega
  | ⟨1, _⟩ => show win3_3.index t (1 : Fin 2) * 128 + 1 * q.val = q.val; rw [e1]; omega

/-- The same for the array of the sums of squares. -/
theorem embSumsq (t : Fin cfg3.N) (u : Fin 1) (q : Fin 128) : ((cfg3.win 4).blk t).view.emb (ix2 u q) = ix2 (0 : Fin 1) q := by
  obtain ⟨-, -, -, -, -, -, -, -, e0, e1⟩ := idx_facts t
  funext a; apply Fin.ext
  match a with
  | ⟨0, _⟩ => show win3_4.index t (0 : Fin 2) * 1 + 1 * u.val = 0; rw [e0]; omega
  | ⟨1, _⟩ => show win3_4.index t (1 : Fin 2) * 128 + 1 * q.val = q.val; rw [e1]; omega

/-- The sums' arrays at column q. -/
theorem sumG_apply (q : Fin 128) : sumG V c (ix2 0 q)
    = ∑ n : Fin 100000, (rd S100000x128 (V c main_v92) (ix2 n q) + rd S1x128 (V c main_v93) (ix2 0 q)) := rfl
/-- The same for the sums of squares. -/
theorem sumsqG_apply (q : Fin 128) : sumsqG V c (ix2 0 q)
    = ∑ n : Fin 100000, (rd S100000x128 (V c main_v92) (ix2 n q) + rd S1x128 (V c main_v93) (ix2 0 q))
        * (rd S100000x128 (V c main_v92) (ix2 n q) + rd S1x128 (V c main_v93) (ix2 0 q)) := rfl

/-- A one-row buffer that holds, in every column, a one-row array's entry is what the one-row window's block reads of that array. -/
theorem cutSum_eq (t : Fin cfg3.N) (X G : S1x128.Idx → EReal) (hX : ∀ (u : Fin 1) (q : Fin 128), rd S1x128 X (ix2 u q) = G (ix2 0 q)) :
    (cfg3.win 3).cut (grid3.coords t) X = ((cfg3.win 3).blk t).view.read (Elt Ideal) G := by
  refine row_ext _ _ fun u q => ?_
  show X (ix2 u q) = G (((cfg3.win 3).blk t).view.emb (ix2 u q))
  rw [embSum t u q]
  exact hX u q

/-- The same for the array of the sums of squares. -/
theorem cutSumsq_eq (t : Fin cfg3.N) (X G : S1x128.Idx → EReal) (hX : ∀ (u : Fin 1) (q : Fin 128), rd S1x128 X (ix2 u q) = G (ix2 0 q)) :
    (cfg3.win 4).cut (grid3.coords t) X = ((cfg3.win 4).blk t).view.read (Elt Ideal) G := by
  refine row_ext _ _ fun u q => ?_
  show X (ix2 u q) = G (((cfg3.win 4).blk t).view.emb (ix2 u q))
  rw [embSumsq t u q]
  exact hX u q

/-- The one write-back of the sums, after the last point, writes the sums over all rows. -/
theorem flushedSum_eq (t : Fin cfg3.N) (hf : (cfg3.win 3).flush t = true) :
    (dat3 (F := Ideal) V c).flushed 3 t = ((cfg3.win 3).blk t).view.read (Elt Ideal) (sumG V c) := by
  have hN : cfg3.N = 20 := N_3
  have h19 : t.val = 19 := by have := (flush3_3 t).mp hf; have := t.isLt; omega
  have e100 : 5000 * 19 + 5000 = 100000 := by norm_num
  show (cfg3.win 3).cut (grid3.coords t) ((dat3 V c).after 3 t) = _
  rw [after3_3]
  refine cutSum_eq t _ (sumG V c) fun u q => ?_
  rw [(acc_eq V c t.val t.isLt u q).1, h19, e100, sumG_apply V c q]
  exact comb_sum V c q

/-- The same for the sums of squares. -/
theorem flushedSumsq_eq (t : Fin cfg3.N) (hf : (cfg3.win 4).flush t = true) :
    (dat3 (F := Ideal) V c).flushed 4 t = ((cfg3.win 4).blk t).view.read (Elt Ideal) (sumsqG V c) := by
  have hN : cfg3.N = 20 := N_3
  have h19 : t.val = 19 := by have := (flush3_4 t).mp hf; have := t.isLt; omega
  have e100 : 5000 * 19 + 5000 = 100000 := by norm_num
  show (cfg3.win 4).cut (grid3.coords t) ((dat3 V c).after 4 t) = _
  rw [after3_4]
  refine cutSumsq_eq t _ (sumsqG V c) fun u q => ?_
  rw [(acc_eq V c t.val t.isLt u q).2, h19, e100, sumsqG_apply V c q]
  exact comb_sumsq V c q

/-- The last point's block is the whole one-row array. -/
theorem coverSum (i : S1x128.Idx) :
    ∃ t : Fin cfg3.N, (cfg3.win 3).flush t = true ∧ i ∈ ((cfg3.win 3).blk t).view.set := by
  have hi0 : (i 0).val < 1 := idx2_lt0 i
  have hi1 : (i 1).val < 128 := idx2_lt1 i
  have hN : cfg3.N = 20 := N_3
  have ht : 19 < cfg3.N := by rw [hN]; omega
  obtain ⟨-, -, -, -, -, -, e0, e1, -⟩ := idx_facts ⟨19, ht⟩
  refine ⟨⟨19, ht⟩, (flush3_3 _).mpr rfl, ?_⟩
  show i ∈ ((View.whole main_v94_1).slice (win3_3.rect ⟨19, ht⟩)).set
  rw [View.set_slice_whole, Rect.mem_set_unit]
  intro a
  match a with
  | ⟨0, _⟩ =>
    show win3_3.index ⟨19, ht⟩ (0 : Fin 2) * 1 ≤ (i 0).val ∧ (i 0).val < win3_3.index ⟨19, ht⟩ (0 : Fin 2) * 1 + 1
    rw [e0]; omega
  | ⟨1, _⟩ =>
    show win3_3.index ⟨19, ht⟩ (1 : Fin 2) * 128 ≤ (i 1).val ∧ (i 1).val < win3_3.index ⟨19, ht⟩ (1 : Fin 2) * 128 + 128
    rw [e1]; omega

/-- The same for the array of the sums of squares. -/
theorem coverSumsq (i : S1x128.Idx) :
    ∃ t : Fin cfg3.N, (cfg3.win 4).flush t = true ∧ i ∈ ((cfg3.win 4).blk t).view.set := by
  have hi0 : (i 0).val < 1 := idx2_lt0 i
  have hi1 : (i 1).val < 128 := idx2_lt1 i
  have hN : cfg3.N = 20 := N_3
  have ht : 19 < cfg3.N := by rw [hN]; omega
  obtain ⟨-, -, -, -, -, -, -, -, e0, e1⟩ := idx_facts ⟨19, ht⟩
  refine ⟨⟨19, ht⟩, (flush3_4 _).mpr rfl, ?_⟩
  show i ∈ ((View.whole main_v94_2).slice (win3_4.rect ⟨19, ht⟩)).set
  rw [View.set_slice_whole, Rect.mem_set_unit]
  intro a
  match a with
  | ⟨0, _⟩ =>
    show win3_4.index ⟨19, ht⟩ (0 : Fin 2) * 1 ≤ (i 0).val ∧ (i 0).val < win3_4.index ⟨19, ht⟩ (0 : Fin 2) * 1 + 1
    rw [e0]; omega
  | ⟨1, _⟩ =>
    show win3_4.index ⟨19, ht⟩ (1 : Fin 2) * 128 ≤ (i 1).val ∧ (i 1).val < win3_4.index ⟨19, ht⟩ (1 : Fin 2) * 128 + 128
    rw [e1]; omega

/-- So the two one-row arrays end holding the column sums and the column sums of squares over all rows. -/
theorem finalSum : (dat3 (F := Ideal) V c).arrAt 3 cfg3.N = sumG V c :=
  (dat3 V c).arrAt_eq_of_cover 3 (sumG V c) (flushedSum_eq V c) (coverSum)

/-- The same for the sums of squares. -/
theorem finalSumsq : (dat3 (F := Ideal) V c).arrAt 4 cfg3.N = sumsqG V c :=
  (dat3 V c).arrAt_eq_of_cover 4 (sumsqG V c) (flushedSumsq_eq V c) (coverSumsq)

end Region

end Stats3

variable (V : (c : Dev nD) → (b : Ref sig .tc) → Buf (Elt Ideal) ((c : Thread nD τ).loc b)) (c : Dev nD)

/-- After the region the output array is, entry by entry, the aggregate plus the bias row. -/
theorem region3_out (n : Fin 100000) (q : Fin 128) :
    rd S100000x128 ((dat3 (F := Ideal) V c).arrAt 2 cfg3.N) (ix2 n q)
      = rd S100000x128 (V c main_v92) (ix2 n q) + rd S1x128 (V c main_v93) (ix2 0 q) := by
  rw [Stats3.finalOut V c]
  rfl

/-- After the region the first one-row array holds, per column, the sum of that over all rows. -/
theorem region3_sum (q : Fin 128) :
    rd S1x128 ((dat3 (F := Ideal) V c).arrAt 3 cfg3.N) (ix2 0 q)
      = ∑ n : Fin 100000, (rd S100000x128 (V c main_v92) (ix2 n q) + rd S1x128 (V c main_v93) (ix2 0 q)) := by
  rw [Stats3.finalSum V c]
  exact Stats3.sumG_apply V c q

/-- After the region the second one-row array holds, per column, the sum of its squares over all rows. -/
theorem region3_sumsq (q : Fin 128) :
    rd S1x128 ((dat3 (F := Ideal) V c).arrAt 4 cfg3.N) (ix2 0 q)
      = ∑ n : Fin 100000, (rd S100000x128 (V c main_v92) (ix2 n q) + rd S1x128 (V c main_v93) (ix2 0 q))
          * (rd S100000x128 (V c main_v92) (ix2 n q) + rd S1x128 (V c main_v93) (ix2 0 q)) := by
  rw [Stats3.finalSumsq V c]
  exact Stats3.sumsqG_apply V c q

end Cert.KernelIdeal.RegionValue

end
-- ==== Proof.LibRealEntries.lean ====
/-
  General facts about extended-real arrays whose entries are all real numbers. Nothing here mentions a program.

  * `AllReal v`: every entry of `v` is a real number (neither infinity). It is kept by finite sums and products, by a
    selection between two arrays, by the reciprocal square root of an entry raised to at least one, and — whatever the
    indices are — by a gather (an entry of the result is an entry of the operand) and by an accumulating scatter (an
    entry of the result is the operand's entry plus a finite sum of update entries).
  * The coercion of a finite real sum into the extended reals is the sum of the coercions.
  * The two forms of a variance agree on real columns: for n = the number of rows, n ≠ 0, and μ = (Σ h)/n,
        (Σ (h − μ)²)/n = (Σ h²)/n − μ² ,
    each quotient the host's division by the real n. With an infinite entry the two sides need not agree, which is
    why a certificate that meets both forms has to show its column real first.
-/
import Idealize.ShloMosaic.PureOps.Ideal
import Idealize.ShloMosaic.PureOps.Ideal.Laws

noncomputable section

namespace Cert.LibRealEntries

open Idealize.ShloMosaic

/-- `1.0` denotes the real 1. -/
theorem ofBits_one : Ideal.ofBits .f32 0x3F800000#32 = ((1 : ℝ) : EReal) := by
  simp [Ideal.ofBits, Ideal.ieee, -EReal.coe_mul]; norm_num

/-! ## Every entry a real number -/

/-- Every entry of the array is a real number (neither infinity). -/
def AllReal {S : Shape} (v : S.Idx → EReal) : Prop := ∀ i, ∃ r : ℝ, v i = (r : EReal)

/-! ## Finite sums, and the two forms of the variance -/

/-- The coercion of a finite real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For a column of real numbers h over n = card ι rows (n ≠ 0), with mean μ = (Σ h)/n:
    (Σ (h − μ)²)/n = (Σ h²)/n − μ².  Both quotients are the host's division by the real n. -/
theorem var_forms_eq {ι : Type} [Fintype ι] (h : ι → EReal) (hr : ∀ k, ∃ r : ℝ, h k = (r : EReal)) (n : ℝ)
    (hn : n = (Fintype.card ι : ℝ)) (hn0 : n ≠ 0) :
    Ideal.div (∑ k, (h k - Ideal.div (∑ k, h k) (n : EReal)) * (h k - Ideal.div (∑ k, h k) (n : EReal))) (n : EReal)
      = Ideal.div (∑ k, h k * h k) (n : EReal)
        - Ideal.div (∑ k, h k) (n : EReal) * Ideal.div (∑ k, h k) (n : EReal) := by
  choose r hr using hr
  have hh : h = fun k => (r k : EReal) := funext hr
  subst hh
  simp only [Ideal.div_coe hn0]
  simp only [← EReal.coe_mul, ← coe_sum, ← EReal.coe_sub]
  congr 1
  have hc : (∑ _k : ι, (1 : ℝ)) = n := by simp [hn]
  have hn1 : n * (1 / n) = 1 := by field_simp
  have e : ∀ k, (r k - (∑ k, r k) * (1 / n)) * (r k - (∑ k, r k) * (1 / n))
      = r k * r k - 2 * ((∑ k, r k) * (1 / n)) * r k + ((∑ k, r k) * (1 / n)) * ((∑ k, r k) * (1 / n)) * 1 := fun k => by ring
  simp only [e, Finset.sum_add_distrib, Finset.sum_sub_distrib, ← Finset.mul_sum, hc]
  have : ((∑ k, r k) * (1 / n)) * ((∑ k, r k) * (1 / n)) * n = (∑ k, r k) * (∑ k, r k) * (1 / n) * (n * (1 / n)) := by ring
  rw [this, hn1]; ring

/-! ## Real numbers are closed under what the layer does -/

/-- A real number plus a finite sum of real numbers is a real number. -/
theorem real_add_sum {ι : Type} (s : Finset ι) (a : EReal) (f : ι → EReal) (ha : ∃ r : ℝ, a = (r : EReal))
    (hf : ∀ j, ∃ r : ℝ, f j = (r : EReal)) : ∃ r : ℝ, a + ∑ j ∈ s, f j = (r : EReal) := by
  obtain ⟨ra, hra⟩ := ha
  choose rf hrf using hf
  refine ⟨ra + ∑ j ∈ s, rf j, ?_⟩
  rw [EReal.coe_add, coe_sum, hra]
  exact congrArg (fun t => (ra : EReal) + t) (Finset.sum_congr rfl fun j _ => hrf j)

/-- A finite sum of real numbers is a real number. -/
theorem real_sum {ι : Type} (s : Finset ι) (f : ι → EReal) (hf : ∀ j, ∃ r : ℝ, f j = (r : EReal)) :
    ∃ r : ℝ, ∑ j ∈ s, f j = (r : EReal) := by
  choose rf hrf using hf
  exact ⟨∑ j ∈ s, rf j, by rw [coe_sum]; exact Finset.sum_congr rfl fun j _ => hrf j⟩

/-- A product of two real numbers is a real number. -/
theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- A sum of two real numbers is a real number. -/
theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- The reciprocal square root of max(d, 1) is a real number when d is: max(d, 1) ≥ 1 is neither negative nor 0. -/
theorem real_rsqrt_max_one {d : EReal} (hd : ∃ r : ℝ, d = (r : EReal)) :
    ∃ r : ℝ, Ideal.rsqrt (max d ((1 : ℝ) : EReal)) = (r : EReal) := by
  obtain ⟨rd, rfl⟩ := hd
  have h1 : (1 : ℝ) ≤ max rd 1 := le_max_right rd 1
  refine ⟨(Real.sqrt (max rd 1))⁻¹, ?_⟩
  rw [← EReal.coe_strictMono.monotone.map_max, Ideal.rsqrt_coe, if_neg (by linarith), if_neg (by linarith)]

/-- A choice between two real numbers is a real number. -/
theorem real_select (c : BitVec 1) {a b : EReal} (ha : ∃ r : ℝ, a = (r : EReal)) (hb : ∃ r : ℝ, b = (r : EReal)) :
    ∃ r : ℝ, Scalar.select c a b = (r : EReal) := by
  unfold Scalar.select
  split
  · exact ha
  · exact hb

/-- The literal 0.0 is the real number 0. -/
theorem real_zero : ∃ r : ℝ, FloatOps.ofBits (F := Ideal) .f32 0x00000000#32 = (r : EReal) :=
  ⟨0, by rw [Ideal.ofBits_def, Ideal.ofBits_zero_f32]; rfl⟩

/-- The literal 1.0 is the real number 1. -/
theorem real_one : ∃ r : ℝ, FloatOps.ofBits (F := Ideal) .f32 0x3F800000#32 = (r : EReal) :=
  ⟨1, by rw [Ideal.ofBits_def, ofBits_one]⟩

/-! ## Gathers and accumulating scatters, whatever their indices -/

/-- An entry of a gathered array is an entry of its operand. -/
theorem allReal_gather {s si t : Shape} {w : Nat} (d : GatherDims s si t) (x : s.Idx → EReal) (idx : IVec si w)
    (hx : AllReal x) : AllReal (Host.gather d x idx) :=
  fun j => hx (d.operandIdx j idx)

/-- An entry of an accumulating scatter is the operand's entry plus a finite sum of update entries. -/
theorem allReal_scatterAdd {s si u : Shape} {w : Nat} (d : ScatterDims s si u) (x : FVec Ideal s .f32) (idx : IVec si w)
    (upd : FVec Ideal u .f32) (hx : AllReal x) (hu : AllReal upd) :
    AllReal (Host.scatterAdd (F := Ideal) d x idx upd) := by
  intro i
  show ∃ r : ℝ, FloatOps.hostScatterAdd d .single x idx upd i = (r : EReal)
  rw [Ideal.hostScatterAdd_def]
  exact real_add_sum _ (x i) upd (hx i) hu

end Cert.LibRealEntries

end
-- ==== Proof.RefLayerOps.lean ====
/-
  The operations of the reference's layers, each as one function of whole arrays, read at one entry.

  The reference computes a layer on whole arrays: a scatter-add of gathered and weighted rows, a self term, a bias
  row; then per column a mean, a centred second moment, a reciprocal square root, a scale and a shift. Each group of
  operations is named here as one function of its operand arrays (the shape facts the operations cite are
  parameters), and read at an entry (n, q) as the plain formula of the specification: an entry of the aggregation is
  0 plus the sum over the edges landing on n of the source row's entry times the edge weight, plus the self term,
  plus the bias; an entry of the normalization is the centred entry times the column's reciprocal deviation, scaled
  and shifted. The node weight is the reciprocal square root of one plus a scatter-added count of ones, which is a
  nonnegative real number, so every node weight and every edge weight is a real number.
-/
import proofs.«118271_j25778393710892_2_alg».proof.Proof.Spec
import proofs.«118271_j25778393710892_2_alg».proof.Proof.LibRowGatherScatter
import proofs.«118271_j25778393710892_2_alg».proof.Proof.LibAggregate
import proofs.«118271_j25778393710892_2_alg».proof.Proof.LibBiasRow
import proofs.«118271_j25778393710892_2_alg».proof.Proof.LibRealEntries
import Idealize.ShloMosaic.Lib.IdealHost
import Idealize.ShloMosaic.PureOps.Ideal.Laws
import Idealize.ShloMosaic.Lib.Pipeline.Value

noncomputable section

open scoped BigOperators

namespace Cert.GCN.RefOps

open Idealize.ShloMosaic Idealize.ShloMosaic.ValueIdx Cert.GCN Cert.Lib.RowGatherScatter Cert.Lib.Aggregate
open Cert.LibRealEntries

/-- the scalar literal 0.0 -/
abbrev zeroS : FVec Ideal ⟨0, ![]⟩ .f32 := constant (F := Ideal) ⟨0, ![]⟩ .f32 0x00000000#32
/-- the scalar literal 1.0 -/
abbrev oneS : FVec Ideal ⟨0, ![]⟩ .f32 := constant (F := Ideal) ⟨0, ![]⟩ .f32 0x3F800000#32

/-- the literal 0.0 is the extended real zero -/
theorem zeroS_apply (i : (⟨0, ![]⟩ : Shape).Idx) : zeroS i = 0 := by
  show Ideal.ofBits .f32 0x00000000#32 = 0
  exact Ideal.ofBits_zero_f32

/-- the literal 1.0 is the real number one -/
theorem oneS_apply (i : (⟨0, ![]⟩ : Shape).Idx) : oneS i = ((1 : ℝ) : EReal) := by
  show Ideal.ofBits .f32 0x3F800000#32 = ((1 : ℝ) : EReal)
  exact ofBits_one

/-! ## A vector as every row of a matrix -/

/-- A length-N vector broadcast to a row [1, N] and then down M rows, read at (p, q): entry q of the vector. -/
theorem rows_apply {M N : ℕ} (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) :=
  (Cert.Row.bcast_row_apply b h1 h2 p q).trans rfl

/-- The accumulating row scatter of the host, at the extended reals, read at (n, q). -/
theorem scatterAdd_rows_apply {N E D w : ℕ} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (q : Fin D) :
    Host.scatterAdd (F := Ideal) (rowScatter N E D wf) x idx upd (ix2 n q)
      = x (ix2 n q) + ∑ e ∈ Finset.univ.filter (fun e : Fin E => (idx (ix2 e 0)).toInt = (n.val : ℤ)), upd (ix2 e q) :=
  scatter_rows_apply wf x idx upd n q

/-! ## One aggregation with its self term and bias -/

section Conv
variable (wfs : ScatterDims.WF ⟨2, ![100000, 128]⟩ ⟨2, ![1600000, 1]⟩ ⟨2, ![1600000, 128]⟩ [1] [0] [0] 1)
  (wfg : GatherDims.WF ⟨2, ![100000, 128]⟩ ⟨2, ![1600000, 1]⟩ ⟨2, ![1600000, 128]⟩ [1] [0] [] [0] [] 1 ![1, 128])
  (hz : (⟨0, ![]⟩ : Shape).BroadcastsInDim ⟨2, ![100000, 128]⟩ ![])
  (he1 : (⟨1, ![1600000]⟩ : Shape).BroadcastsInDim ⟨2, ![1600000, 1]⟩ ![0])
  (he2 : (⟨2, ![1600000, 1]⟩ : Shape).BroadcastsInDim ⟨2, ![1600000, 128]⟩ ![0, 1])
  (hn1 : (⟨1, ![100000]⟩ : Shape).BroadcastsInDim ⟨2, ![100000, 1]⟩ ![0])
  (hn2 : (⟨2, ![100000, 1]⟩ : Shape).BroadcastsInDim ⟨2, ![100000, 128]⟩ ![0, 1])
  (hb1 : (⟨1, ![128]⟩ : Shape).BroadcastsInDim ⟨2, ![1, 128]⟩ ![1])
  (hb2 : (⟨2, ![1, 128]⟩ : Shape).BroadcastsInDim ⟨2, ![100000, 128]⟩ ![0, 1])

/-- The reference's aggregation of the features h: zeros scatter-added, along the target column ti, with the rows of h
    gathered at the source column si times the edge weights nr; plus h times the squared node weights dv; plus the
    bias b on every row. -/
def convOp (h : FVec Ideal ⟨2, ![100000, 128]⟩ .f32) (b : FVec Ideal ⟨1, ![128]⟩ .f32)
    (dv : FVec Ideal ⟨1, ![100000]⟩ .f32) (nr : FVec Ideal ⟨1, ![1600000]⟩ .f32)
    (si ti : IVec ⟨2, ![1600000, 1]⟩ 32) : FVec Ideal ⟨2, ![100000, 128]⟩ .f32 :=
  addf (addf (Host.scatterAdd (F := Ideal) (rowScatter 100000 1600000 128 wfs)
          (broadcastInDim ⟨2, ![100000, 128]⟩ ![] hz zeroS) ti
          (mulf (Host.gather (rowGather 100000 1600000 128 wfg) h si)
            (broadcastInDim ⟨2, ![1600000, 128]⟩ ![0, 1] he2 (broadcastInDim ⟨2, ![1600000, 1]⟩ ![0] he1 nr))))
        (mulf h (broadcastInDim ⟨2, ![100000, 128]⟩ ![0, 1] hn2 (broadcastInDim ⟨2, ![100000, 1]⟩ ![0] hn1 (mulf dv dv)))))
    (broadcastInDim ⟨2, ![100000, 128]⟩ ![0, 1] hb2 (broadcastInDim ⟨2, ![1, 128]⟩ ![1] hb1 b))

/-- THE AGGREGATION AT (n, q): the specification's formula, the source node of an edge being its source word read
    signed and clamped, the edges landing on n being those whose target word read signed is n. -/
theorem convOp_apply (h : FVec Ideal ⟨2, ![100000, 128]⟩ .f32) (b : FVec Ideal ⟨1, ![128]⟩ .f32)
    (dv : FVec Ideal ⟨1, ![100000]⟩ .f32) (nr : FVec Ideal ⟨1, ![1600000]⟩ .f32)
    (si ti : IVec ⟨2, ![1600000, 1]⟩ 32) (n : Fin 100000) (q : Fin 128) :
    convOp wfs wfg hz he1 he2 hn1 hn2 hb1 hb2 h b dv nr si ti (ix2 n q)
      = convR (fun n q => h (ix2 n q)) (fun n => dv (ix1 n)) (fun e => nr (ix1 e))
          (fun e => srcRow 100000 (by decide) (si (ix2 e 0)))
          (fun n => Finset.univ.filter fun e : Fin 1600000 => (ti (ix2 e 0)).toInt = (n.val : ℤ))
          (fun q => b (ix1 q)) n q := by
  unfold convOp convR
  beta_reduce
  rw [addf_apply, addf_apply, mulf_apply, rows_apply b hb1 hb2 n q, bcast_col_apply (mulf dv dv) hn1 hn2 n q, mulf_apply]
  rw [scatterAdd_rows_apply wfs _ ti _ n q, broadcastInDim_scalar_apply hz zeroS (ix2 n q), zeroS_apply]
  refine congrArg (fun t => (0 + t) + h (ix2 n q) * (dv (ix1 n) * dv (ix1 n)) + b (ix1 q)) ?_
  refine Finset.sum_congr rfl fun e _ => ?_
  rw [mulf_apply, gather_rows_apply (N := 100000) (by decide) wfg h si e q, bcast_col_apply nr he1 he2 e q]

end Conv

/-! ## Batch normalization -/

/-- the host's entrywise reciprocal square root and division, at an entry -/
theorem hostRsqrt_apply {s : Shape} (x : FVec Ideal s .f32) (i : s.Idx) : Host.rsqrt x i = Ideal.rsqrt (x i) := rfl
theorem hostDivf_apply {s : Shape} (x y : FVec Ideal s .f32) (i : s.Idx) : Host.divf x y i = Ideal.div (x i) (y i) := rfl

section Norm
variable (hr : (⟨2, ![100000, 128]⟩ : Shape).ReducesTo [0] ⟨1, ![128]⟩) (h0 : 0 < (⟨0, ![]⟩ : Shape).numel)
  (hc : (⟨0, ![]⟩ : Shape).BroadcastsInDim ⟨1, ![128]⟩ ![])
  (hb1 : (⟨1, ![128]⟩ : Shape).BroadcastsInDim ⟨2, ![1, 128]⟩ ![1])
  (hb2 : (⟨2, ![1, 128]⟩ : Shape).BroadcastsInDim ⟨2, ![100000, 128]⟩ ![0, 1])

/-- The host's sum of a matrix down its rows, started from the literal 0.0, at column q. -/
theorem colsum_apply (g : FVec Ideal ⟨2, ![100000, 128]⟩ .f32) (q : Fin 128) :
    Host.reduceAdd g zeroS hr h0 (ix1 q) = 0 + ∑ n : Fin 100000, g (ix2 n q) := by
  rw [hostReduceAdd_apply g zeroS hr h0 (ix1 q), Ideal.hostReduceAdd_single hr (by decide) g _ (ix1 q), zeroS_apply]
  refine congrArg (_ + ·) (Finset.sum_congr rfl fun k _ => ?_)
  exact congrArg g (funext fun a => Fin.ext (by match a with | ⟨0, _⟩ => rfl | ⟨1, _⟩ => rfl))

/-- A per-column literal: the scalar broadcast to the 128 columns. -/
def colConst (b : BitVec 32) : FVec Ideal ⟨1, ![128]⟩ .f32 :=
  broadcastInDim ⟨1, ![128]⟩ ![] hc (constant (F := Ideal) ⟨0, ![]⟩ .f32 b)

theorem colConst_apply (b : BitVec 32) (q : Fin 128) : colConst hc b (ix1 q) = Ideal.ofBits .f32 b :=
  (broadcastInDim_scalar_apply hc _ (ix1 q)).trans rfl

/-- The column means as the reference takes them: the column sums divided by the literal number of rows. -/
def meanOp (g : FVec Ideal ⟨2, ![100000, 128]⟩ .f32) : FVec Ideal ⟨1, ![128]⟩ .f32 :=
  Host.divf (Host.reduceAdd g zeroS hr h0) (colConst hc 0x47C35000#32)

theorem meanOp_apply (g : FVec Ideal ⟨2, ![100000, 128]⟩ .f32) (q : Fin 128) :
    meanOp hr h0 hc g (ix1 q) = meanR (fun n q => g (ix2 n q)) q := by
  show _ = Ideal.div (0 + ∑ n : Fin 100000, g (ix2 n q)) (Ideal.ofBits .f32 0x47C35000#32)
  unfold meanOp
  rw [hostDivf_apply, colsum_apply hr h0 g q, colConst_apply hc _ q]

/-- a per-column vector as every row of the node-by-channel matrix -/
def rowsOf (v : FVec Ideal ⟨1, ![128]⟩ .f32) : FVec Ideal ⟨2, ![100000, 128]⟩ .f32 :=
  broadcastInDim ⟨2, ![100000, 128]⟩ ![0, 1] hb2 (broadcastInDim ⟨2, ![1, 128]⟩ ![1] hb1 v)

theorem rowsOf_apply (v : FVec Ideal ⟨1, ![128]⟩ .f32) (n : Fin 100000) (q : Fin 128) :
    rowsOf hb1 hb2 v (ix2 n q) = v (ix1 q) := rows_apply v hb1 hb2 n q

/-- The reference's batch normalization of g with scale γ and shift β: g minus its column means, times the
    reciprocal square root of the mean of the squares of that difference plus the variance offset, times γ, plus β. -/
def bnOp (g : FVec Ideal ⟨2, ![100000, 128]⟩ .f32) (γ β : FVec Ideal ⟨1, ![128]⟩ .f32) :
    FVec Ideal ⟨2, ![100000, 128]⟩ .f32 :=
  addf (mulf (mulf (subf g (rowsOf hb1 hb2 (meanOp hr h0 hc g)))
      (rowsOf hb1 hb2 (Host.rsqrt (addf (Host.divf (Host.reduceAdd
          (mulf (subf g (rowsOf hb1 hb2 (meanOp hr h0 hc g))) (subf g (rowsOf hb1 hb2 (meanOp hr h0 hc g)))) zeroS hr h0)
        (colConst hc 0x47C35000#32)) (colConst hc 0x3727C5AC#32)))))
    (rowsOf hb1 hb2 γ)) (rowsOf hb1 hb2 β)

/-- THE NORMALIZATION AT (n, q): the specification's centred form. -/
theorem bnOp_apply (g : FVec Ideal ⟨2, ![100000, 128]⟩ .f32) (γ β : FVec Ideal ⟨1, ![128]⟩ .f32) (n : Fin 100000)
    (q : Fin 128) :
    bnOp hr h0 hc hb1 hb2 g γ β (ix2 n q)
      = bnR (fun n q => g (ix2 n q)) (fun q => γ (ix1 q)) (fun q => β (ix1 q)) n q := by
  have hcen : ∀ n' : Fin 100000, subf g (rowsOf hb1 hb2 (meanOp hr h0 hc g)) (ix2 n' q)
      = g (ix2 n' q) - meanR (fun n q => g (ix2 n q)) q := fun n' => by
    rw [subf_apply, rowsOf_apply hb1 hb2 _ n' q, meanOp_apply hr h0 hc g q]
  have hsq : ∀ n' : Fin 100000, mulf (subf g (rowsOf hb1 hb2 (meanOp hr h0 hc g)))
        (subf g (rowsOf hb1 hb2 (meanOp hr h0 hc g))) (ix2 n' q)
      = (g (ix2 n' q) - meanR (fun n q => g (ix2 n q)) q) * (g (ix2 n' q) - meanR (fun n q => g (ix2 n q)) q) :=
    fun n' => by rw [mulf_apply, hcen n']
  show _ = (g (ix2 n q) - meanR (fun n q => g (ix2 n q)) q)
      * Ideal.rsqrt (Ideal.div (0 + ∑ n' : Fin 100000, (g (ix2 n' q) - meanR (fun n q => g (ix2 n q)) q)
          * (g (ix2 n' q) - meanR (fun n q => g (ix2 n q)) q)) (Ideal.ofBits .f32 0x47C35000#32)
        + Ideal.ofBits .f32 0x3727C5AC#32) * γ (ix1 q) + β (ix1 q)
  unfold bnOp
  rw [addf_apply, mulf_apply, mulf_apply, hcen n, rowsOf_apply hb1 hb2 γ n q, rowsOf_apply hb1 hb2 β n q,
    rowsOf_apply hb1 hb2 _ n q, hostRsqrt_apply, addf_apply, hostDivf_apply, colsum_apply hr h0 _ q,
    colConst_apply hc _ q, colConst_apply hc _ q, Finset.sum_congr rfl fun n' _ => hsq n']

end Norm

/-! ## The maximum with zero -/

/-- The entrywise maximum with the literal 0.0 broadcast to the matrix. -/
def reluOp (hz : (⟨0, ![]⟩ : Shape).BroadcastsInDim ⟨2, ![100000, 128]⟩ ![]) (a : FVec Ideal ⟨2, ![100000, 128]⟩ .f32) :
    FVec Ideal ⟨2, ![100000, 128]⟩ .f32 :=
  maximumf a (broadcastInDim ⟨2, ![100000, 128]⟩ ![] hz zeroS)

theorem reluOp_apply (hz : (⟨0, ![]⟩ : Shape).BroadcastsInDim ⟨2, ![100000, 128]⟩ ![])
    (a : FVec Ideal ⟨2, ![100000, 128]⟩ .f32) (n : Fin 100000) (q : Fin 128) :
    reluOp hz a (ix2 n q) = max (a (ix2 n q)) 0 := by
  unfold reluOp
  rw [maximumf_apply, broadcastInDim_scalar_apply, zeroS_apply]

/-! ## The node and edge weights are real numbers -/

section Weights
variable {s si u : Shape} {w : ℕ} (d : ScatterDims s si u) (hzs : (⟨0, ![]⟩ : Shape).BroadcastsInDim s ![])
  (hzu : (⟨0, ![]⟩ : Shape).BroadcastsInDim u ![])

/-- The node weights: the reciprocal square root of one plus the scatter-add, along the index column, of ones into
    zeros. -/
def degOp (idx : IVec si w) : FVec Ideal s .f32 :=
  Host.rsqrt (addf (Host.scatterAdd (F := Ideal) d (broadcastInDim s ![] hzs zeroS) idx (broadcastInDim u ![] hzu oneS))
    (broadcastInDim s ![] hzs oneS))

/-- Every node weight is a real number: the scatter-added count is zero plus a finite sum of ones, a nonnegative real
    c, and the reciprocal square root of c + 1 ≥ 1 is real. -/
theorem degOp_real (idx : IVec si w) : AllReal (degOp d hzs hzu idx) := by
  intro i
  show ∃ r : ℝ, Ideal.rsqrt (FloatOps.hostScatterAdd d .single (broadcastInDim s ![] hzs zeroS) idx
      (broadcastInDim u ![] hzu oneS) i + broadcastInDim s ![] hzs oneS i) = (r : EReal)
  rw [Ideal.hostScatterAdd_def]
  unfold Ideal.hostScatterAdd
  rw [broadcastInDim_scalar_apply, broadcastInDim_scalar_apply, zeroS_apply, oneS_apply]
  have hu : ∀ j, broadcastInDim u ![] hzu oneS j = ((1 : ℝ) : EReal) := fun j => by
    rw [broadcastInDim_scalar_apply, oneS_apply]
  simp only [hu]
  rw [← coe_sum, zero_add, ← EReal.coe_add]
  have hc : (0 : ℝ) ≤ ∑ _j ∈ Finset.univ.filter (fun j => d.resultIdx? j idx = some i), (1 : ℝ) :=
    Finset.sum_nonneg fun _ _ => zero_le_one
  refine ⟨(Real.sqrt (∑ _j ∈ Finset.univ.filter (fun j => d.resultIdx? j idx = some i), (1 : ℝ) + 1))⁻¹, ?_⟩
  rw [Ideal.rsqrt_coe, if_neg (by linarith), if_neg (by linarith)]

/-- The edge weights: the product of the node weights gathered at the two index columns; real numbers when the
    node weights are. -/
theorem edge_real {s si t : Shape} {w : ℕ} (dg : GatherDims s si t) (dv : FVec Ideal s .f32) (i1 i2 : IVec si w)
    (hdv : AllReal dv) : AllReal (mulf (Host.gather dg dv i1) (Host.gather dg dv i2)) :=
  fun j => real_mul (allReal_gather dg dv i1 hdv j) (allReal_gather dg dv i2 hdv j)

end Weights

end Cert.GCN.RefOps

end
-- ==== Proof.RefEntries.lean ====
/-
  The reference's result at one entry, stage by stage.

  The reference computes two graph-convolution layers with batch normalization on whole arrays. Its stages are read
  here as matrices over (node, channel): the product with the first weight matrix; the aggregation (the edge sum
  started from zero, then the self term, then the bias); the normalization in centred form; the maximum with zero; the
  product with the second weight matrix; the second aggregation, whose index columns, node weights and edge weights the
  program computes again and which are the first layer's, term for term; the second normalization; the input added
  back and the maximum with zero. Each stage is the specification's function of the earlier stage, so the result at
  (n, q) is the specification's network of the argument arrays, with the node weight, the edge weight, the source node
  of an edge and the set of edges landing on a node read off the reference's own stages. A node weight is the
  reciprocal square root of one plus a count, hence a real number, and so is an edge weight, a product of two of them.
-/
import proofs.«118271_j25778393710892_2_alg».proof.Proof.RefReadPatched
import proofs.«118271_j25778393710892_2_alg».proof.Proof.Rd
import proofs.«118271_j25778393710892_2_alg».proof.Proof.Spec
import proofs.«118271_j25778393710892_2_alg».proof.Proof.LibRowGatherScatter
import proofs.«118271_j25778393710892_2_alg».proof.Proof.LibRealEntries
import proofs.«118271_j25778393710892_2_alg».proof.Proof.RefLayerOps

set_option maxRecDepth 16384

noncomputable section

open scoped BigOperators

namespace Cert.ReferenceIdeal.RefEntries

open Idealize.ShloMosaic Idealize.ShloMosaic.ValueIdx Cert.ReferenceIdeal Cert.ReferenceIdeal.Read Cert.GCN
open Cert.Lib.RowGatherScatter
open Cert.GCN.RefOps Cert.LibRealEntries Cert.ReferenceIdeal.Facts₀

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 x5 x6 : (⟨S128, .f32⟩ : BufTy).Contents (Elt Ideal)) (x7 : (⟨S2x1600000, .i32⟩ : BufTy).Contents (Elt Ideal))

/-- the node weight rsqrt(1 + in-degree), the edge weight, the source node of an edge, the edges landing on a node:
    read off the reference's own stages -/
def dvR (n : Fin 100000) : EReal := rd S100000 (val_main_v16 (F := Ideal) x7) (ix1 n)
def nrR (e : Fin 1600000) : EReal := rd S1600000 (val_main_v31 (F := Ideal) x7) (ix1 e)
def srR (e : Fin 1600000) : Fin 100000 := srcRow 100000 (by decide) (val_main_v38 (F := Ideal) x7 (ix2 e 0))
def LR (n : Fin 100000) : Finset (Fin 1600000) :=
  Finset.univ.filter fun e : Fin 1600000 => (val_main_v48 (F := Ideal) x7 (ix2 e 0)).toInt = (n.val : ℤ)

/-! ## The second layer recomputes the first layer's index columns and weights -/

theorem v96_eq : val_main_v96 (F := Ideal) x7 = val_main_v16 (F := Ideal) x7 := rfl
theorem v111_eq : val_main_v111 (F := Ideal) x7 = val_main_v31 (F := Ideal) x7 := rfl
theorem v118_eq : val_main_v118 (F := Ideal) x7 = val_main_v38 (F := Ideal) x7 := rfl
theorem v128_eq : val_main_v128 (F := Ideal) x7 = val_main_v48 (F := Ideal) x7 := rfl

/-! ## The reference's stages as the layer operations -/

/-- one aggregation of the reference, its shape facts the program's own -/
def convS (h : (⟨S100000x128, .f32⟩ : BufTy).Contents (Elt Ideal)) (b : (⟨S128, .f32⟩ : BufTy).Contents (Elt Ideal))
    (dv : (⟨S100000, .f32⟩ : BufTy).Contents (Elt Ideal)) (nr : (⟨S1600000, .f32⟩ : BufTy).Contents (Elt Ideal))
    (si ti : (⟨S1600000x1, .i32⟩ : BufTy).Contents (Elt Ideal)) : (⟨S100000x128, .f32⟩ : BufTy).Contents (Elt Ideal) :=
  convOp scatter_S100000x128_S1600000x1_S1600000x128_1_0_0_1_wf gather_S100000x128_S1600000x1_S1600000x128_1_0_n_n_0_1_1128_wf
    bcast_S_S100000x128 bcast_S1600000_S1600000x1_0 bcast_S1600000x1_S1600000x128_0_1 bcast_S100000_S100000x1_0
    bcast_S100000x1_S100000x128_0_1 bcast_S128_S1x128_1 bcast_S1x128_S100000x128_0_1 h b dv nr si ti

/-- the reference's batch normalization, its shape facts the program's own -/
def bnS (g : (⟨S100000x128, .f32⟩ : BufTy).Contents (Elt Ideal)) (γ β : (⟨S128, .f32⟩ : BufTy).Contents (Elt Ideal)) :
    (⟨S100000x128, .f32⟩ : BufTy).Contents (Elt Ideal) :=
  bnOp reducesTo_S100000x128_S128_d0 h_S_ bcast_S_S128 bcast_S128_S1x128_1 bcast_S1x128_S100000x128_0_1 g γ β

/-- the reference's maximum with zero -/
def reluS (a : (⟨S100000x128, .f32⟩ : BufTy).Contents (Elt Ideal)) : (⟨S100000x128, .f32⟩ : BufTy).Contents (Elt Ideal) :=
  reluOp bcast_S_S100000x128 a

theorem convS_apply (h : (⟨S100000x128, .f32⟩ : BufTy).Contents (Elt Ideal)) (b : (⟨S128, .f32⟩ : BufTy).Contents (Elt Ideal))
    (n : Fin 100000) (q : Fin 128) :
    convS h b (val_main_v16 (F := Ideal) x7) (val_main_v31 (F := Ideal) x7) (val_main_v38 (F := Ideal) x7)
        (val_main_v48 (F := Ideal) x7) (ix2 n q)
      = convR (fun n q => h (ix2 n q)) (dvR x7) (nrR x7) (srR x7) (LR x7) (fun q => b (ix1 q)) n q :=
  convOp_apply _ _ _ _ _ _ _ _ _ h b (val_main_v16 (F := Ideal) x7) (val_main_v31 (F := Ideal) x7)
    (val_main_v38 (F := Ideal) x7) (val_main_v48 (F := Ideal) x7) n q

theorem bnS_apply (g : (⟨S100000x128, .f32⟩ : BufTy).Contents (Elt Ideal)) (γ β : (⟨S128, .f32⟩ : BufTy).Contents (Elt Ideal)) (n : Fin 100000) (q : Fin 128) :
    bnS g γ β (ix2 n q) = bnR (fun n q => g (ix2 n q)) (fun q => γ (ix1 q)) (fun q => β (ix1 q)) n q :=
  bnOp_apply _ _ _ _ _ g γ β n q

theorem reluS_apply (a : (⟨S100000x128, .f32⟩ : BufTy).Contents (Elt Ideal)) (n : Fin 100000) (q : Fin 128) :
    reluS a (ix2 n q) = max (a (ix2 n q)) 0 := reluOp_apply _ a n q

/-- each stage of the reference is the named operation of the earlier stages: the definitions agree term by term -/
theorem v57_op : val_main_v57 (F := Ideal) x0 x1 x2 x7
    = convS (val_main_v4 (F := Ideal) x0 x1) x2 (val_main_v16 (F := Ideal) x7) (val_main_v31 (F := Ideal) x7)
        (val_main_v38 (F := Ideal) x7) (val_main_v48 (F := Ideal) x7) := rfl
theorem v82_op : val_main_v82 (F := Ideal) x0 x1 x2 x5 x6 x7 = bnS (val_main_v57 (F := Ideal) x0 x1 x2 x7) x5 x6 := rfl
theorem v83_op : val_main_v83 (F := Ideal) x0 x1 x2 x5 x6 x7 = reluS (val_main_v82 (F := Ideal) x0 x1 x2 x5 x6 x7) := rfl
theorem v84_op : val_main_v84 (F := Ideal) x0 x1 x2 x3 x5 x6 x7
    = val_main_v4 (F := Ideal) (val_main_v83 (F := Ideal) x0 x1 x2 x5 x6 x7) x3 := rfl
theorem v137_op : val_main_v137 (F := Ideal) x0 x1 x2 x3 x4 x5 x6 x7
    = convS (val_main_v84 (F := Ideal) x0 x1 x2 x3 x5 x6 x7) x4 (val_main_v96 (F := Ideal) x7) (val_main_v111 (F := Ideal) x7)
        (val_main_v118 (F := Ideal) x7) (val_main_v128 (F := Ideal) x7) := rfl
theorem v162_op : val_main_v162 (F := Ideal) x0 x1 x2 x3 x4 x5 x6 x7
    = bnS (val_main_v137 (F := Ideal) x0 x1 x2 x3 x4 x5 x6 x7) x5 x6 := rfl
theorem v164_op : val_main_v164 (F := Ideal) x0 x1 x2 x3 x4 x5 x6 x7
    = reluS (addf (val_main_v162 (F := Ideal) x0 x1 x2 x3 x4 x5 x6 x7) x0 : FVec Ideal S100000x128 .f32) := rfl
theorem v16_op : val_main_v16 (F := Ideal) x7
    = degOp scatter_S100000_S1600000x1_S1600000_n_0_0_1 bcast_S_S100000 bcast_S_S1600000 (val_main_v11 (F := Ideal) x7) := rfl
theorem v31_op : val_main_v31 (F := Ideal) x7
    = (mulf (Host.gather gather_S100000_S1600000x1_S1600000_n_0_n_n_0_1_1 (val_main_v16 (F := Ideal) x7) (val_main_v22 (F := Ideal) x7))
        (Host.gather gather_S100000_S1600000x1_S1600000_n_0_n_n_0_1_1 (val_main_v16 (F := Ideal) x7) (val_main_v29 (F := Ideal) x7))
          : FVec Ideal S1600000 .f32) := rfl

/-! ## The weights are real numbers -/

theorem dv_allReal : AllReal (S := S100000) (val_main_v16 (F := Ideal) x7) := by
  rw [v16_op]; exact degOp_real _ _ _ _

theorem dv_real (n : Fin 100000) : ∃ r : ℝ, dvR x7 n = (r : EReal) := dv_allReal x7 (ix1 n)

theorem nr_real (e : Fin 1600000) : ∃ r : ℝ, nrR x7 e = (r : EReal) := by
  show ∃ r : ℝ, val_main_v31 (F := Ideal) x7 (ix1 e) = (r : EReal)
  rw [v31_op]
  exact edge_real _ _ _ _ (dv_allReal x7) (ix1 e)

/-! ## The stages at an entry -/

/-- a product of a node-by-channel matrix with a weight matrix, at (n, q): the sum over the inner index -/
theorem mm_entry (a : (⟨S100000x128, .f32⟩ : BufTy).Contents (Elt Ideal)) (W : (⟨S128x128, .f32⟩ : BufTy).Contents (Elt Ideal)) (n : Fin 100000) (q : Fin 128) :
    val_main_v4 (F := Ideal) a W (ix2 n q) = mm (fun n k => a (ix2 n k)) (fun k q => W (ix2 k q)) n q := by
  have el : ∀ k : Fin 128, lidx_main_v4 (ix2 n q) k = ix2 n k := fun k => funext fun c => Fin.ext (by
    match c with | ⟨0, _⟩ => rfl | ⟨1, _⟩ => rfl)
  have er : ∀ k : Fin 128, ridx_main_v4 (ix2 n q) k = ix2 k q := fun k => funext fun c => Fin.ext (by
    match c with | ⟨0, _⟩ => rfl | ⟨1, _⟩ => rfl)
  rw [val_main_v4_apply a W (ix2 n q)]
  show _ = ∑ k : Fin 128, a (ix2 n k) * W (ix2 k q)
  exact Finset.sum_congr rfl fun k _ => by rw [el k, er k]

theorem result_entry (n : Fin 100000) (q : Fin 128) :
    rd S100000x128 (val_main_v164 (F := Ideal) x0 x1 x2 x3 x4 x5 x6 x7) (ix2 n q)
      = netR (fun n q => rd S100000x128 x0 (ix2 n q)) (fun k q => rd S128x128 x1 (ix2 k q)) (fun k q => rd S128x128 x3 (ix2 k q))
          (fun q => rd S128 x2 (ix1 q)) (fun q => rd S128 x4 (ix1 q)) (fun q => rd S128 x5 (ix1 q)) (fun q => rd S128 x6 (ix1 q))
          (dvR x7) (nrR x7) (srR x7) (LR x7) n q := by
  -- the stages as matrices, each from the earlier one
  have s4 : (fun (n : Fin 100000) (q : Fin 128) => val_main_v4 (F := Ideal) x0 x1 (ix2 n q))
      = mm (fun n q => x0 (ix2 n q)) (fun k q => x1 (ix2 k q)) :=
    funext fun n => funext fun q => mm_entry x0 x1 n q
  have s57 : (fun (n : Fin 100000) (q : Fin 128) => val_main_v57 (F := Ideal) x0 x1 x2 x7 (ix2 n q))
      = convR (mm (fun n q => x0 (ix2 n q)) (fun k q => x1 (ix2 k q))) (dvR x7) (nrR x7) (srR x7) (LR x7)
          (fun q => x2 (ix1 q)) := by
    rw [← s4]
    exact funext fun n => funext fun q => (congrFun (v57_op x0 x1 x2 x7) (ix2 n q)).trans (convS_apply x7 _ x2 n q)
  have s82 : (fun (n : Fin 100000) (q : Fin 128) => val_main_v82 (F := Ideal) x0 x1 x2 x5 x6 x7 (ix2 n q))
      = bnR (convR (mm (fun n q => x0 (ix2 n q)) (fun k q => x1 (ix2 k q))) (dvR x7) (nrR x7) (srR x7) (LR x7)
          (fun q => x2 (ix1 q))) (fun q => x5 (ix1 q)) (fun q => x6 (ix1 q)) := by
    rw [← s57]
    exact funext fun n => funext fun q => (congrFun (v82_op x0 x1 x2 x5 x6 x7) (ix2 n q)).trans (bnS_apply _ x5 x6 n q)
  have s83 : (fun (n : Fin 100000) (q : Fin 128) => val_main_v83 (F := Ideal) x0 x1 x2 x5 x6 x7 (ix2 n q))
      = relu (bnR (convR (mm (fun n q => x0 (ix2 n q)) (fun k q => x1 (ix2 k q))) (dvR x7) (nrR x7) (srR x7) (LR x7)
          (fun q => x2 (ix1 q))) (fun q => x5 (ix1 q)) (fun q => x6 (ix1 q))) := by
    rw [← s82]
    exact funext fun n => funext fun q => (congrFun (v83_op x0 x1 x2 x5 x6 x7) (ix2 n q)).trans (reluS_apply _ n q)
  have s84 : (fun (n : Fin 100000) (q : Fin 128) => val_main_v84 (F := Ideal) x0 x1 x2 x3 x5 x6 x7 (ix2 n q))
      = mm (relu (bnR (convR (mm (fun n q => x0 (ix2 n q)) (fun k q => x1 (ix2 k q))) (dvR x7) (nrR x7) (srR x7) (LR x7)
          (fun q => x2 (ix1 q))) (fun q => x5 (ix1 q)) (fun q => x6 (ix1 q)))) (fun k q => x3 (ix2 k q)) := by
    rw [← s83]
    exact funext fun n => funext fun q =>
      (congrFun (v84_op x0 x1 x2 x3 x5 x6 x7) (ix2 n q)).trans (mm_entry _ x3 n q)
  have s137 : (fun (n : Fin 100000) (q : Fin 128) => val_main_v137 (F := Ideal) x0 x1 x2 x3 x4 x5 x6 x7 (ix2 n q))
      = convR (mm (relu (bnR (convR (mm (fun n q => x0 (ix2 n q)) (fun k q => x1 (ix2 k q))) (dvR x7) (nrR x7) (srR x7)
          (LR x7) (fun q => x2 (ix1 q))) (fun q => x5 (ix1 q)) (fun q => x6 (ix1 q)))) (fun k q => x3 (ix2 k q)))
          (dvR x7) (nrR x7) (srR x7) (LR x7) (fun q => x4 (ix1 q)) := by
    rw [← s84]
    refine funext fun n => funext fun q => (congrFun (v137_op x0 x1 x2 x3 x4 x5 x6 x7) (ix2 n q)).trans ?_
    rw [v96_eq, v111_eq, v118_eq, v128_eq]
    exact convS_apply x7 _ x4 n q
  have s162 : val_main_v162 (F := Ideal) x0 x1 x2 x3 x4 x5 x6 x7 (ix2 n q)
      = bnR (convR (mm (relu (bnR (convR (mm (fun n q => x0 (ix2 n q)) (fun k q => x1 (ix2 k q))) (dvR x7) (nrR x7) (srR x7)
          (LR x7) (fun q => x2 (ix1 q))) (fun q => x5 (ix1 q)) (fun q => x6 (ix1 q)))) (fun k q => x3 (ix2 k q)))
          (dvR x7) (nrR x7) (srR x7) (LR x7) (fun q => x4 (ix1 q))) (fun q => x5 (ix1 q)) (fun q => x6 (ix1 q)) n q := by
    rw [← s137]
    exact (congrFun (v162_op x0 x1 x2 x3 x4 x5 x6 x7) (ix2 n q)).trans (bnS_apply _ x5 x6 n q)
  -- the result: the maximum with zero of the last normalization plus the input
  refine ((congrFun (v164_op x0 x1 x2 x3 x4 x5 x6 x7) (ix2 n q)).trans (reluS_apply _ n q)).trans ?_
  rw [addf_apply, s162]
  rfl

end Cert.ReferenceIdeal.RefEntries

end
-- ==== Proof.Bridge.lean ====
import proofs.«118271_j25778393710892_2_alg».proof.Proof.HostTerms
import proofs.«118271_j25778393710892_2_alg».proof.Proof.RefReadPatched

/-!
  The edge-derived arrays are ONE text in both programs: the normalized source and target index columns, the node
  weight rsqrt(1 + in-degree) and the edge weight are computed by the same host operations of the edge list in the
  kernel program and in the reference, so the reference's stages ARE the kernel program's host stages.
-/

set_option maxRecDepth 16384

noncomputable section

namespace Cert.Bridge

open Idealize.ShloMosaic
open Cert.KernelIdeal.HostValue

variable (x7 : IVec Cert.KernelIdeal.S2x1600000 32)

theorem srcCol_eq : Cert.ReferenceIdeal.Read.val_main_v38 (F := Ideal) x7 = col (srcRowV x7) := rfl
theorem dstCol_eq : Cert.ReferenceIdeal.Read.val_main_v48 (F := Ideal) x7 = col (dstRowV x7) := rfl
theorem dinv_eq : Cert.ReferenceIdeal.Read.val_main_v16 (F := Ideal) x7 = dinvV x7 := rfl
theorem norm_eq : Cert.ReferenceIdeal.Read.val_main_v31 (F := Ideal) x7 = normV x7 := rfl

end Cert.Bridge

end
-- ==== Proof.Math.lean ====
/-
  The algebra of the two-layer graph convolution with batch normalization, over the extended reals.

  On matrices all of whose entries are real numbers the kernel's network (edge sum started from the self term;
  variance as mean of squares minus squared mean, folded into one scale and one shift per column) and the
  reference's network (edge sum started from zero; centred variance) are the same function.

  * the two literals: the node count is the real 100000, the variance offset is a positive real;
  * an aggregation: the two orders of adding agree with no hypothesis, and keep entries real;
  * a normalization of a real matrix: both forms equal one real expression, because the two forms of the variance
    agree in the reals and the variance is nonnegative, so that the reciprocal square root is taken of a positive real;
  * products with a real weight matrix and the maximum with zero keep entries real;
  * the layers are chained.
-/
import proofs.«118271_j25778393710892_2_alg».proof.Proof.Spec
import proofs.«118271_j25778393710892_2_alg».proof.Proof.LibRealEntries
import Mathlib.Data.EReal.Basic
import Mathlib.Analysis.SpecialFunctions.Pow.Real
import Mathlib.Tactic

noncomputable section

open scoped BigOperators

namespace Cert.GCN

open Idealize.ShloMosaic
open Cert.LibRealEntries

/-! ## The two literals -/

/-- The node count literal is the real 100000 = (2^23 + 4411392) * 2^(-7). -/
theorem cN_eq : cN = ((100000 : ℝ) : EReal) := by
  simp [Ideal.ofBits, Ideal.ieee, -EReal.coe_mul]; norm_num

/-- The variance offset literal is a positive real (a normal number with sign bit 0). -/
theorem eps_pos : ∃ e : ℝ, 0 < e ∧ eps = (e : EReal) := by
  refine ⟨((2 ^ 23 + 2606508 : ℕ) : ℝ) * (2 : ℝ) ^ ((110 : ℤ) - 127 - 23), by positivity, ?_⟩
  simp [Ideal.ofBits, Ideal.ieee, -EReal.coe_mul]

/-- Division by the node count is multiplication by the real 1/100000. -/
theorem div_cN (x : EReal) : Ideal.div x cN = x * (((1 : ℝ) / 100000 : ℝ) : EReal) := by
  rw [cN_eq]; exact Ideal.div_coe (by norm_num) x

/-! ## The aggregation -/

/-- Starting the edge sum from the self term, or adding the self term to the edge sum started from zero. -/
theorem convK_eq_convR (h : Mat) (dv : Fin 100000 → EReal) (nr : Fin 1600000 → EReal) (sr : Fin 1600000 → Fin 100000)
    (L : Fin 100000 → Finset (Fin 1600000)) (b : Fin 128 → EReal) :
    convK h dv nr sr L b = convR h dv nr sr L b := by
  funext n q
  simp only [convK, convR, zero_add]
  rw [add_comm (h n q * (dv n * dv n))]

/-- An aggregation of real data is real. -/
theorem convR_real (h : Mat) (dv : Fin 100000 → EReal) (nr : Fin 1600000 → EReal) (sr : Fin 1600000 → Fin 100000)
    (L : Fin 100000 → Finset (Fin 1600000)) (b : Fin 128 → EReal)
    (hh : ∀ n q, ∃ r : ℝ, h n q = (r : EReal)) (hdv : ∀ n, ∃ r : ℝ, dv n = (r : EReal))
    (hnr : ∀ e, ∃ r : ℝ, nr e = (r : EReal)) (hb : ∀ q, ∃ r : ℝ, b q = (r : EReal)) :
    ∀ n q, ∃ r : ℝ, convR h dv nr sr L b n q = (r : EReal) := by
  intro n q
  simp only [convR]
  exact real_add (real_add (real_add_sum (L n) 0 _ ⟨0, EReal.coe_zero.symm⟩ (fun e => real_mul (hh (sr e) q) (hnr e)))
    (real_mul (hh n q) (real_mul (hdv n) (hdv n)))) (hb q)

/-! ## The normalization, in the reals -/

/-- the column mean of a real matrix -/
def mu (r : Fin 100000 → Fin 128 → ℝ) (q : Fin 128) : ℝ := (∑ n, r n q) * (1 / 100000)

/-- the column variance of a real matrix, centred form -/
def va (r : Fin 100000 → Fin 128 → ℝ) (q : Fin 128) : ℝ :=
  (∑ n, (r n q - mu r q) * (r n q - mu r q)) * (1 / 100000)

/-- the normalized real matrix -/
def bnReal (r : Fin 100000 → Fin 128 → ℝ) (c b : Fin 128 → ℝ) (e : ℝ) (n : Fin 100000) (q : Fin 128) : ℝ :=
  (r n q - mu r q) * (Real.sqrt (va r q + e))⁻¹ * c q + b q

/-- A mean of squares is nonnegative. -/
theorem va_nonneg (r : Fin 100000 → Fin 128 → ℝ) (q : Fin 128) : 0 ≤ va r q := by
  unfold va
  exact mul_nonneg (Finset.sum_nonneg fun n _ => mul_self_nonneg _) (by norm_num)

/-- The centred variance is the mean of the squares minus the squared mean. -/
theorem va_eq (r : Fin 100000 → Fin 128 → ℝ) (q : Fin 128) :
    va r q = (∑ n, r n q * r n q) * (1 / 100000) - (∑ n, r n q) * (1 / 100000) * ((∑ n, r n q) * (1 / 100000)) := by
  unfold va mu
  have hc : (∑ _k : Fin 100000, (1 : ℝ)) = 100000 := by simp
  have e : ∀ n, (r n q - (∑ n, r n q) * (1 / 100000)) * (r n q - (∑ n, r n q) * (1 / 100000))
      = r n q * r n q - 2 * ((∑ n, r n q) * (1 / 100000)) * r n q
        + ((∑ n, r n q) * (1 / 100000)) * ((∑ n, r n q) * (1 / 100000)) * 1 := fun n => by ring
  simp only [e, Finset.sum_add_distrib, Finset.sum_sub_distrib, ← Finset.mul_sum, hc]
  ring

/-! ## The normalization of a matrix of real entries -/

/-- The reference's column mean. -/
theorem meanR_coe (r : Fin 100000 → Fin 128 → ℝ) (q : Fin 128) :
    meanR (fun n q => (r n q : EReal)) q = (mu r q : EReal) := by
  simp only [meanR, mu, div_cN, zero_add, ← coe_sum, ← EReal.coe_mul]

/-- The reciprocal square root of variance plus offset is a real number. -/
theorem rsqrt_va (r : Fin 100000 → Fin 128 → ℝ) (q : Fin 128) (e : ℝ) (he : 0 < e) :
    Ideal.rsqrt ((va r q + e : ℝ) : EReal) = (((Real.sqrt (va r q + e))⁻¹ : ℝ) : EReal) := by
  have h0 := va_nonneg r q
  rw [Ideal.rsqrt_coe, if_neg (by linarith), if_neg (by linarith)]

/-- The centred form on real data. -/
theorem bnR_coe (r : Fin 100000 → Fin 128 → ℝ) (c b : Fin 128 → ℝ) (e : ℝ) (he : 0 < e) (hE : eps = (e : EReal))
    (n : Fin 100000) (q : Fin 128) :
    bnR (fun n q => (r n q : EReal)) (fun q => (c q : EReal)) (fun q => (b q : EReal)) n q
      = (bnReal r c b e n q : EReal) := by
  simp only [bnR, meanR_coe, div_cN, zero_add, hE]
  simp only [← EReal.coe_sub, ← EReal.coe_mul, ← coe_sum, ← EReal.coe_add]
  have hv : (∑ n', (r n' q - mu r q) * (r n' q - mu r q)) * (1 / 100000) + e = va r q + e := rfl
  rw [hv, rsqrt_va r q e he]
  simp only [← EReal.coe_mul, ← EReal.coe_add]
  rfl

/-- The folded form on real data. -/
theorem bnK_coe (r : Fin 100000 → Fin 128 → ℝ) (c b : Fin 128 → ℝ) (e : ℝ) (he : 0 < e) (hE : eps = (e : EReal))
    (n : Fin 100000) (q : Fin 128) :
    bnK (fun n q => (r n q : EReal)) (fun q => (c q : EReal)) (fun q => (b q : EReal)) n q
      = (bnReal r c b e n q : EReal) := by
  simp only [bnK, shiftK, scaleK, div_cN, hE]
  simp only [← EReal.coe_sub, ← EReal.coe_mul, ← coe_sum, ← EReal.coe_add]
  rw [← va_eq r q, rsqrt_va r q e he]
  simp only [← EReal.coe_sub, ← EReal.coe_mul, ← EReal.coe_add]
  congr 1
  unfold bnReal mu
  ring

/-- On a matrix of real entries, with real scale and shift parameters, the two forms agree and give real entries. -/
theorem bn_real (g : Mat) (γ β : Fin 128 → EReal) (hg : ∀ n q, ∃ r : ℝ, g n q = (r : EReal))
    (hγ : ∀ q, ∃ r : ℝ, γ q = (r : EReal)) (hβ : ∀ q, ∃ r : ℝ, β q = (r : EReal)) :
    bnK g γ β = bnR g γ β ∧ ∀ n q, ∃ r : ℝ, bnR g γ β n q = (r : EReal) := by
  obtain ⟨e, he, hE⟩ := eps_pos
  choose r hr using hg
  choose c hc using hγ
  choose b hb using hβ
  have h1 : g = fun n q => (r n q : EReal) := funext fun n => funext fun q => hr n q
  have h2 : γ = fun q => (c q : EReal) := funext hc
  have h3 : β = fun q => (b q : EReal) := funext hb
  subst h1 h2 h3
  refine ⟨?_, fun n q => ⟨bnReal r c b e n q, bnR_coe r c b e he hE n q⟩⟩
  funext n q
  rw [bnK_coe r c b e he hE, bnR_coe r c b e he hE]

/-! ## Products with a weight matrix, and the maximum with zero -/

/-- A product of real matrices is real. -/
theorem mm_real (a : Mat) (W : Fin 128 → Fin 128 → EReal) (ha : ∀ n q, ∃ r : ℝ, a n q = (r : EReal))
    (hW : ∀ k q, ∃ r : ℝ, W k q = (r : EReal)) : ∀ n q, ∃ r : ℝ, mm a W n q = (r : EReal) := by
  intro n q
  simp only [mm]
  exact real_sum _ _ fun k => real_mul (ha n k) (hW k q)

/-- The maximum of a real number and zero is real. -/
theorem max_zero_real {a : EReal} (ha : ∃ r : ℝ, a = (r : EReal)) : ∃ r : ℝ, max a 0 = (r : EReal) := by
  rcases le_total a 0 with h | h
  · exact ⟨0, by rw [max_eq_right h]; exact EReal.coe_zero.symm⟩
  · rw [max_eq_left h]; exact ha

/-- The entrywise maximum with zero of a real matrix is real. -/
theorem relu_real (a : Mat) (ha : ∀ n q, ∃ r : ℝ, a n q = (r : EReal)) : ∀ n q, ∃ r : ℝ, relu a n q = (r : EReal) :=
  fun n q => max_zero_real (ha n q)

/-! ## One layer, and the network -/

/-- One layer (product, aggregation, normalization) on real data: the two forms agree and give real entries. -/
theorem layer (h : Mat) (W : Fin 128 → Fin 128 → EReal) (b γ β : Fin 128 → EReal) (dv : Fin 100000 → EReal)
    (nr : Fin 1600000 → EReal) (sr : Fin 1600000 → Fin 100000) (L : Fin 100000 → Finset (Fin 1600000))
    (hh : ∀ n q, ∃ r : ℝ, h n q = (r : EReal)) (hW : ∀ k q, ∃ r : ℝ, W k q = (r : EReal))
    (hb : ∀ q, ∃ r : ℝ, b q = (r : EReal)) (hγ : ∀ q, ∃ r : ℝ, γ q = (r : EReal))
    (hβ : ∀ q, ∃ r : ℝ, β q = (r : EReal)) (hdv : ∀ n, ∃ r : ℝ, dv n = (r : EReal))
    (hnr : ∀ e, ∃ r : ℝ, nr e = (r : EReal)) :
    bnK (convK (mm h W) dv nr sr L b) γ β = bnR (convR (mm h W) dv nr sr L b) γ β
      ∧ ∀ n q, ∃ r : ℝ, bnR (convR (mm h W) dv nr sr L b) γ β n q = (r : EReal) := by
  rw [convK_eq_convR]
  exact bn_real _ γ β (convR_real _ dv nr sr L b (mm_real h W hh hW) hdv hnr hb) hγ hβ

/-- On real data the kernel's network is the reference's network. -/
theorem netK_eq_netR (x : Mat) (W1 W2 : Fin 128 → Fin 128 → EReal) (b1 b2 γ β : Fin 128 → EReal)
    (dv : Fin 100000 → EReal) (nr : Fin 1600000 → EReal) (sr : Fin 1600000 → Fin 100000)
    (L : Fin 100000 → Finset (Fin 1600000))
    (hx : ∀ n q, ∃ r : ℝ, x n q = (r : EReal)) (hW1 : ∀ k q, ∃ r : ℝ, W1 k q = (r : EReal))
    (hW2 : ∀ k q, ∃ r : ℝ, W2 k q = (r : EReal)) (hb1 : ∀ q, ∃ r : ℝ, b1 q = (r : EReal))
    (hb2 : ∀ q, ∃ r : ℝ, b2 q = (r : EReal)) (hγ : ∀ q, ∃ r : ℝ, γ q = (r : EReal))
    (hβ : ∀ q, ∃ r : ℝ, β q = (r : EReal)) (hdv : ∀ n, ∃ r : ℝ, dv n = (r : EReal))
    (hnr : ∀ e, ∃ r : ℝ, nr e = (r : EReal)) :
    netK x W1 W2 b1 b2 γ β dv nr sr L = netR x W1 W2 b1 b2 γ β dv nr sr L := by
  obtain ⟨e1, r1⟩ := layer x W1 b1 γ β dv nr sr L hx hW1 hb1 hγ hβ hdv hnr
  obtain ⟨e2, _⟩ := layer (relu (bnR (convR (mm x W1) dv nr sr L b1) γ β)) W2 b2 γ β dv nr sr L
    (relu_real _ r1) hW2 hb2 hγ hβ hdv hnr
  funext n q
  simp only [netK, netR]
  rw [e1, e2]

end Cert.GCN

end
-- ==== Proof.Finite.lean ====
/-
  The precondition on the inputs, read back: when the printed predicate (for each of the seven float arrays, the
  absolute value of every entry compared below the literal +infinity, all comparisons conjoined) comes out true,
  every entry of each of the seven arrays is a real number.

  * the literal is the top element of the extended reals;
  * an extended real whose absolute value max(x, -x) is strictly below the top element is a real number: for either
    infinity the absolute value is the top element itself;
  * a conjunction over all entries that is true is true at each entry, and a conjunction of two is true only when both are.
-/
import proofs.«118271_j25778393710892_2_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic
open Cert.Pre_finite_inputs

/-- The scalar shape has one index. -/
instance : Subsingleton S_.Idx := ⟨fun a b => funext fun d => d.elim0⟩

/-- The literal with all exponent bits set and no fraction bit is +infinity. -/
theorem inf_lit : Ideal.ofBits .f32 0x7F800000#32 = (⊤ : EReal) := by
  simp [Ideal.ofBits, Ideal.ieee]

/-- An extended real with max(x, -x) strictly below +infinity is a real number. -/
theorem real_of_abs_lt (x : EReal)
    (h : Ideal.cmp .olt (max x (-x)) (Ideal.ofBits .f32 0x7F800000#32) = 1#1) : ∃ r : ℝ, x = (r : EReal) := by
  rw [inf_lit] at h
  induction x using EReal.rec with
  | bot => simp [Ideal.cmp] at h
  | coe r => exact ⟨r, rfl⟩
  | top => simp [Ideal.cmp] at h

/-- One array: if the conjunction over all entries of |x| < +infinity is true, every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  have hi := Host.reduce_andi_all _ _ hr hu _ h i
  exact real_of_abs_lt (x i) hi

/-- The precondition true: every entry of each of the seven float arrays is a real number. -/
theorem real_of_pre (a0 : FVec Ideal Cert.Pre_finite_inputs.S100000x128 .f32)
    (a1 : FVec Ideal Cert.Pre_finite_inputs.S128x128 .f32) (a2 : FVec Ideal Cert.Pre_finite_inputs.S128 .f32)
    (a3 : FVec Ideal Cert.Pre_finite_inputs.S128x128 .f32) (a4 a5 a6 : FVec Ideal Cert.Pre_finite_inputs.S128 .f32)
    (a7 : IVec Cert.Pre_finite_inputs.S2x1600000 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨p0, p1⟩, p2⟩, p3⟩, p4⟩, p5⟩, p6⟩ := h0
  exact ⟨real_of_all a0 _ _ _ p0, real_of_all a1 _ _ _ p1, real_of_all a2 _ _ _ p2, real_of_all a3 _ _ _ p3,
    real_of_all a4 _ _ _ p4, real_of_all a5 _ _ _ p5, real_of_all a6 _ _ _ p6⟩

end Cert.Finite

end
-- ==== Proof.Result.lean ====
import proofs.«118271_j25778393710892_2_alg».proof.Defs
import proofs.«118271_j25778393710892_2_alg».proof.Proof.KernelValue
import proofs.«118271_j25778393710892_2_alg».proof.Proof.RegionLin
import proofs.«118271_j25778393710892_2_alg».proof.Proof.RegionOut
import proofs.«118271_j25778393710892_2_alg».proof.Proof.RegionStats1
import proofs.«118271_j25778393710892_2_alg».proof.Proof.RegionStats3
import proofs.«118271_j25778393710892_2_alg».proof.Proof.RefEntries
import proofs.«118271_j25778393710892_2_alg».proof.Proof.Bridge
import proofs.«118271_j25778393710892_2_alg».proof.Proof.Math
import proofs.«118271_j25778393710892_2_alg».proof.Proof.Finite

/-!
  The two results are one array.  At every entry the kernel program's result is the folded network (netK) of the launch
  arrays and the reference's result is the centred network (netR) of the same arrays; the edge-derived weights, source
  nodes and landing sets are the same in both; every float input is finite, so every entry of the inputs is a real
  number, and on real inputs the two networks agree: moving the self term inside the edge sum is commutativity, and the
  two forms of the variance and of the normalization agree on real columns.
-/

set_option maxRecDepth 16384

noncomputable section

namespace Cert.Result

open Idealize.ShloMosaic Idealize.ShloMosaic.TcCoe Idealize.SL.Sem Idealize.ShloMosaic.ValueIdx
open Cert.GCN

/-- the five regions' values, entry by entry -/
theorem regionFacts : Cert.KernelIdeal.KernelValue.RegionFacts where
  region0_out := Cert.KernelIdeal.RegionValue.region0_out
  region1_out := Cert.KernelIdeal.RegionValue.region1_out
  region1_sum := Cert.KernelIdeal.RegionValue.region1_sum
  region1_sumsq := Cert.KernelIdeal.RegionValue.region1_sumsq
  region2_out := Cert.KernelIdeal.RegionValue.region2_out
  region3_out := Cert.KernelIdeal.RegionValue.region3_out
  region3_sum := Cert.KernelIdeal.RegionValue.region3_sum
  region3_sumsq := Cert.KernelIdeal.RegionValue.region3_sumsq
  region4_out := Cert.KernelIdeal.RegionValue.region4_out

/-- The reference's result term of arrays agreeing with the kernel program's arguments is the kernel program's result
    array, when every float argument is finite. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.ReferenceIdeal.Value.res_main_v164 m' c
      = Cert.KernelIdeal.Gen.W10 m ρ c (Proc.devRef .tc Cert.KernelIdeal.main_v107) := by
  obtain ⟨e0, e1, e2, e3, e4, e5, e6, e7⟩ := hagree
  obtain ⟨r0, r1, r2, r3, r4, r5, r6⟩ := Cert.Finite.real_of_pre _ _ _ _ _ _ _ _ hpre
  rw [Cert.ReferenceIdeal.Read.val_main_v164_eq, e0, e1, e2, e3, e4, e5, e6, e7]
  funext i
  obtain ⟨n, q, rfl⟩ : ∃ (n : Fin 100000) (q : Fin 128), i = ix2 n q := ⟨i 0, i 1, eq_ix2 i⟩
  refine ((Cert.ReferenceIdeal.RefEntries.result_entry _ _ _ _ _ _ _ _ n q).trans ?_).trans
    (Cert.KernelIdeal.KernelValue.result_entry m ρ c regionFacts n q).symm
  have hdv : Cert.ReferenceIdeal.RefEntries.dvR (m ((c.tc : Thread Cert.KernelIdeal.nD Cert.KernelIdeal.τ).loc Cert.KernelIdeal.main_arg7)) = Cert.KernelIdeal.KernelValue.dvM m c :=
    funext fun n => congrArg (fun a => rd Cert.KernelIdeal.S100000 a (ix1 n)) (Cert.Bridge.dinv_eq _)
  have hnr : Cert.ReferenceIdeal.RefEntries.nrR (m ((c.tc : Thread Cert.KernelIdeal.nD Cert.KernelIdeal.τ).loc Cert.KernelIdeal.main_arg7)) = Cert.KernelIdeal.KernelValue.nrM m c :=
    funext fun e => congrArg (fun a => rd Cert.KernelIdeal.S1600000 a (ix1 e)) (Cert.Bridge.norm_eq _)
  have hsr : Cert.ReferenceIdeal.RefEntries.srR (m ((c.tc : Thread Cert.KernelIdeal.nD Cert.KernelIdeal.τ).loc Cert.KernelIdeal.main_arg7)) = Cert.KernelIdeal.KernelValue.srM m c :=
    funext fun e => congrArg (fun a : IVec Cert.KernelIdeal.S1600000x1 32 => Cert.Lib.RowGatherScatter.srcRow 100000 (by decide) (a (ix2 e 0))) (Cert.Bridge.srcCol_eq _)
  have hL : Cert.ReferenceIdeal.RefEntries.LR (m ((c.tc : Thread Cert.KernelIdeal.nD Cert.KernelIdeal.τ).loc Cert.KernelIdeal.main_arg7)) = Cert.KernelIdeal.KernelValue.LM m c :=
    funext fun n => congrArg (fun a : IVec Cert.KernelIdeal.S1600000x1 32 => Finset.univ.filter fun e : Fin 1600000 => (a (ix2 e 0)).toInt = (n.val : ℤ)) (Cert.Bridge.dstCol_eq _)
  rw [hdv, hnr, hsr, hL]
  refine (congrFun (congrFun (netK_eq_netR (Cert.KernelIdeal.KernelValue.xM m c) (Cert.KernelIdeal.KernelValue.w1M m c)
    (Cert.KernelIdeal.KernelValue.w2M m c) (Cert.KernelIdeal.KernelValue.b1M m c) (Cert.KernelIdeal.KernelValue.b2M m c)
    (Cert.KernelIdeal.KernelValue.gM m c) (Cert.KernelIdeal.KernelValue.bM m c) (Cert.KernelIdeal.KernelValue.dvM m c)
    (Cert.KernelIdeal.KernelValue.nrM m c) (Cert.KernelIdeal.KernelValue.srM m c) (Cert.KernelIdeal.KernelValue.LM m c)
    (fun n q => r0 _) (fun k q => r1 _) (fun k q => r3 _) (fun q => r2 _) (fun q => r4 _) (fun q => r5 _) (fun q => r6 _)
    (fun n => by rw [← hdv]; exact Cert.ReferenceIdeal.RefEntries.dv_real _ n) (fun e => by rw [← hnr]; exact Cert.ReferenceIdeal.RefEntries.nr_real _ e)) n) q).symm

end Cert.Result

end
-- ==== Proof.lean ====
/- The certificate: the three frames, the (empty) idealization ledger, and the equality of the two idealized programs'
   results over the extended reals.
   The word-level kernel program and its idealization run by their generated frame certificates. The reference, a program
   of host operations only, runs by its generated run (RefRunPatched.lean), whose result term is read stage by stage
   (RefReadPatched.lean). The kernel program's result array is read off its frame run, segment by
   segment (KernelRun.lean, KernelValue.lean); that the two arrays are equal on finite inputs is Result.lean. -/
import proofs.«118271_j25778393710892_2_alg».proof.Defs
import proofs.«118271_j25778393710892_2_alg».proof.Proof.Gen.Kernel
import proofs.«118271_j25778393710892_2_alg».proof.Proof.Gen.Kernel.Skeleton
import proofs.«118271_j25778393710892_2_alg».proof.Proof.Gen.Kernel.Launch
import proofs.«118271_j25778393710892_2_alg».proof.Proof.Gen.Kernel.Points
import proofs.«118271_j25778393710892_2_alg».proof.Proof.Gen.Kernel.Frame
import proofs.«118271_j25778393710892_2_alg».proof.Proof.Gen.KernelIdeal
import proofs.«118271_j25778393710892_2_alg».proof.Proof.Gen.KernelIdeal.Skeleton
import proofs.«118271_j25778393710892_2_alg».proof.Proof.Gen.KernelIdeal.Launch
import proofs.«118271_j25778393710892_2_alg».proof.Proof.Gen.KernelIdeal.Points
import proofs.«118271_j25778393710892_2_alg».proof.Proof.Gen.KernelIdeal.Frame
import proofs.«118271_j25778393710892_2_alg».proof.Proof.Gen.ReferenceIdeal
import proofs.«118271_j25778393710892_2_alg».proof.Proof.Gen.Pre_finite_inputs
import proofs.«118271_j25778393710892_2_alg».proof.Proof.KernelRun
import proofs.«118271_j25778393710892_2_alg».proof.Proof.Result
import Idealize.ShloMosaic.Adequacy
import Idealize.ShloMosaic.Init

noncomputable section

namespace Cert.Proof

open Idealize.ShloMosaic Idealize.SL.Sem Cert.Kernel

/-- The word-level kernel program runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, every float argument finite, both idealized programs run and end with the
    same result array. -/
theorem algebraic : Cert.algebraic_KernelIdeal_ReferenceIdeal := by
  intro m ρ m' ρ' hpre hagree
  refine ⟨fun c => Cert.KernelIdeal.Gen.W10 m ρ c (Proc.devRef .tc Cert.KernelIdeal.main_v107),
    Cert.KernelIdeal.RunValue.run_result (F := Ideal) m ρ, ?_⟩
  refine (θ_run Cert.ReferenceIdeal.defs _ _).mono (fun r h c => ⟨(h c).1.trans ?_, (h c).2⟩)
    (Cert.ReferenceIdeal.Value.run (F := Ideal) m' ρ')
  exact Cert.Result.result_eq m ρ m' c (hpre c) (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
